-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x128 : Shape := ⟨2, ![512, 128]⟩
abbrev S512 : Shape := ⟨1, ![512]⟩
abbrev S_ : Shape := ⟨0, ![]⟩

class Facts : Prop where
  bcast_S_S512x128 : S_.BroadcastsInDim S512x128 (![] : Fin 0 → Fin S512x128.rank)
  reducesTo_S512x128_S_d0_1 : S512x128.ReducesTo [0, 1] S_
  h_S_ : 0 < S_.numel

variable [Facts]

def fn {F : FTy → Type} [FloatOps F] (main_arg0 : FVec F S512x128 .f32) (main_arg1 : IVec S512 32) : IVec S_ 1 :=
  let main_v0 : FVec F S512x128 .f32 := Host.absf main_arg0
  let main_cst : FVec F S_ .f32 := constant S_ .f32 0x7F800000#32
  let main_v1 : FVec F S512x128 .f32 := broadcastInDim S512x128 ![] bcast_S_S512x128 main_cst
  let main_v2 : IVec S512x128 1 := cmpf .olt main_v0 main_v1
  let main_c : IVec S_ 1 := constantI S_ 1 1#1
  let main_v3 : IVec S_ 1 := (fun x v => Host.reduce IntOp.andi x v reducesTo_S512x128_S_d0_1 h_S_) main_v2 main_c
  main_v3
-- ==== Kernel.lean ====
abbrev S512x128 : Shape := ⟨2, ![512, 128]⟩
abbrev S512 : Shape := ⟨1, ![512]⟩
abbrev S512x512 : Shape := ⟨2, ![512, 512]⟩
abbrev S128x512 : Shape := ⟨2, ![128, 512]⟩
abbrev S512x1 : Shape := ⟨2, ![512, 1]⟩
abbrev S1x512 : Shape := ⟨2, ![1, 512]⟩
abbrev S1x1 : Shape := ⟨2, ![1, 1]⟩
abbrev S16x512 : Shape := ⟨2, ![16, 512]⟩
abbrev S16x128 : Shape := ⟨2, ![16, 128]⟩
abbrev S16x1 : Shape := ⟨2, ![16, 1]⟩
abbrev S1x128 : Shape := ⟨2, ![1, 128]⟩
abbrev S16x512x1 : Shape := ⟨3, ![16, 512, 1]⟩
abbrev S16x1x128 : Shape := ⟨3, ![16, 1, 128]⟩
abbrev S16x512x128 : Shape := ⟨3, ![16, 512, 128]⟩
abbrev S16 : Shape := ⟨1, ![16]⟩
abbrev S1x16 : Shape := ⟨2, ![1, 16]⟩
abbrev S1 : Shape := ⟨1, ![1]⟩
abbrev S_ : Shape := ⟨0, ![]⟩

abbrev nBuf : Space → Nat
  | .hbm => 17
  | .vmem => 13
  | .smem => 0
  | _ => 0

abbrev bufTy : (tb : Table) → Fin (tcTables nBuf tb) → BufTy
  | .hbm, ⟨0, _⟩ => ⟨S512x128, .f32⟩
  | .hbm, ⟨1, _⟩ => ⟨S512, .i32⟩
  | .hbm, ⟨2, _⟩ => ⟨S512x512, .f32⟩
  | .hbm, ⟨3, _⟩ => ⟨S512x1, .i32⟩
  | .hbm, ⟨4, _⟩ => ⟨S1x512, .i32⟩
  | .hbm, ⟨5, _⟩ => ⟨S1x1, .f32⟩
  | .hbm, ⟨6, _⟩ => ⟨S1x1, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .i1⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .local _ .vmem, ⟨0, _⟩ => ⟨S512x128, .f32⟩
  | .local _ .vmem, ⟨1, _⟩ => ⟨S512x512, .f32⟩
  | .local _ .vmem, ⟨2, _⟩ => ⟨S16x512, .f32⟩
  | .local _ .vmem, ⟨3, _⟩ => ⟨S16x512, .f32⟩
  | .local _ .vmem, ⟨4, _⟩ => ⟨S16x128, .f32⟩
  | .local _ .vmem, ⟨5, _⟩ => ⟨S16x128, .f32⟩
  | .local _ .vmem, ⟨6, _⟩ => ⟨S16x1, .i32⟩
  | .local _ .vmem, ⟨7, _⟩ => ⟨S16x1, .i32⟩
  | .local _ .vmem, ⟨8, _⟩ => ⟨S1x512, .i32⟩
  | .local _ .vmem, ⟨9, _⟩ => ⟨S1x128, .i32⟩
  | .local _ .vmem, ⟨10, _⟩ => ⟨S1x128, .i32⟩
  | .local _ .vmem, ⟨11, _⟩ => ⟨S1x1, .f32⟩
  | .local _ .vmem, ⟨12, _⟩ => ⟨S1x1, .f32⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_call0_v0 : Ref sig .tc := ⟨.hbm, 15, rfl⟩
abbrev main_v9 : Ref sig .tc := ⟨.hbm, 16, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg4_1 : Ref sig .tc := ⟨.vmem, 10, rfl⟩
abbrev cc1_stg5_0 : Ref sig .tc := ⟨.vmem, 11, rfl⟩
abbrev cc1_stg6_0 : Ref sig .tc := ⟨.vmem, 12, rfl⟩
abbrev cc0_sem0_0 : DmaSem sig := 0
abbrev cc0_sem1_0 : DmaSem sig := 1
abbrev cc1_sem0_0 : DmaSem sig := 2
abbrev cc1_sem0_1 : DmaSem sig := 3
abbrev cc1_sem1_0 : DmaSem sig := 4
abbrev cc1_sem1_1 : DmaSem sig := 5
abbrev cc1_sem2_0 : DmaSem sig := 6
abbrev cc1_sem2_1 : DmaSem sig := 7
abbrev cc1_sem3_0 : DmaSem sig := 8
abbrev cc1_sem4_0 : DmaSem sig := 9
abbrev cc1_sem4_1 : DmaSem sig := 10
abbrev cc1_sem5_0 : DmaSem sig := 11
abbrev cc1_sem6_0 : DmaSem sig := 12

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨2, ![32, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S16x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S16x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S16x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S1x512 .i32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x128 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

class Facts₀ : Prop where
  inb_S512x128_S512x128_0_0 : ∀ a, (![0, 0] : Fin 2 → Nat) a + S512x128.size a ≤ S512x128.size a
  h_S512x128 : 0 < S512x128.numel
  reduces_S512x128_S512 : S512x128.Reduces [1] S512
  bitsLt_bf16_f32 : FTy.bits .bf16 < FTy.bits .f32
  transposes_S512x128_p1_0_S128x512 : S512x128.Transposes [1, 0] S128x512
  shapeCasts_S512_S512x1 : S512.ShapeCasts S512x1
  shapeCasts_S512_S1x512 : S512.ShapeCasts S1x512
  broadcasts_S512x1_S512x512 : S512x1.Broadcasts S512x512
  broadcasts_S1x512_S512x512 : S1x512.Broadcasts S512x512
  inb_S512x512_S512x512_0_0 : ∀ a, (![0, 0] : Fin 2 → Nat) a + S512x512.size a ≤ S512x512.size a
  h_S512x512 : 0 < S512x512.numel
  inb_S1x1_S1x1_0_0 : ∀ a, (![0, 0] : Fin 2 → Nat) a + S1x1.size a ≤ S1x1.size a
  h_S1x1 : 0 < S1x1.numel
  inb_S16x512_S16x512_0_0 : ∀ a, (![0, 0] : Fin 2 → Nat) a + S16x512.size a ≤ S16x512.size a
  h_S16x512 : 0 < S16x512.numel
  shapeCasts_S16x512_S16x512 : S16x512.ShapeCasts S16x512
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S16x1_S16x1_0_0 : ∀ a, (![0, 0] : Fin 2 → Nat) a + S16x1.size a ≤ S16x1.size a
  h_S16x1 : 0 < S16x1.numel
  shapeCasts_S16x1_S16x1 : S16x1.ShapeCasts S16x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S16x1_S16x512 : S16x1.Broadcasts S16x512
  broadcasts_S1x512_S16x512 : S1x512.Broadcasts S16x512
  iota_S16x512_d0_w32 : S16x512.Iotas .tc 32 [0]
  iota_S16x512_d1_w32 : S16x512.Iotas .tc 32 [1]
  broadcasts_S16x1_S16x128 : S16x1.Broadcasts S16x128
  broadcasts_S1x128_S16x128 : S1x128.Broadcasts S16x128
  natLt_1_32 : 1 < 32
  shapeCasts_S16x512_S16x512x1 : S16x512.ShapeCasts S16x512x1
  shapeCasts_S16x128_S16x1x128 : S16x128.ShapeCasts S16x1x128
  broadcasts_S16x512x1_S16x512x128 : S16x512x1.Broadcasts S16x512x128
  broadcasts_S16x1x128_S16x512x128 : S16x1x128.Broadcasts S16x512x128
  reduces_S16x512x128_S16x512 : S16x512x128.Reduces [2] S16x512
  reduces_S16x512_S16 : S16x512.Reduces [1] S16
  shapeCasts_S16_S1x16 : S16.ShapeCasts S1x16
  reduces_S1x16_S1 : S1x16.Reduces [1] S1
  shapeCasts_S1_S1x1 : S1.ShapeCasts S1x1
  inpos_S1x1_p0_0 : ∀ a, (![0, 0] : Fin 2 → Nat) a < S1x1.size a
  shapeCasts_S1x1_S1x1 : S1x1.ShapeCasts S1x1
  shapeCasts_S1x1_S_ : S1x1.ShapeCasts S_
  dot_S512x128_S128x512_S512x512_1_0_0_1_n_n_wf : DotDims.WF S512x128 S128x512 S512x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S512x128.size a
  hwx0_0 : ∀ i : grid0.Coords, EltTy.bits .f32 = 32 ∨ (Rect.block (s := S512x128) S512x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x512.size a ≤ S512x512.size a
  hwx1_0 : ∀ i : grid1.Coords, EltTy.bits .f32 = 32 ∨ (Rect.block (s := S512x512) S16x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16x128.size a ≤ S512x512.size a
  hwx1_1 : ∀ i : grid1.Coords, EltTy.bits .f32 = 32 ∨ (Rect.block (s := S512x512) S16x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S16x1.size a ≤ S512x1.size a
  hwx1_2 : ∀ i : grid1.Coords, EltTy.bits .i32 = 32 ∨ (Rect.block (s := S512x1) S16x1.size (cc1_transform_2 i) (hinb1_2 i)).WholeWords (EltTy.packing .i32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .i32 = 32 ∨ (Rect.block (s := S1x512) S1x512.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x512.size a
  hwx1_4 : ∀ i : grid1.Coords, EltTy.bits .i32 = 32 ∨ (Rect.block (s := S1x512) S1x128.size (cc1_transform_4 i) (hinb1_4 i)).WholeWords (EltTy.packing .i32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1.size a ≤ S1x1.size a
  hwx1_5 : ∀ i : grid1.Coords, EltTy.bits .f32 = 32 ∨ (Rect.block (s := S1x1) S1x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1.size a ≤ S1x1.size a
  hwx1_6 : ∀ i : grid1.Coords, EltTy.bits .f32 = 32 ∨ (Rect.block (s := S1x1) S1x1.size (cc1_transform_6 i) (hinb1_6 i)).WholeWords (EltTy.packing .f32)

variable [Facts₀]

def dot_S512x128_S128x512_S512x512_1_0_0_1_n_n : DotDims S512x128 S128x512 S512x512 where
  lhsContracting := [1]
  rhsContracting := [0]
  lhsNonContracting := [0]
  rhsNonContracting := [1]
  lhsBatch := []
  rhsBatch := []
  wf := dot_S512x128_S128x512_S512x512_1_0_0_1_n_n_wf

abbrev win0_0 : Pipeline.Window sig grid0 :=
  Pipeline.Window.ofSpec (Memref.whole main_arg0) S512x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x512.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S16x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S16x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S16x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2) S1x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v3_0) S1x1.size cc1_transform_5 reads1_5 true true 1 stage1_5 sem1_5
    hrank1 hreads1_5 hinb1_5 nbuf1_5 (Memref.isWhole_whole _) hwx1_5 hstage1_5

abbrev win1_6 : Pipeline.Window sig grid1 :=
  Pipeline.Window.ofSpec (Memref.whole main_v3_1) S1x1.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S512x128 : Shape := ⟨2, ![512, 128]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S128x512 : Shape := ⟨2, ![128, 512]⟩
abbrev S512x512x1 : Shape := ⟨3, ![512, 512, 1]⟩
abbrev S512x1x512 : Shape := ⟨3, ![512, 1, 512]⟩
abbrev S512x512x512 : Shape := ⟨3, ![512, 512, 512]⟩

abbrev nBuf : Space → Nat
  | .hbm => 79
  | .vmem => 0
  | .smem => 0
  | _ => 0

abbrev bufTy : (tb : Table) → Fin (tcTables nBuf tb) → BufTy
  | .hbm, ⟨0, _⟩ => ⟨S512x128, .f32⟩
  | .hbm, ⟨1, _⟩ => ⟨S512, .i32⟩
  | .hbm, ⟨2, _⟩ => ⟨S512x128, .f32⟩
  | .hbm, ⟨3, _⟩ => ⟨S_, .f32⟩
  | .hbm, ⟨4, _⟩ => ⟨S512, .f32⟩
  | .hbm, ⟨5, _⟩ => ⟨S512x1, .f32⟩
  | .hbm, ⟨6, _⟩ => ⟨S1x512, .f32⟩
  | .hbm, ⟨7, _⟩ => ⟨S512x512, .f32⟩
  | .hbm, ⟨8, _⟩ => ⟨S512x512, .f32⟩
  | .hbm, ⟨9, _⟩ => ⟨S512x512, .f32⟩
  | .hbm, ⟨10, _⟩ => ⟨S128x512, .f32⟩
  | .hbm, ⟨11, _⟩ => ⟨S512x512, .f32⟩
  | .hbm, ⟨12, _⟩ => ⟨S_, .f32⟩
  | .hbm, ⟨13, _⟩ => ⟨S512x512, .f32⟩
  | .hbm, ⟨14, _⟩ => ⟨S512x512, .f32⟩
  | .hbm, ⟨15, _⟩ => ⟨S512x512, .f32⟩
  | .hbm, ⟨16, _⟩ => ⟨S_, .f32⟩
  | .hbm, ⟨17, _⟩ => ⟨S512x512, .f32⟩
  | .hbm, ⟨18, _⟩ => ⟨S512x512, .f32⟩
  | .hbm, ⟨19, _⟩ => ⟨S_, .f32⟩
  | .hbm, ⟨20, _⟩ => ⟨S512x512, .f32⟩
  | .hbm, ⟨21, _⟩ => ⟨S512x512, .i1⟩
  | .hbm, ⟨22, _⟩ => ⟨S_, .f32⟩
  | .hbm, ⟨23, _⟩ => ⟨S_, .f32⟩
  | .hbm, ⟨24, _⟩ => ⟨S512x512, .f32⟩
  | .hbm, ⟨25, _⟩ => ⟨S512x512, .f32⟩
  | .hbm, ⟨26, _⟩ => ⟨S512x512, .f32⟩
  | .hbm, ⟨27, _⟩ => ⟨S_, .f32⟩
  | .hbm, ⟨28, _⟩ => ⟨S_, .f32⟩
  | .hbm, ⟨29, _⟩ => ⟨S512x512, .f32⟩
  | .hbm, ⟨30, _⟩ => ⟨S512x512, .f32⟩
  | .hbm, ⟨31, _⟩ => ⟨S512x1, .i32⟩
  | .hbm, ⟨32, _⟩ => ⟨S1x512, .i32⟩
  | .hbm, ⟨33, _⟩ => ⟨S512x512, .i32⟩
  | .hbm, ⟨34, _⟩ => ⟨S512x512, .i32⟩
  | .hbm, ⟨35, _⟩ => ⟨S512x512, .i1⟩
  | .hbm, ⟨36, _⟩ => ⟨S512x512, .i32⟩
  | .hbm, ⟨37, _⟩ => ⟨S512x512, .i32⟩
  | .hbm, ⟨38, _⟩ => ⟨S_, .i32⟩
  | .hbm, ⟨39, _⟩ => ⟨S512x512, .i32⟩
  | .hbm, ⟨40, _⟩ => ⟨S512x512, .i32⟩
  | .hbm, ⟨41, _⟩ => ⟨S512x512, .i1⟩
  | .hbm, ⟨42, _⟩ => ⟨S512x512, .i1⟩
  | .hbm, ⟨43, _⟩ => ⟨S512x512, .i1⟩
  | .hbm, ⟨44, _⟩ => ⟨S512x512, .i1⟩
  | .hbm, ⟨45, _⟩ => ⟨S512x512x1, .i1⟩
  | .hbm, ⟨46, _⟩ => ⟨S512x1x512, .i1⟩
  | .hbm, ⟨47, _⟩ => ⟨S512x512x512, .i1⟩
  | .hbm, ⟨48, _⟩ => ⟨S512x512x512, .i1⟩
  | .hbm, ⟨49, _⟩ => ⟨S512x512x512, .i1⟩
  | .hbm, ⟨50, _⟩ => ⟨S512x512x1, .f32⟩
  | .hbm, ⟨51, _⟩ => ⟨S512x1x512, .f32⟩
  | .hbm, ⟨52, _⟩ => ⟨S512x512x512, .f32⟩
  | .hbm, ⟨53, _⟩ => ⟨S512x512x512, .f32⟩
  | .hbm, ⟨54, _⟩ => ⟨S512x512x512, .f32⟩
  | .hbm, ⟨55, _⟩ => ⟨S_, .f32⟩
  | .hbm, ⟨56, _⟩ => ⟨S512x512x512, .f32⟩
  | .hbm, ⟨57, _⟩ => ⟨S512x512x512, .f32⟩
  | .hbm, ⟨58, _⟩ => ⟨S_, .f32⟩
  | .hbm, ⟨59, _⟩ => ⟨S512x512x512, .f32⟩
  | .hbm, ⟨60, _⟩ => ⟨S512x512x512, .f32⟩
  | .hbm, ⟨61, _⟩ => ⟨S512x512x512, .i32⟩
  | .hbm, ⟨62, _⟩ => ⟨S_, .i32⟩
  | .hbm, ⟨63, _⟩ => ⟨S_, .i32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S512x512x512, .f32⟩
  | .hbm, ⟨68, _⟩ => ⟨S512x512x512, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .i1⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | _, _ => ⟨S512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_call0_v0 : Ref sig .tc := ⟨.hbm, 23, rfl⟩
abbrev main_call0_v1 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_call1_v0 : Ref sig .tc := ⟨.hbm, 28, rfl⟩
abbrev main_call1_v1 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_5 : Ref sig .tc := ⟨.hbm, 55, rfl⟩
abbrev main_v42 : Ref sig .tc := ⟨.hbm, 56, rfl⟩
abbrev main_v43 : Ref sig .tc := ⟨.hbm, 57, rfl⟩
abbrev main_call2_cst : Ref sig .tc := ⟨.hbm, 58, rfl⟩
abbrev main_call2_v0 : Ref sig .tc := ⟨.hbm, 59, rfl⟩
abbrev main_v44 : Ref sig .tc := ⟨.hbm, 60, rfl⟩
abbrev main_v45 : Ref sig .tc := ⟨.hbm, 61, rfl⟩
abbrev main_c_6 : Ref sig .tc := ⟨.hbm, 62, rfl⟩
abbrev main_v46 : Ref sig .tc := ⟨.hbm, 63, rfl⟩
abbrev main_v47 : Ref sig .tc := ⟨.hbm, 64, rfl⟩
abbrev main_cst_7 : Ref sig .tc := ⟨.hbm, 65, rfl⟩
abbrev main_call3_v0 : Ref sig .tc := ⟨.hbm, 66, rfl⟩
abbrev main_call3_v1 : Ref sig .tc := ⟨.hbm, 67, rfl⟩
abbrev main_v48 : Ref sig .tc := ⟨.hbm, 68, rfl⟩
abbrev main_cst_8 : Ref sig .tc := ⟨.hbm, 69, rfl⟩
abbrev main_v49 : Ref sig .tc := ⟨.hbm, 70, rfl⟩
abbrev main_cst_9 : Ref sig .tc := ⟨.hbm, 71, rfl⟩
abbrev main_v50 : Ref sig .tc := ⟨.hbm, 72, rfl⟩
abbrev main_cst_10 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_call4_v0 : Ref sig .tc := ⟨.hbm, 77, rfl⟩
abbrev main_v53 : Ref sig .tc := ⟨.hbm, 78, rfl⟩

abbrev nD : Nat := 1
abbrev τ : Topo := Topo.v7x

variable {F : FTy → Type} [FloatOps F]

class Facts₀ : Prop where
  reducesTo_S512x128_S512_d1 : S512x128.ReducesTo [1] S512
  h_S_ : 0 < S_.numel
  bcast_S512_S512x1_0 : S512.BroadcastsInDim S512x1 (![0] : Fin 1 → Fin S512x1.rank)
  bcast_S512_S1x512_1 : S512.BroadcastsInDim S1x512 (![1] : Fin 1 → Fin S1x512.rank)
  bcast_S512x1_S512x512_0_1 : S512x1.BroadcastsInDim S512x512 (![0, 1] : Fin 2 → Fin S512x512.rank)
  bcast_S1x512_S512x512_0_1 : S1x512.BroadcastsInDim S512x512 (![0, 1] : Fin 2 → Fin S512x512.rank)
  transposes_S512x128_S128x512_1_0 : S512x128.Transposes [1, 0] S128x512
  bcast_S_S512x512 : S_.BroadcastsInDim S512x512 (![] : Fin 0 → Fin S512x512.rank)
  bcast_S512x512_S512x512x1_0_1 : S512x512.BroadcastsInDim S512x512x1 (![0, 1] : Fin 2 → Fin S512x512x1.rank)
  bcast_S512x512_S512x1x512_0_2 : S512x512.BroadcastsInDim S512x1x512 (![0, 2] : Fin 2 → Fin S512x1x512.rank)
  bcast_S512x512x1_S512x512x512_0_1_2 : S512x512x1.BroadcastsInDim S512x512x512 (![0, 1, 2] : Fin 3 → Fin S512x512x512.rank)
  bcast_S512x1x512_S512x512x512_0_1_2 : S512x1x512.BroadcastsInDim S512x512x512 (![0, 1, 2] : Fin 3 → Fin S512x512x512.rank)
  bcast_S_S512x512x512 : S_.BroadcastsInDim S512x512x512 (![] : Fin 0 → Fin S512x512x512.rank)
  natLt_1_32 : 1 < 32
  reducesTo_S512x512x512_S_d0_1_2 : S512x512x512.ReducesTo [0, 1, 2] S_
  dot_S512x128_S128x512_S512x512_1_0_0_1_n_n_wf : DotDims.WF S512x128 S128x512 S512x512 [1] [0] [0] [1] [] []

variable [Facts₀]

def dot_S512x128_S128x512_S512x512_1_0_0_1_n_n : DotDims S512x128 S128x512 S512x512 where
  lhsContracting := [1]
  rhsContracting := [0]
  lhsNonContracting := [0]
  rhsNonContracting := [1]
  lhsBatch := []
  rhsBatch := []
  wf := dot_S512x128_S128x512_S512x512_1_0_0_1_n_n_wf

class Facts : Prop extends Facts₀ where

variable [Facts]
-- ==== Proof.RefFrame.lean ====
/-
  The reference's frame. The reference is a straight-line host program: its run, read back operation by
  operation, ends with every argument array as it began, and that is all the frame claim asks of it.
-/
import proofs.«146165_j50122268344327_2_alg».proof.Defs
import proofs.«146165_j50122268344327_2_alg».proof.Proof.Gen.ReferenceIdeal
import proofs.«146165_j50122268344327_2_alg».proof.Proof.Gen.Pre_finite_inputs
import proofs.«146165_j50122268344327_2_alg».proof.Proof.RefRunP

noncomputable section

open Idealize.ShloMosaic Idealize.ShloMosaic.TcCoe Idealize.SL.Sem

namespace Cert.Proof.RefSide

/-- Every weakly fair execution of the reference terminates without a fault and leaves both arguments unchanged:
    the generated run with the result's value dropped. -/
theorem frame_ri : Cert.frame_ReferenceIdeal := fun m ρ _ =>
  (θ_run Cert.ReferenceIdeal.defs _ _).mono (fun _ h c => (h c).2) (Cert.ReferenceIdeal.ValueP.run (F := Ideal) m ρ)

end Cert.Proof.RefSide

end
-- ==== Proof.IdealDist.lean ====
/-
  The distance kernel's region, at any float instance.

  The region has one grid point. Its body loads the whole [512,128] embedding block, computes the [512,512] matrix of
  pairwise distances from it (row norms, the Gram matrix, the clamp at zero and the guarded square root) and stores that
  matrix whole into the output's staging buffer; the output buffer is also loaded once before the store, and that value is
  not used. So after the body the output buffer holds one function `dist` of the embedding block, whatever it held before.
  This module states that function, proves the body's triple, and gives the pipeline's proof data for the region at a
  parameter `V`: the contents of the TensorCore's buffers when the region is entered.
-/
import proofs.«146165_j50122268344327_2_alg».proof.Proof.Gen.KernelIdeal.Launch
import proofs.«146165_j50122268344327_2_alg».proof.Proof.Gen.KernelIdeal.Skeleton
import proofs.«146165_j50122268344327_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Dist

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at the region's one point, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The embedding window's staging buffer holds the embedding block when the body runs, for any proof data whose array
    is the entry contents and whose body leaves the block in place. -/
theorem before_emb_of {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-! ## The body's two rectangles: the whole embedding block, the whole distance block -/

abbrev rEmb : Rect S512x128 := Rect.unit (s := S512x128) ![0, 0] S512x128.size inb_S512x128_S512x128_0_0
abbrev rDist : Rect S512x512 := Rect.unit (s := S512x512) ![0, 0] S512x512.size inb_S512x512_S512x512_0_0

/-- What the body leaves in the distance window's staging buffer: its one whole store, whose value is the distance
    matrix of the loaded embedding block. -/
def dist (x : Vec F S512x128 .f32) : Vec F S512x512 .f32 :=
  View.canon [⟨rDist, k0_pay1 (View.ld x rEmb)⟩]

/-- The one store covers the buffer. -/
theorem dist_cover (p : Vec F S512x512 .f32) (y : S512x512.Idx) :
    ∃ pc ∈ ([⟨rDist, p⟩] : List (View.Piece (Elt F) S512x512 .f32)), y ∈ pc.1.set :=
  View.cover_of_tiled [⟨rDist, p⟩] S512x512.size (by rfl) y

/-! ## The body's triple -/

set_option maxHeartbeats 1000000 in
/-- The body, on whole staging memrefs with the embedding buffer at `x` and the distance buffer at anything, runs to the
    continuation with the embedding buffer unchanged and the distance buffer at `dist x`. -/
theorem sound_kernel (c : Dev nD) (E : Set ℕ) (i : grid0.Coords) (arg1 : Memref sig .tc .vmem S512x128 .f32) (harg1 : arg1.IsWhole)
    (arg2 : Memref sig .tc .vmem S512x512 .f32) (harg2 : arg2.IsWhole)
    (x : Vec F S512x128 .f32) (K : PUnit → sProp 𝕄) :
    iprop(owns (c : Thread nD τ) arg1 fullShare x ∗ (∃ d, owns (c : Thread nD τ) arg2 fullShare d)
        ∗ (iprop(owns (c : Thread nD τ) arg1 fullShare x ∗ owns (c : Thread nD τ) arg2 fullShare (dist x)) -∗ K ⟨⟩))
      ⊢ wp frame (wpE (defs₀ (F := F)) Variants.none c none) E (cc0__dist_kernel i arg1 harg1 arg2 harg2) K := by
  simp only [cc0__dist_kernel_eq_skeleton]; unfold cc0__dist_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (dist_cover _)

/-! ## The pipeline's proof data -/

/-- The proof data of the distance pipeline on core `c`: the arrays as the region finds them; after the body the
    embedding buffer at its block and the distance buffer at `dist` of that block; the invariant is the scoped rest and
    the generator register, untouched; nothing owed; full shares. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => dist (blk V c 0 t)
  Φ _ := Pipeline.ΦA spec0 c
  q _ := fullShare
  owed _ := 0

theorem A_eq (c : Dev nD) (w : Fin cfg0.W) : (dat V c).A w = V c (Pipeline.arrRef spec0 w) := by
  dsimp only [dat]

theorem after_emb (c : Dev nD) (t : Fin cfg0.N) : (dat V c).after 0 t = blk V c 0 t := by dsimp only [dat]
theorem after_dist (c : Dev nD) (t : Fin cfg0.N) : (dat V c).after 1 t = dist (blk V c 0 t) := by dsimp only [dat]

theorem before_emb (c : Dev nD) (t : Fin cfg0.N) (d) : (dat V c).before 0 t d = blk V c 0 t :=
  before_emb_of V (dat V c) (A_eq V c 0) (after_emb V c) t d

/-! ## The body obligation -/

/-- What the body is called with at the point, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t))

/-- The body at the point: the embedding buffer holds its block, so the triple applies; the invariant and what the core
    owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_emb]
  rw [show (dat V c).Φ t.succ = (dat V c).Φ t.castSucc from rfl,
    show (dat V c).owesAt () t.succ = (dat V c).owesAt () t.castSucc from rfl,
    after_emb, after_dist]
  iintro ⟨HΦ, Ho, ⟨%d0, H0⟩, ⟨%d1, H1⟩⟩
  iapply (sound_kernel c Set.univ _ _ _ _ _ (blk V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dat (F := F) V c) (defs₀ (F := F)) Variants.none () Set.univ := fun t => by
  rw [bigSep_W0, bigSep_W0]
  exact sound_body V c t

end Cert.KernelIdeal.Dist

end
-- ==== Proof.IdealTrip.lean ====
/-
  The triplet kernel's region, at any float instance.

  The region has 32 × 4 grid points. At point (i, k) its body reads a band of 16 rows of the distance matrix, a 16 × 128 tile
  of the same matrix, the 16 labels of the band's rows, all 512 labels, and the 128 labels of the tile's columns. From them
  it forms, over the 16 × 512 × 128 slab of triplets (anchor row, positive column, negative column), the hinge term
  max(d(a,p) − d(a,n) + 1, 0) times a 0/1 mask (same label as the positive, different sample, different label from the
  negative), sums it over the slab and adds the sum to a [1,1] accumulator; it also adds the sum of the mask to a second
  [1,1] accumulator. At the first point, and only there, both accumulators are first reset to zero. The accumulators'
  staging buffers are carried from point to point and written back once, after the last point.

  This module proves the body's triple in its two control cases, states what the accumulators hold after each point by
  recursion on the point, and gives the pipeline's proof data and body obligation at a parameter `V`: the contents of the
  TensorCore's buffers when the region is entered. The distance matrix and the row of labels are each handed to the region
  through two windows, so each is held at two half shares.
-/
import proofs.«146165_j50122268344327_2_alg».proof.Proof.Gen.KernelIdeal.Launch
import proofs.«146165_j50122268344327_2_alg».proof.Proof.Gen.KernelIdeal.Skeleton
import proofs.«146165_j50122268344327_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Trip

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's rectangles and the first-point test -/

abbrev rAcc : Rect S1x1 := Rect.unit (s := S1x1) ![0, 0] S1x1.size inb_S1x1_S1x1_0_0
abbrev rRow : Rect S16x512 := Rect.unit (s := S16x512) ![0, 0] S16x512.size inb_S16x512_S16x512_0_0
abbrev rCol : Rect S16x128 := Rect.unit (s := S16x128) ![0, 0] S16x128.size inb_S16x128_S16x128_0_0
abbrev rLabR : Rect S16x1 := Rect.unit (s := S16x1) ![0, 0] S16x1.size inb_S16x1_S16x1_0_0
abbrev rLabF : Rect S1x512 := Rect.unit (s := S1x512) ![0, 0] S1x512.size inb_S1x512_S1x512_0_0
abbrev rLabK : Rect S1x128 := Rect.unit (s := S1x128) ![0, 0] S1x128.size inb_S1x128_S1x128_0_0

/-- The body's test for the first grid point, as it computes it from the two grid coordinates: both are zero. -/
def isFirst (i : grid1.Coords) : Prop :=
  Scalar.cmpi .ne (Scalar.extui (Scalar.andi (Scalar.cmpi .eq (BitVec.ofNat 32 (i 0).val) 0#32) (Scalar.cmpi .eq (BitVec.ofNat 32 (i 1).val) 0#32)) : BitVec 32) 0#32 = 1#1

instance (i : grid1.Coords) : Decidable (isFirst i) := by unfold isFirst; infer_instance

/-- The mask product the point's three label blocks give: 1 where the row's label equals the positive's and they are
    different samples and the row's label differs from the negative's, 0 elsewhere. -/
abbrev maskOf (i : grid1.Coords) (x2 : Vec F S16x1 .i32) (x3 : Vec F S1x512 .i32) (x4 : Vec F S1x128 .i32) : FVec F S16x512x128 .f32 :=
  k1_pay5 i (View.ld x2 rLabR) (View.ld x3 rLabF) (View.ld x4 rLabK)

/-- The loss accumulator after a point, from its value `a` before: `a` plus the sum over the point's slab of the hinge
    term times the mask. -/
def sumStep (i : grid1.Coords) (x0 : Vec F S16x512 .f32) (x1 : Vec F S16x128 .f32) (x2 : Vec F S16x1 .i32) (x3 : Vec F S1x512 .i32)
    (x4 : Vec F S1x128 .i32) (a : Vec F S1x1 .f32) : Vec F S1x1 .f32 :=
  View.canon [⟨rAcc, k1_pay1 (maskOf i x2 x3 x4) (k1_pay6 (View.ld x0 rRow)) (k1_pay7 (View.ld x1 rCol)) (View.ld a rAcc)⟩]

/-- The count accumulator after a point, from its value `a` before: `a` plus the sum of the mask over the slab. -/
def cntStep (i : grid1.Coords) (x2 : Vec F S16x1 .i32) (x3 : Vec F S1x512 .i32) (x4 : Vec F S1x128 .i32) (a : Vec F S1x1 .f32) :
    Vec F S1x1 .f32 :=
  View.canon [⟨rAcc, k1_pay2 (maskOf i x2 x3 x4) (View.ld a rAcc)⟩]

theorem acc_cover (p : Vec F S1x1 .f32) (y : S1x1.Idx) :
    ∃ pc ∈ ([⟨rAcc, p⟩] : List (View.Piece (Elt F) S1x1 .f32)), y ∈ pc.1.set :=
  View.cover_of_tiled [⟨rAcc, p⟩] S1x1.size (by rfl) y

set_option maxHeartbeats 2000000 in
/-- At a point that is not the first: with the five input buffers at their blocks and the two accumulators at `a7`, `a8`,
    the body leaves the inputs as they were and each accumulator one step on. -/
theorem run_later (c : Dev nD) (E : Set ℕ) (i : grid1.Coords) (hc : ¬ isFirst i) (arg2 : Memref sig .tc .vmem S16x512 .f32) (harg2 : arg2.IsWhole) (arg3 : Memref sig .tc .vmem S16x128 .f32) (harg3 : arg3.IsWhole) (arg4 : Memref sig .tc .vmem S16x1 .i32) (harg4 : arg4.IsWhole) (arg5 : Memref sig .tc .vmem S1x512 .i32) (harg5 : arg5.IsWhole) (arg6 : Memref sig .tc .vmem S1x128 .i32) (harg6 : arg6.IsWhole) (arg7 : Memref sig .tc .vmem S1x1 .f32) (harg7 : arg7.IsWhole) (arg8 : Memref sig .tc .vmem S1x1 .f32) (harg8 : arg8.IsWhole)
    (x0 : Vec F S16x512 .f32) (x1 : Vec F S16x128 .f32) (x2 : Vec F S16x1 .i32) (x3 : Vec F S1x512 .i32) (x4 : Vec F S1x128 .i32)
    (a7 a8 : Vec F S1x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ owns (c : Thread nD τ) arg7 fullShare a7 ∗ owns (c : Thread nD τ) arg8 fullShare a8
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (sumStep i x0 x1 x2 x3 x4 a7) ∗ owns (c : Thread nD τ) arg8 fullShare (cntStep i x2 x3 x4 a8)) -∗ K ⟨⟩))
      ⊢ wp frame (wpE (defs₀ (F := F)) Variants.none c none) E (cc1__triplet_kernel i arg2 harg2 arg3 harg3 arg4 harg4 arg5 harg5 arg6 harg6 arg7 harg7 arg8 harg8) K := by
  haveI : Fact (¬ isFirst i) := ⟨hc⟩
  simp only [cc1__triplet_kernel_eq_skeleton]; unfold cc1__triplet_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f7, %hf7, H7⟩, ⟨%f8, %hf8, H8⟩, Hk⟩
  subst hf0 hf1 hf2 hf3 hf4 hf7 hf8
  sl_exec (disch := exact hc)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H7]
  · iexists _; isplitr
    swap; · iexact H7
    ipureintro
    exact View.read_writes_eq_canon _ _ _ (acc_cover _)
  iexists _; isplitr
  swap; · iexact H8
  ipureintro
  exact View.read_writes_eq_canon _ _ _ (acc_cover _)

theorem hz2 : (![0, 0] : Fin 2 → ℕ) = fun _ => 0 := funext fun a => by match a with | ⟨0, _⟩ => rfl | ⟨1, _⟩ => rfl

/-- The accumulators right after the first point's reset: the zero splat. -/
def zeroSum : Vec F S1x1 .f32 := k1_pay3 (F := F)
def zeroCnt : Vec F S1x1 .f32 := k1_pay4 (F := F)

theorem acc_cover2 (p : Vec F S1x1 .f32) (L : List (View.Piece (Elt F) S1x1 .f32)) (y : S1x1.Idx) :
    ∃ pc ∈ ((⟨rAcc, p⟩ : View.Piece (Elt F) S1x1 .f32) :: L), y ∈ pc.1.set :=
  (acc_cover p y).imp fun pc h => ⟨List.mem_cons.mpr (Or.inl (List.mem_singleton.mp h.1)), h.2⟩

set_option maxHeartbeats 2000000 in
/-- At the first point: with the five input buffers at their blocks and the two accumulators at anything, the body resets
    both accumulators to zero and then takes one step from there. -/
theorem run_first (c : Dev nD) (E : Set ℕ) (i : grid1.Coords) (hc : isFirst i) (arg2 : Memref sig .tc .vmem S16x512 .f32) (harg2 : arg2.IsWhole) (arg3 : Memref sig .tc .vmem S16x128 .f32) (harg3 : arg3.IsWhole) (arg4 : Memref sig .tc .vmem S16x1 .i32) (harg4 : arg4.IsWhole) (arg5 : Memref sig .tc .vmem S1x512 .i32) (harg5 : arg5.IsWhole) (arg6 : Memref sig .tc .vmem S1x128 .i32) (harg6 : arg6.IsWhole) (arg7 : Memref sig .tc .vmem S1x1 .f32) (harg7 : arg7.IsWhole) (arg8 : Memref sig .tc .vmem S1x1 .f32) (harg8 : arg8.IsWhole)
    (x0 : Vec F S16x512 .f32) (x1 : Vec F S16x128 .f32) (x2 : Vec F S16x1 .i32) (x3 : Vec F S1x512 .i32) (x4 : Vec F S1x128 .i32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (sumStep i x0 x1 x2 x3 x4 zeroSum) ∗ owns (c : Thread nD τ) arg8 fullShare (cntStep i x2 x3 x4 zeroCnt)) -∗ K ⟨⟩))
      ⊢ wp frame (wpE (defs₀ (F := F)) Variants.none c none) E (cc1__triplet_kernel i arg2 harg2 arg3 harg3 arg4 harg4 arg5 harg5 arg6 harg6 arg7 harg7 arg8 harg8) K := by
  haveI : Fact (isFirst i) := ⟨hc⟩
  simp only [cc1__triplet_kernel_eq_skeleton]; unfold cc1__triplet_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d7, %f7, -, H7⟩, ⟨%d8, %f8, -, H8⟩, Hk⟩
  subst hf0 hf1 hf2 hf3 hf4
  sl_exec (disch := exact hc)
  sl_step
  sl_unfold_words
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H7]
  · iexists _; isplitr
    swap; · iexact H7
    ipureintro
    rw [View.read_writes_eq_canon _ _ _ (acc_cover2 _ _), View.canon_cons_unit_zero hz2, View.readCov_unit_zero _ hz2]
    unfold sumStep zeroSum
    rw [View.canon_unit_zero hz2, View.ld_unit_zero (S := S1x1) hz2]
    rfl
  iexists _; isplitr
  swap; · iexact H8
  ipureintro
  rw [View.read_writes_eq_canon _ _ _ (acc_cover2 _ _), View.canon_cons_unit_zero hz2, View.readCov_unit_zero _ hz2]
  unfold cntStep zeroCnt
  rw [View.canon_unit_zero hz2, View.ld_unit_zero (S := S1x1) hz2]
  rfl

/-! ## The closed form of the first-point test over the grid -/

/-- The body's first-point test holds exactly at point 0 of the 128. -/
theorem isFirst_iff : ∀ t : Fin cfg1.N, isFirst (grid1.coords t) ↔ t.val = 0 :=
  (by decide +kernel : ∀ t : Fin grid1.N, isFirst (grid1.coords t) ↔ t.val = 0)

/-! ## The windows' blocks, at the entry contents `V` -/

variable (V : (c : Dev nD) → (b : Ref sig .tc) → Buf (Elt F) ((c : Thread nD τ).loc b))

/-- Window `w`'s block at point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: unfetched, its block
    index has not moved since the point that fetched it. -/
theorem before0_of {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- Input window 1's current staging buffer holds its block at every point, fetched there or not: unfetched, its block
    index has not moved since the point that fetched it. -/
theorem before1_of {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- Input window 2's current staging buffer holds its block at every point, fetched there or not: unfetched, its block
    index has not moved since the point that fetched it. -/
theorem before2_of {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-- Input window 3's current staging buffer holds its block at every point, fetched there or not: unfetched, its block
    index has not moved since the point that fetched it. -/
theorem before3_of {c : Dev nD} (dat : Dat τ (Elt F) Unit ℕ (UR sig nD τ) ℕ cfg1 c) (hA : dat.A 3 = V c (Pipeline.arrRef spec1 3))
    (hafter : ∀ t, dat.after 3 t = blk V c 3 t) (t : Fin cfg1.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

/-- Input window 4's current staging buffer holds its block at every point, fetched there or not: unfetched, its block
    index has not moved since the point that fetched it. -/
theorem before4_of {c : Dev nD} (dat : Dat τ (Elt F) Unit ℕ (UR sig nD τ) ℕ cfg1 c) (hA : dat.A 4 = V c (Pipeline.arrRef spec1 4))
    (hafter : ∀ t, dat.after 4 t = blk V c 4 t) (t : Fin cfg1.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

/-! ## The accumulation -/

/-- What the two accumulators' staging buffers hold after the body at position `n`: at the first point one step from
    zero, at a later point one step from what the point before left (the buffers are not written back in between). -/
def accs (c : Dev nD) : (n : ℕ) → n < cfg1.N → Vec F S1x1 .f32 × Vec F S1x1 .f32
  | 0, hn =>
    (sumStep (grid1.coords ⟨0, hn⟩) (blk V c 0 ⟨0, hn⟩) (blk V c 1 ⟨0, hn⟩) (blk V c 2 ⟨0, hn⟩) (blk V c 3 ⟨0, hn⟩) (blk V c 4 ⟨0, hn⟩) zeroSum,
     cntStep (grid1.coords ⟨0, hn⟩) (blk V c 2 ⟨0, hn⟩) (blk V c 3 ⟨0, hn⟩) (blk V c 4 ⟨0, hn⟩) zeroCnt)
  | n + 1, hn =>
    (sumStep (grid1.coords ⟨n + 1, hn⟩) (blk V c 0 ⟨n + 1, hn⟩) (blk V c 1 ⟨n + 1, hn⟩) (blk V c 2 ⟨n + 1, hn⟩) (blk V c 3 ⟨n + 1, hn⟩) (blk V c 4 ⟨n + 1, hn⟩)
        (accs c n (Nat.lt_of_succ_lt hn)).1,
     cntStep (grid1.coords ⟨n + 1, hn⟩) (blk V c 2 ⟨n + 1, hn⟩) (blk V c 3 ⟨n + 1, hn⟩) (blk V c 4 ⟨n + 1, hn⟩)
        (accs c n (Nat.lt_of_succ_lt hn)).2)

theorem accs_first (c : Dev nD) (t : Fin cfg1.N) (h0 : t.val = 0) :
    accs V c t.val t.isLt =
      (sumStep (grid1.coords t) (blk V c 0 t) (blk V c 1 t) (blk V c 2 t) (blk V c 3 t) (blk V c 4 t) zeroSum,
       cntStep (grid1.coords t) (blk V c 2 t) (blk V c 3 t) (blk V c 4 t) zeroCnt) := by
  obtain ⟨n, hn⟩ := t
  cases n with
  | zero => rfl
  | succ n => exact absurd h0 (Nat.succ_ne_zero n)

theorem accs_later (c : Dev nD) (t : Fin cfg1.N) (h0 : t.val ≠ 0) :
    accs V c t.val t.isLt =
      (sumStep (grid1.coords t) (blk V c 0 t) (blk V c 1 t) (blk V c 2 t) (blk V c 3 t) (blk V c 4 t)
          (accs V c (t.val - 1) (Nat.lt_of_le_of_lt (Nat.sub_le _ _) t.isLt)).1,
       cntStep (grid1.coords t) (blk V c 2 t) (blk V c 3 t) (blk V c 4 t)
          (accs V c (t.val - 1) (Nat.lt_of_le_of_lt (Nat.sub_le _ _) t.isLt)).2) := by
  obtain ⟨n, hn⟩ := t
  cases n with
  | zero => exact absurd rfl h0
  | succ n => rfl

/-! ## The pipeline's proof data -/

/-- The share each window holds its array at: the distance matrix is handed to the region twice (a row band and a
    tile of it) and so is the row of labels (whole and a tile), so each of those two arrays is split in two halves;
    the column of labels is held whole, and so are the two outputs. -/
def halfL : PosShare TreeShare := (fullShare : PosShare TreeShare).left
def halfR : PosShare TreeShare := (fullShare : PosShare TreeShare).right

open scoped Idealize.SL.RA.PCS in
/-- The two halves make the whole. -/
theorem half_mem : (fullShare : PosShare TreeShare) ∈ halfL ·? halfR := PosShare.mem_left_op_right fullShare

/-- The proof data of the triplet pipeline on core `c`: the arrays as the region finds them; after the body at point
    `t` each input's buffer at its block and the two accumulators at `accs`; the invariant is the scoped rest and the
    generator register, untouched; nothing owed. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => (accs V c t.val t.isLt).1
    | ⟨6, _⟩ => (accs V c t.val t.isLt).2
  Φ _ := Pipeline.ΦA spec1 c
  q w := match w with
    | ⟨0, _⟩ => halfL
    | ⟨1, _⟩ => halfR
    | ⟨2, _⟩ => fullShare
    | ⟨3, _⟩ => halfL
    | ⟨4, _⟩ => halfR
    | ⟨5, _⟩ => fullShare
    | ⟨6, _⟩ => fullShare
  owed _ := 0

theorem A_eq (c : Dev nD) (w : Fin cfg1.W) : (dat V c).A w = V c (Pipeline.arrRef spec1 w) := by
  dsimp only [dat]

theorem after0 (c : Dev nD) (t : Fin cfg1.N) : (dat V c).after 0 t = blk V c 0 t := by dsimp only [dat]
theorem after1 (c : Dev nD) (t : Fin cfg1.N) : (dat V c).after 1 t = blk V c 1 t := by dsimp only [dat]
theorem after2 (c : Dev nD) (t : Fin cfg1.N) : (dat V c).after 2 t = blk V c 2 t := by dsimp only [dat]
theorem after3 (c : Dev nD) (t : Fin cfg1.N) : (dat V c).after 3 t = blk V c 3 t := by dsimp only [dat]
theorem after4 (c : Dev nD) (t : Fin cfg1.N) : (dat V c).after 4 t = blk V c 4 t := by dsimp only [dat]
theorem after5 (c : Dev nD) (t : Fin cfg1.N) : (dat V c).after 5 t = (accs V c t.val t.isLt).1 := by dsimp only [dat]
theorem after6 (c : Dev nD) (t : Fin cfg1.N) : (dat V c).after 6 t = (accs V c t.val t.isLt).2 := by dsimp only [dat]

theorem before0 (c : Dev nD) (t : Fin cfg1.N) (d) : (dat V c).before 0 t d = blk V c 0 t :=
  before0_of V (dat V c) (A_eq V c 0) (after0 V c) t d
theorem before1 (c : Dev nD) (t : Fin cfg1.N) (d) : (dat V c).before 1 t d = blk V c 1 t :=
  before1_of V (dat V c) (A_eq V c 1) (after1 V c) t d
theorem before2 (c : Dev nD) (t : Fin cfg1.N) (d) : (dat V c).before 2 t d = blk V c 2 t :=
  before2_of V (dat V c) (A_eq V c 2) (after2 V c) t d
theorem before3 (c : Dev nD) (t : Fin cfg1.N) (d) : (dat V c).before 3 t d = blk V c 3 t :=
  before3_of V (dat V c) (A_eq V c 3) (after3 V c) t d
theorem before4 (c : Dev nD) (t : Fin cfg1.N) (d) : (dat V c).before 4 t d = blk V c 4 t :=
  before4_of V (dat V c) (A_eq V c 4) (after4 V c) t d

/-- At a later point the loss accumulator's staging buffer holds what the body left at the point before: the point is
    not the first, and the buffer is written back only after the last point. -/
theorem before5_later (c : Dev nD) (t : Fin cfg1.N) (h0 : t.val ≠ 0) (d) :
    (dat V c).before 5 t d = (accs V c (t.val - 1) (Nat.lt_of_le_of_lt (Nat.sub_le _ _) t.isLt)).1 := by
  have hN : t.val < 128 := lt_of_lt_of_eq t.isLt (show cfg1.N = 128 from N_1)
  rw [Dat.before_out_kept _ 5 rfl t h0 (Bool.eq_false_iff.mpr fun h => by have := (flush1_5 _).mp h; dsimp only at this; omega)
    (fun _ => rfl) (fun _ _ => rfl)]
  dsimp only [dat]

/-- The same for the count accumulator. -/
theorem before6_later (c : Dev nD) (t : Fin cfg1.N) (h0 : t.val ≠ 0) (d) :
    (dat V c).before 6 t d = (accs V c (t.val - 1) (Nat.lt_of_le_of_lt (Nat.sub_le _ _) t.isLt)).2 := by
  have hN : t.val < 128 := lt_of_lt_of_eq t.isLt (show cfg1.N = 128 from N_1)
  rw [Dat.before_out_kept _ 6 rfl t h0 (Bool.eq_false_iff.mpr fun h => by have := (flush1_6 _).mp h; dsimp only at this; omega)
    (fun _ => rfl) (fun _ _ => rfl)]
  dsimp only [dat]

/-! ## The body obligation -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t))

set_option maxHeartbeats 1600000 in
/-- The body at any point: the five inputs' buffers hold their blocks; at point 0 the body is in its first-point case and
    the accumulators' buffers may hold anything; at a later point it is in the other case and they hold what the point
    before left; the invariant and what the core owes pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3, before4]
  rw [show (dat V c).Φ t.succ = (dat V c).Φ t.castSucc from rfl,
    show (dat V c).owesAt () t.succ = (dat V c).owesAt () t.castSucc from rfl,
    after0, after1, after2, after3, after4, after5, after6]
  by_cases h0 : t.val = 0
  · rw [accs_first V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (run_first c Set.univ (grid1.coords t) ((isFirst_iff t).mpr h0) _ _ _ _ _ _ _ _ _ _ _ _ _ _
      (blk V c 0 t) (blk V c 1 t) (blk V c 2 t) (blk V c 3 t) (blk V c 4 t) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [accs_later V c t h0]
    simp only [before5_later V c t h0, before6_later V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (run_later c Set.univ (grid1.coords t) (fun h => h0 ((isFirst_iff t).mp h)) _ _ _ _ _ _ _ _ _ _ _ _ _ _
      (blk V c 0 t) (blk V c 1 t) (blk V c 2 t) (blk V c 3 t) (blk V c 4 t) _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation (c : Dev nD) : BodyObligation (dat (F := F) V c) (defs₀ (F := F)) Variants.none () Set.univ := fun t => by
  rw [bigSep_W1, bigSep_W1]
  exact sound_body V c t

end Cert.KernelIdeal.Trip

end
-- ==== Proof.IdealWhole.lean ====
/-
  The whole program, at any float instance: @main is the distance region, two reshapes of the labels, the triplet region,
  and ten host operations that turn the two accumulators into the mean.

  Between two consecutive items every unscoped buffer of the core is held whole at known contents: the launch memory,
  then each region's arrays at what its write-backs leave and each host stretch's results. This module names those
  contents, gives each region as a segment entered from the contents before it and left at the contents after it, and
  runs @main over the segments. The run's post reads EVERY unscoped buffer off the last contents, so it gives both the
  frame (no item writes an argument) and the result buffer's value.

  The triplet region is handed the distance matrix through two windows and the row of labels through two windows. At its
  entry each of those two arrays is split into two half shares, one per window; at its exit the halves, which still hold
  the same contents because no input is written back, are joined again.
-/
import proofs.«146165_j50122268344327_2_alg».proof.Proof.IdealDist
import proofs.«146165_j50122268344327_2_alg».proof.Proof.IdealTrip
import proofs.«146165_j50122268344327_2_alg».proof.Proof.Gen.KernelIdeal.Regions

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (the distance region's entry). -/
abbrev W0 : Dev nD → Valuation τ sig (Elt F) := fun c b => m (c, b)
abbrev E0 : (c : Dev nD) → (b : Ref sig .tc) → Buf (Elt F) ((c : Thread nD τ).loc b) := fun c b => W0 m c b
/-- At the distance region's exit: its arrays at what the pipeline leaves, every other buffer as entered. -/
def W1 (c : Dev nD) : Valuation τ sig (Elt F) :=
  Pipeline.withArrays spec0 c (W0 m c) fun w => (Dist.dat (E0 m) c).arrAt w cfg0.N
theorem W1_arr (c : Dev nD) (w : Fin cfg0.W) :
    W1 m c (Proc.devRef .tc (Pipeline.arrRef spec0 w)) = (Dist.dat (E0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev E1 : (c : Dev nD) → (b : Ref sig .tc) → Buf (Elt F) ((c : Thread nD τ).loc b) := fun c b => W1 m c b
theorem hF0 (c : Dev nD) (w : Fin cfg0.W) : (Dist.dat (E0 m) c).arrAt w cfg0.N = E1 m c (Pipeline.arrRef spec0 w) :=
  (W1_arr m c w).symm
theorem hrest0 (c : Dev nD) : ∀ b, b ∉ Finset.univ.image (Pipeline.arrRef spec0) → E1 m c b = E0 m c b :=
  fun b hb => W1_of_ne m c b fun w e => hb (Finset.mem_image.mpr ⟨w, Finset.mem_univ _, e⟩)

/-- After the two reshapes of the labels (the triplet region's entry). -/
abbrev W2 : Dev nD → Valuation τ sig (Elt F) := fun c => StableHlo.after hostOps1 (W1 m c)
abbrev E2 : (c : Dev nD) → (b : Ref sig .tc) → Buf (Elt F) ((c : Thread nD τ).loc b) := fun c b => W2 m c b

/-- At the triplet region's exit: the two accumulators' arrays at what the last point wrote back, every other buffer as
    entered (the region writes nothing else back). -/
def W3 (c : Dev nD) : Valuation τ sig (Elt F) :=
  Function.update (Function.update (W2 m c) (Proc.devRef .tc main_v3_0) ((Trip.dat (E2 m) c).arrAt 5 cfg1.N))
    (Proc.devRef .tc main_v3_1) ((Trip.dat (E2 m) c).arrAt 6 cfg1.N)
theorem W3_sum (c : Dev nD) : W3 m c (Proc.devRef .tc main_v3_0) = (Trip.dat (E2 m) c).arrAt 5 cfg1.N := by
  unfold W3
  rw [Function.update_of_ne (StableHlo.devRef_ne_of_ne (by decide) : (Proc.devRef .tc main_v3_0 : DevRef τ sig) ≠ Proc.devRef .tc main_v3_1),
    Function.update_self]
theorem W3_cnt (c : Dev nD) : W3 m c (Proc.devRef .tc main_v3_1) = (Trip.dat (E2 m) c).arrAt 6 cfg1.N := by
  unfold W3; rw [Function.update_self]
theorem W3_of_ne (c : Dev nD) (b : Ref sig .tc) (h0 : b ≠ main_v3_0) (h1 : b ≠ main_v3_1) :
    W3 m c (Proc.devRef .tc b) = W2 m c (Proc.devRef .tc b) := by
  unfold W3
  rw [Function.update_of_ne (StableHlo.devRef_ne_of_ne h1 : (Proc.devRef .tc b : DevRef τ sig) ≠ Proc.devRef .tc main_v3_1),
    Function.update_of_ne (StableHlo.devRef_ne_of_ne h0 : (Proc.devRef .tc b : DevRef τ sig) ≠ Proc.devRef .tc main_v3_0)]
abbrev E3 : (c : Dev nD) → (b : Ref sig .tc) → Buf (Elt F) ((c : Thread nD τ).loc b) := fun c b => W3 m c b

/-- After the eight host operations that form the guarded quotient, -/
abbrev W4 : Dev nD → Valuation τ sig (Elt F) := fun c => StableHlo.after hostOps2 (W3 m c)
/-- and after the final select (the outlined `where`). -/
abbrev W5 : Dev nD → Valuation τ sig (Elt F) := fun c => StableHlo.after hostOps2_1 (W4 m c)

/-! ### The arguments end as launched -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := StableHlo.after_of_writes_sub hostOps2_1 _ hostOps2_1_writes (by decide)
    _ = W3 m c (Proc.devRef .tc main_arg0) := StableHlo.after_of_writes_sub hostOps2 _ hostOps2_writes (by decide)
    _ = W2 m c (Proc.devRef .tc main_arg0) := W3_of_ne m c main_arg0 (by decide) (by decide)
    _ = W1 m c (Proc.devRef .tc main_arg0) := StableHlo.after_of_writes_sub hostOps1 _ hostOps1_writes (by decide)
    _ = W0 m c (Proc.devRef .tc main_arg0) := (W1_arr m c 0).trans (((Dist.dat (E0 m) c).arrAt_in 0 rfl _).trans (Dist.A_eq (E0 m) c 0))
    _ = m ((c : Thread nD τ).loc main_arg0) := rfl

theorem W5_main_arg1 (c : Dev nD) : W5 m c (Proc.devRef .tc main_arg1) = m ((c : Thread nD τ).loc main_arg1) :=
  calc W5 m c (Proc.devRef .tc main_arg1)
    _ = W4 m c (Proc.devRef .tc main_arg1) := StableHlo.after_of_writes_sub hostOps2_1 _ hostOps2_1_writes (by decide)
    _ = W3 m c (Proc.devRef .tc main_arg1) := StableHlo.after_of_writes_sub hostOps2 _ hostOps2_writes (by decide)
    _ = W2 m c (Proc.devRef .tc main_arg1) := W3_of_ne m c main_arg1 (by decide) (by decide)
    _ = W1 m c (Proc.devRef .tc main_arg1) := StableHlo.after_of_writes_sub hostOps1 _ hostOps1_writes (by decide)
    _ = W0 m c (Proc.devRef .tc main_arg1) := W1_of_ne m c main_arg1 (by decide)
    _ = m ((c : Thread nD τ).loc main_arg1) := rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => Dist.dat (E0 m) c
  | ⟨1, _⟩ => fun c => Trip.dat (E2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last contents, the generator register
    at some state. -/
abbrev Tₙ (c : Dev nD) : sProp 𝕄 := iprop(StableHlo.held (c : Thread nD τ) (Pipeline.ucRefs τ sig) (W5 m c) ∗ ∃ r, prngReg c r)

/-! ## The distance region as a segment -/

set_option backward.isDefEq.respectTransparency.types false in
/-- Entered from every unscoped buffer at the launch contents, left at `W1`. Its two arrays are distinct: they are split
    out of the unscoped buffers and put back at the exit contents; the generator register goes into the invariant and
    comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Dist.body_obligation (E0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The triplet region's arrays: seven windows on five buffers -/

/-- The five distinct buffers behind the seven windows, one by one. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v0) ↦{fullShare} V main_v0) ∗ (((c : Thread nD τ).loc main_v1) ↦{fullShare} V main_v1) ∗ (((c : Thread nD τ).loc main_v2) ↦{fullShare} V main_v2)
          ∗ (((c : Thread nD τ).loc main_v3_0) ↦{fullShare} V main_v3_0) ∗ (((c : Thread nD τ).loc main_v3_1) ↦{fullShare} V main_v3_1)) := by
  unfold Pipeline.arrBufs
  exact bigSep_eq_bigSepL_of_eq [main_v0, main_v1, main_v2, main_v3_0, main_v3_1] (by decide) (by decide) _

/-- The pipeline's seven arrays, one by one, each at its window's share. -/
theorem arrays1_eq (c : Dev nD) (G : (w : Fin cfg1.W) → Buf (Elt F) ((cfg1.win w).arr.view.loc (c.tc : Thread nD τ))) :
    ((Trip.dat (E2 m) c).arrays G : sProp 𝕄)
      = iprop((((c : Thread nD τ).loc main_v0) ↦{Trip.halfL} G 0) ∗ (((c : Thread nD τ).loc main_v0) ↦{Trip.halfR} G 1) ∗ (((c : Thread nD τ).loc main_v1) ↦{fullShare} G 2)
          ∗ (((c : Thread nD τ).loc main_v2) ↦{Trip.halfL} G 3) ∗ (((c : Thread nD τ).loc main_v2) ↦{Trip.halfR} G 4)
          ∗ (((c : Thread nD τ).loc main_v3_0) ↦{fullShare} G 5) ∗ (((c : Thread nD τ).loc main_v3_1) ↦{fullShare} G 6)) := by
  unfold Dat.arrays
  rw [bigSep_W1]
  -- windows on one array have one and the same element set: a rewrite for one of them rewrites the other's too
  rw [(arr_whole1 0).set_eq_univ, (arr_whole1 2).set_eq_univ, (arr_whole1 3).set_eq_univ, (arr_whole1 5).set_eq_univ,
    (arr_whole1 6).set_eq_univ]
  rfl

/-- ENTRY: the five buffers whole at the entry contents are the seven windows' arrays at those contents, the distance
    matrix and the row of labels each split into two halves. -/
theorem arrays_of_bufs (c : Dev nD) :
    (Pipeline.arrBufs (Ix := Unit) (Name := ℕ) (U := UR sig nD τ) (Lvl := ℕ) spec1 c (E2 m c) : sProp 𝕄)
      ⊢ (Trip.dat (E2 m) c).arrays ((Trip.dat (E2 m) c).arrAt · 0) := by
  rw [arrBufs1_eq, arrays1_eq]
  iintro ⟨H0, H1, H2, H5, H6⟩
  ihave H0' := (pointsTo_share Trip.half_mem).1 $$ H0
  icases H0' with ⟨H0a, H0b⟩
  ihave H2' := (pointsTo_share Trip.half_mem).1 $$ H2
  icases H2' with ⟨H2a, H2b⟩
  isplitl [H0a]; · iexact H0a
  isplitl [H0b]; · iexact H0b
  isplitl [H1]; · iexact H1
  isplitl [H2a]; · iexact H2a
  isplitl [H2b]; · iexact H2b
  isplitl [H5]; · iexact H5
  iexact H6

/-- EXIT: the seven windows' arrays after the last point — the inputs as entered, the accumulators at what was written
    back — are the five buffers whole at the exit contents, the halves joined. -/
theorem bufs_of_arrays (c : Dev nD) :
    ((Trip.dat (E2 m) c).arrays ((Trip.dat (E2 m) c).arrAt · cfg1.N) : sProp 𝕄)
      ⊢ Pipeline.arrBufs (Ix := Unit) (Name := ℕ) (U := UR sig nD τ) (Lvl := ℕ) spec1 c (E3 m c) := by
  rw [arrBufs1_eq, arrays1_eq]
  have h0 : (Trip.dat (E2 m) c).arrAt 0 cfg1.N = E3 m c main_v0 :=
    ((Trip.dat (E2 m) c).arrAt_in 0 rfl _).trans ((Trip.A_eq (E2 m) c 0).trans (W3_of_ne m c main_v0 (by decide) (by decide)).symm)
  have h1 : (Trip.dat (E2 m) c).arrAt 1 cfg1.N = E3 m c main_v0 :=
    ((Trip.dat (E2 m) c).arrAt_in 1 rfl _).trans ((Trip.A_eq (E2 m) c 1).trans (W3_of_ne m c main_v0 (by decide) (by decide)).symm)
  have h2 : (Trip.dat (E2 m) c).arrAt 2 cfg1.N = E3 m c main_v1 :=
    ((Trip.dat (E2 m) c).arrAt_in 2 rfl _).trans ((Trip.A_eq (E2 m) c 2).trans (W3_of_ne m c main_v1 (by decide) (by decide)).symm)
  have h3 : (Trip.dat (E2 m) c).arrAt 3 cfg1.N = E3 m c main_v2 :=
    ((Trip.dat (E2 m) c).arrAt_in 3 rfl _).trans ((Trip.A_eq (E2 m) c 3).trans (W3_of_ne m c main_v2 (by decide) (by decide)).symm)
  have h4 : (Trip.dat (E2 m) c).arrAt 4 cfg1.N = E3 m c main_v2 :=
    ((Trip.dat (E2 m) c).arrAt_in 4 rfl _).trans ((Trip.A_eq (E2 m) c 4).trans (W3_of_ne m c main_v2 (by decide) (by decide)).symm)
  have h5 : (Trip.dat (E2 m) c).arrAt 5 cfg1.N = E3 m c main_v3_0 := (W3_sum m c).symm
  have h6 : (Trip.dat (E2 m) c).arrAt 6 cfg1.N = E3 m c main_v3_1 := (W3_cnt m c).symm
  rw [h0, h1, h2, h3, h4, h5, h6]
  iintro ⟨H0a, H0b, H1, H2a, H2b, H5, H6⟩
  isplitl [H0a H0b]
  · iapply (pointsTo_share Trip.half_mem).2; isplitl [H0a] <;> iassumption
  isplitl [H1]; · iexact H1
  isplitl [H2a H2b]
  · iapply (pointsTo_share Trip.half_mem).2; isplitl [H2a] <;> iassumption
  isplitl [H5]; · iexact H5
  iexact H6

/-- The buffers that are no array of the triplet region hold the same at its exit as at its entry. -/
theorem rest_eq (c : Dev nD) :
    (Pipeline.unscopedRest (Ix := Unit) (Name := ℕ) (U := UR sig nD τ) (Lvl := ℕ) spec1 c (E3 m c) : sProp 𝕄) = Pipeline.unscopedRest (Ix := Unit) (Name := ℕ) (U := UR sig nD τ) (Lvl := ℕ) spec1 c (E2 m c) := by
  unfold Pipeline.unscopedRest
  exact bigSep_congr fun b hb => by
    have hb' := (Finset.mem_sdiff.mp hb).2
    rw [show E3 m c b = E2 m c b from W3_of_ne m c b (fun e => hb' (by rw [e]; decide)) (fun e => hb' (by rw [e]; decide))]

/-! ## The triplet region as a segment -/

set_option backward.isDefEq.respectTransparency.types false in
/-- Entered from every unscoped buffer at `W2`, left at `W3`. Its seven windows stand on five buffers: those are split out
    of the unscoped buffers and shared out among the windows at entry, and gathered and put back at exit; the generator
    register goes into the invariant and comes back; nothing is owed; the kernel has no semaphore of its own. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (Trip.body_obligation (E2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit : (unscopedBufs (Ix := Unit) (Name := ℕ) (U := UR sig nD τ) (Lvl := ℕ) c (E2 m c) : sProp 𝕄)
        ⊢ iprop((pdats m 1 c).arrays ((pdats m 1 c).arrAt · 0) ∗ Pipeline.unscopedRest (Ix := Unit) (Name := ℕ) (U := UR sig nD τ) (Lvl := ℕ) spec1 c (E2 m c)) := by
      rw [Pipeline.unscopedBufs_split₀ (Pipeline.pin (pcfgs (F := F)) adm) 1 winFacts₀1.arr_unscoped c (E2 m c)]
      exact sep_mono (arrays_of_bufs m c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest (Ix := Unit) (Name := ℕ) (U := UR sig nD τ) (Lvl := ℕ) spec1 c (E2 m c))
        ⊢ (unscopedBufs (Ix := Unit) (Name := ℕ) (U := UR sig nD τ) (Lvl := ℕ) c (E3 m c) : sProp 𝕄) := by
      rw [Pipeline.unscopedBufs_split₀ (Pipeline.pin (pcfgs (F := F)) adm) 1 winFacts₀1.arr_unscoped c (E3 m c)]
      exact BI.sep_mono (bufs_of_arrays m c) (Entails.of_eq (rest_eq m c).symm)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

/-- @main's five segments in order. -/
abbrev segs : List (Pipeline.Seg (pcfgs (F := F)) adm (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)),
    .host (hseg hostOps2_1 hostOps2_1_sub hostOps2_1_fresh (W4 m)) ]

/-- The last link of the chain: the last host stretch leaves every unscoped buffer at `W5` beside the generator register
    and nothing owed. -/
theorem last_link (c : Dev nD) :
    iprop(StableHlo.held (c : Thread nD τ) (Pipeline.ucRefs τ sig) (W5 m c) ∗ R c)
      ⊢ (iprop(Tₙ m c ∗ ∃ W, owes (c : Thread nD τ) (0 : CellTallies nD τ sig Unit) W) : sProp 𝕄) := by
  iintro ⟨Hh, Hp, HO⟩
  isplitl [Hh Hp]
  · isplitl [Hh]; · iexact Hh
    iexact Hp
  iexact HO

/-- @main IS the run of the segments. -/
theorem main_run (c : Dev nD) : main (F := F) c = Pipeline.Seg.run (segs m) := (main_chain c).trans (by chain_rfl)

set_option backward.isDefEq.respectTransparency.types false in
/-- THE RUN. At the compiled mesh, from any memory with zero counters, every weakly fair execution of @main on the
    TensorCores terminates, nothing faulting, and every final state holds every unscoped buffer at the last contents
    `W5` — in particular the result, and the two arguments as launched. -/
theorem run : θ_run defs (onTc (τ := τ) (main (F := F))) ⟨m, fun _ => 0, ρ⟩ (fun r => ∀ c : Dev nD,
      r.2.mem ((c.tc : Thread nD τ).loc main_v9) = W5 m c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => last_link m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c =>
      ⟨h c _ (mem_uc main_v9 (by decide)),
        (h c _ (mem_uc main_arg0 (by decide))).trans (W5_main_arg0 m c),
        (h c _ (mem_uc main_arg1 (by decide))).trans (W5_main_arg1 m c)⟩)

/-- info: 'Cert.KernelIdeal.Whole.run' depends on axioms: [propext, Classical.choice, Quot.sound] -/
#guard_msgs in #print axioms run

end Cert.KernelIdeal.Whole

end
-- ==== Proof.BitsDist.lean ====
/-
  The distance kernel's region, at any float instance.

  The region has one grid point. Its body loads the whole [512,128] embedding block, computes the [512,512] matrix of
  pairwise distances from it (row norms, the Gram matrix, the clamp at zero and the guarded square root) and stores that
  matrix whole into the output's staging buffer; the output buffer is also loaded once before the store, and that value is
  not used. So after the body the output buffer holds one function `dist` of the embedding block, whatever it held before.
  This module states that function, proves the body's triple, and gives the pipeline's proof data for the region at a
  parameter `V`: the contents of the TensorCore's buffers when the region is entered.
-/
import proofs.«146165_j50122268344327_2_alg».proof.Proof.Gen.Kernel.Launch
import proofs.«146165_j50122268344327_2_alg».proof.Proof.Gen.Kernel.Skeleton
import proofs.«146165_j50122268344327_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Dist

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at the region's one point, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The embedding window's staging buffer holds the embedding block when the body runs, for any proof data whose array
    is the entry contents and whose body leaves the block in place. -/
theorem before_emb_of {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-! ## The body's two rectangles: the whole embedding block, the whole distance block -/

abbrev rEmb : Rect S512x128 := Rect.unit (s := S512x128) ![0, 0] S512x128.size inb_S512x128_S512x128_0_0
abbrev rDist : Rect S512x512 := Rect.unit (s := S512x512) ![0, 0] S512x512.size inb_S512x512_S512x512_0_0

/-- What the body leaves in the distance window's staging buffer: its one whole store, whose value is the distance
    matrix of the loaded embedding block. -/
def dist (x : Vec F S512x128 .f32) : Vec F S512x512 .f32 :=
  View.canon [⟨rDist, k0_pay1 (View.ld x rEmb)⟩]

/-- The one store covers the buffer. -/
theorem dist_cover (p : Vec F S512x512 .f32) (y : S512x512.Idx) :
    ∃ pc ∈ ([⟨rDist, p⟩] : List (View.Piece (Elt F) S512x512 .f32)), y ∈ pc.1.set :=
  View.cover_of_tiled [⟨rDist, p⟩] S512x512.size (by rfl) y

/-! ## The body's triple -/

set_option maxHeartbeats 1000000 in
/-- The body, on whole staging memrefs with the embedding buffer at `x` and the distance buffer at anything, runs to the
    continuation with the embedding buffer unchanged and the distance buffer at `dist x`. -/
theorem sound_kernel (c : Dev nD) (E : Set ℕ) (i : grid0.Coords) (arg1 : Memref sig .tc .vmem S512x128 .f32) (harg1 : arg1.IsWhole)
    (arg2 : Memref sig .tc .vmem S512x512 .f32) (harg2 : arg2.IsWhole)
    (x : Vec F S512x128 .f32) (K : PUnit → sProp 𝕄) :
    iprop(owns (c : Thread nD τ) arg1 fullShare x ∗ (∃ d, owns (c : Thread nD τ) arg2 fullShare d)
        ∗ (iprop(owns (c : Thread nD τ) arg1 fullShare x ∗ owns (c : Thread nD τ) arg2 fullShare (dist x)) -∗ K ⟨⟩))
      ⊢ wp frame (wpE (defs₀ (F := F)) Variants.none c none) E (cc0__dist_kernel i arg1 harg1 arg2 harg2) K := by
  simp only [cc0__dist_kernel_eq_skeleton]; unfold cc0__dist_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (dist_cover _)

/-! ## The pipeline's proof data -/

/-- The proof data of the distance pipeline on core `c`: the arrays as the region finds them; after the body the
    embedding buffer at its block and the distance buffer at `dist` of that block; the invariant is the scoped rest and
    the generator register, untouched; nothing owed; full shares. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => dist (blk V c 0 t)
  Φ _ := Pipeline.ΦA spec0 c
  q _ := fullShare
  owed _ := 0

theorem A_eq (c : Dev nD) (w : Fin cfg0.W) : (dat V c).A w = V c (Pipeline.arrRef spec0 w) := by
  dsimp only [dat]

theorem after_emb (c : Dev nD) (t : Fin cfg0.N) : (dat V c).after 0 t = blk V c 0 t := by dsimp only [dat]
theorem after_dist (c : Dev nD) (t : Fin cfg0.N) : (dat V c).after 1 t = dist (blk V c 0 t) := by dsimp only [dat]

theorem before_emb (c : Dev nD) (t : Fin cfg0.N) (d) : (dat V c).before 0 t d = blk V c 0 t :=
  before_emb_of V (dat V c) (A_eq V c 0) (after_emb V c) t d

/-! ## The body obligation -/

/-- What the body is called with at the point, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t))

/-- The body at the point: the embedding buffer holds its block, so the triple applies; the invariant and what the core
    owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_emb]
  rw [show (dat V c).Φ t.succ = (dat V c).Φ t.castSucc from rfl,
    show (dat V c).owesAt () t.succ = (dat V c).owesAt () t.castSucc from rfl,
    after_emb, after_dist]
  iintro ⟨HΦ, Ho, ⟨%d0, H0⟩, ⟨%d1, H1⟩⟩
  iapply (sound_kernel c Set.univ _ _ _ _ _ (blk V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dat (F := F) V c) (defs₀ (F := F)) Variants.none () Set.univ := fun t => by
  rw [bigSep_W0, bigSep_W0]
  exact sound_body V c t

end Cert.Kernel.Dist

end
-- ==== Proof.BitsTrip.lean ====
/-
  The triplet kernel's region, at any float instance.

  The region has 32 × 4 grid points. At point (i, k) its body reads a band of 16 rows of the distance matrix, a 16 × 128 tile
  of the same matrix, the 16 labels of the band's rows, all 512 labels, and the 128 labels of the tile's columns. From them
  it forms, over the 16 × 512 × 128 slab of triplets (anchor row, positive column, negative column), the hinge term
  max(d(a,p) − d(a,n) + 1, 0) times a 0/1 mask (same label as the positive, different sample, different label from the
  negative), sums it over the slab and adds the sum to a [1,1] accumulator; it also adds the sum of the mask to a second
  [1,1] accumulator. At the first point, and only there, both accumulators are first reset to zero. The accumulators'
  staging buffers are carried from point to point and written back once, after the last point.

  This module proves the body's triple in its two control cases, states what the accumulators hold after each point by
  recursion on the point, and gives the pipeline's proof data and body obligation at a parameter `V`: the contents of the
  TensorCore's buffers when the region is entered. The distance matrix and the row of labels are each handed to the region
  through two windows, so each is held at two half shares.
-/
import proofs.«146165_j50122268344327_2_alg».proof.Proof.Gen.Kernel.Launch
import proofs.«146165_j50122268344327_2_alg».proof.Proof.Gen.Kernel.Skeleton
import proofs.«146165_j50122268344327_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Trip

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's rectangles and the first-point test -/

abbrev rAcc : Rect S1x1 := Rect.unit (s := S1x1) ![0, 0] S1x1.size inb_S1x1_S1x1_0_0
abbrev rRow : Rect S16x512 := Rect.unit (s := S16x512) ![0, 0] S16x512.size inb_S16x512_S16x512_0_0
abbrev rCol : Rect S16x128 := Rect.unit (s := S16x128) ![0, 0] S16x128.size inb_S16x128_S16x128_0_0
abbrev rLabR : Rect S16x1 := Rect.unit (s := S16x1) ![0, 0] S16x1.size inb_S16x1_S16x1_0_0
abbrev rLabF : Rect S1x512 := Rect.unit (s := S1x512) ![0, 0] S1x512.size inb_S1x512_S1x512_0_0
abbrev rLabK : Rect S1x128 := Rect.unit (s := S1x128) ![0, 0] S1x128.size inb_S1x128_S1x128_0_0

/-- The body's test for the first grid point, as it computes it from the two grid coordinates: both are zero. -/
def isFirst (i : grid1.Coords) : Prop :=
  Scalar.cmpi .ne (Scalar.extui (Scalar.andi (Scalar.cmpi .eq (BitVec.ofNat 32 (i 0).val) 0#32) (Scalar.cmpi .eq (BitVec.ofNat 32 (i 1).val) 0#32)) : BitVec 32) 0#32 = 1#1

instance (i : grid1.Coords) : Decidable (isFirst i) := by unfold isFirst; infer_instance

/-- The mask product the point's three label blocks give: 1 where the row's label equals the positive's and they are
    different samples and the row's label differs from the negative's, 0 elsewhere. -/
abbrev maskOf (i : grid1.Coords) (x2 : Vec F S16x1 .i32) (x3 : Vec F S1x512 .i32) (x4 : Vec F S1x128 .i32) : FVec F S16x512x128 .f32 :=
  k1_pay5 i (View.ld x2 rLabR) (View.ld x3 rLabF) (View.ld x4 rLabK)

/-- The loss accumulator after a point, from its value `a` before: `a` plus the sum over the point's slab of the hinge
    term times the mask. -/
def sumStep (i : grid1.Coords) (x0 : Vec F S16x512 .f32) (x1 : Vec F S16x128 .f32) (x2 : Vec F S16x1 .i32) (x3 : Vec F S1x512 .i32)
    (x4 : Vec F S1x128 .i32) (a : Vec F S1x1 .f32) : Vec F S1x1 .f32 :=
  View.canon [⟨rAcc, k1_pay1 (maskOf i x2 x3 x4) (k1_pay6 (View.ld x0 rRow)) (k1_pay7 (View.ld x1 rCol)) (View.ld a rAcc)⟩]

/-- The count accumulator after a point, from its value `a` before: `a` plus the sum of the mask over the slab. -/
def cntStep (i : grid1.Coords) (x2 : Vec F S16x1 .i32) (x3 : Vec F S1x512 .i32) (x4 : Vec F S1x128 .i32) (a : Vec F S1x1 .f32) :
    Vec F S1x1 .f32 :=
  View.canon [⟨rAcc, k1_pay2 (maskOf i x2 x3 x4) (View.ld a rAcc)⟩]

theorem acc_cover (p : Vec F S1x1 .f32) (y : S1x1.Idx) :
    ∃ pc ∈ ([⟨rAcc, p⟩] : List (View.Piece (Elt F) S1x1 .f32)), y ∈ pc.1.set :=
  View.cover_of_tiled [⟨rAcc, p⟩] S1x1.size (by rfl) y

set_option maxHeartbeats 2000000 in
/-- At a point that is not the first: with the five input buffers at their blocks and the two accumulators at `a7`, `a8`,
    the body leaves the inputs as they were and each accumulator one step on. -/
theorem run_later (c : Dev nD) (E : Set ℕ) (i : grid1.Coords) (hc : ¬ isFirst i) (arg2 : Memref sig .tc .vmem S16x512 .f32) (harg2 : arg2.IsWhole) (arg3 : Memref sig .tc .vmem S16x128 .f32) (harg3 : arg3.IsWhole) (arg4 : Memref sig .tc .vmem S16x1 .i32) (harg4 : arg4.IsWhole) (arg5 : Memref sig .tc .vmem S1x512 .i32) (harg5 : arg5.IsWhole) (arg6 : Memref sig .tc .vmem S1x128 .i32) (harg6 : arg6.IsWhole) (arg7 : Memref sig .tc .vmem S1x1 .f32) (harg7 : arg7.IsWhole) (arg8 : Memref sig .tc .vmem S1x1 .f32) (harg8 : arg8.IsWhole)
    (x0 : Vec F S16x512 .f32) (x1 : Vec F S16x128 .f32) (x2 : Vec F S16x1 .i32) (x3 : Vec F S1x512 .i32) (x4 : Vec F S1x128 .i32)
    (a7 a8 : Vec F S1x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ owns (c : Thread nD τ) arg7 fullShare a7 ∗ owns (c : Thread nD τ) arg8 fullShare a8
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (sumStep i x0 x1 x2 x3 x4 a7) ∗ owns (c : Thread nD τ) arg8 fullShare (cntStep i x2 x3 x4 a8)) -∗ K ⟨⟩))
      ⊢ wp frame (wpE (defs₀ (F := F)) Variants.none c none) E (cc1__triplet_kernel i arg2 harg2 arg3 harg3 arg4 harg4 arg5 harg5 arg6 harg6 arg7 harg7 arg8 harg8) K := by
  haveI : Fact (¬ isFirst i) := ⟨hc⟩
  simp only [cc1__triplet_kernel_eq_skeleton]; unfold cc1__triplet_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f7, %hf7, H7⟩, ⟨%f8, %hf8, H8⟩, Hk⟩
  subst hf0 hf1 hf2 hf3 hf4 hf7 hf8
  sl_exec (disch := exact hc)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H7]
  · iexists _; isplitr
    swap; · iexact H7
    ipureintro
    exact View.read_writes_eq_canon _ _ _ (acc_cover _)
  iexists _; isplitr
  swap; · iexact H8
  ipureintro
  exact View.read_writes_eq_canon _ _ _ (acc_cover _)

theorem hz2 : (![0, 0] : Fin 2 → ℕ) = fun _ => 0 := funext fun a => by match a with | ⟨0, _⟩ => rfl | ⟨1, _⟩ => rfl

/-- The accumulators right after the first point's reset: the zero splat. -/
def zeroSum : Vec F S1x1 .f32 := k1_pay3 (F := F)
def zeroCnt : Vec F S1x1 .f32 := k1_pay4 (F := F)

theorem acc_cover2 (p : Vec F S1x1 .f32) (L : List (View.Piece (Elt F) S1x1 .f32)) (y : S1x1.Idx) :
    ∃ pc ∈ ((⟨rAcc, p⟩ : View.Piece (Elt F) S1x1 .f32) :: L), y ∈ pc.1.set :=
  (acc_cover p y).imp fun pc h => ⟨List.mem_cons.mpr (Or.inl (List.mem_singleton.mp h.1)), h.2⟩

set_option maxHeartbeats 2000000 in
/-- At the first point: with the five input buffers at their blocks and the two accumulators at anything, the body resets
    both accumulators to zero and then takes one step from there. -/
theorem run_first (c : Dev nD) (E : Set ℕ) (i : grid1.Coords) (hc : isFirst i) (arg2 : Memref sig .tc .vmem S16x512 .f32) (harg2 : arg2.IsWhole) (arg3 : Memref sig .tc .vmem S16x128 .f32) (harg3 : arg3.IsWhole) (arg4 : Memref sig .tc .vmem S16x1 .i32) (harg4 : arg4.IsWhole) (arg5 : Memref sig .tc .vmem S1x512 .i32) (harg5 : arg5.IsWhole) (arg6 : Memref sig .tc .vmem S1x128 .i32) (harg6 : arg6.IsWhole) (arg7 : Memref sig .tc .vmem S1x1 .f32) (harg7 : arg7.IsWhole) (arg8 : Memref sig .tc .vmem S1x1 .f32) (harg8 : arg8.IsWhole)
    (x0 : Vec F S16x512 .f32) (x1 : Vec F S16x128 .f32) (x2 : Vec F S16x1 .i32) (x3 : Vec F S1x512 .i32) (x4 : Vec F S1x128 .i32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (sumStep i x0 x1 x2 x3 x4 zeroSum) ∗ owns (c : Thread nD τ) arg8 fullShare (cntStep i x2 x3 x4 zeroCnt)) -∗ K ⟨⟩))
      ⊢ wp frame (wpE (defs₀ (F := F)) Variants.none c none) E (cc1__triplet_kernel i arg2 harg2 arg3 harg3 arg4 harg4 arg5 harg5 arg6 harg6 arg7 harg7 arg8 harg8) K := by
  haveI : Fact (isFirst i) := ⟨hc⟩
  simp only [cc1__triplet_kernel_eq_skeleton]; unfold cc1__triplet_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d7, %f7, -, H7⟩, ⟨%d8, %f8, -, H8⟩, Hk⟩
  subst hf0 hf1 hf2 hf3 hf4
  sl_exec (disch := exact hc)
  sl_step
  sl_unfold_words
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H7]
  · iexists _; isplitr
    swap; · iexact H7
    ipureintro
    rw [View.read_writes_eq_canon _ _ _ (acc_cover2 _ _), View.canon_cons_unit_zero hz2, View.readCov_unit_zero _ hz2]
    unfold sumStep zeroSum
    rw [View.canon_unit_zero hz2, View.ld_unit_zero (S := S1x1) hz2]
    rfl
  iexists _; isplitr
  swap; · iexact H8
  ipureintro
  rw [View.read_writes_eq_canon _ _ _ (acc_cover2 _ _), View.canon_cons_unit_zero hz2, View.readCov_unit_zero _ hz2]
  unfold cntStep zeroCnt
  rw [View.canon_unit_zero hz2, View.ld_unit_zero (S := S1x1) hz2]
  rfl

/-! ## The closed form of the first-point test over the grid -/

/-- The body's first-point test holds exactly at point 0 of the 128. -/
theorem isFirst_iff : ∀ t : Fin cfg1.N, isFirst (grid1.coords t) ↔ t.val = 0 :=
  (by decide +kernel : ∀ t : Fin grid1.N, isFirst (grid1.coords t) ↔ t.val = 0)

/-! ## The windows' blocks, at the entry contents `V` -/

variable (V : (c : Dev nD) → (b : Ref sig .tc) → Buf (Elt F) ((c : Thread nD τ).loc b))

/-- Window `w`'s block at point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: unfetched, its block
    index has not moved since the point that fetched it. -/
theorem before0_of {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- Input window 1's current staging buffer holds its block at every point, fetched there or not: unfetched, its block
    index has not moved since the point that fetched it. -/
theorem before1_of {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- Input window 2's current staging buffer holds its block at every point, fetched there or not: unfetched, its block
    index has not moved since the point that fetched it. -/
theorem before2_of {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-- Input window 3's current staging buffer holds its block at every point, fetched there or not: unfetched, its block
    index has not moved since the point that fetched it. -/
theorem before3_of {c : Dev nD} (dat : Dat τ (Elt F) Unit ℕ (UR sig nD τ) ℕ cfg1 c) (hA : dat.A 3 = V c (Pipeline.arrRef spec1 3))
    (hafter : ∀ t, dat.after 3 t = blk V c 3 t) (t : Fin cfg1.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

/-- Input window 4's current staging buffer holds its block at every point, fetched there or not: unfetched, its block
    index has not moved since the point that fetched it. -/
theorem before4_of {c : Dev nD} (dat : Dat τ (Elt F) Unit ℕ (UR sig nD τ) ℕ cfg1 c) (hA : dat.A 4 = V c (Pipeline.arrRef spec1 4))
    (hafter : ∀ t, dat.after 4 t = blk V c 4 t) (t : Fin cfg1.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

/-! ## The accumulation -/

/-- What the two accumulators' staging buffers hold after the body at position `n`: at the first point one step from
    zero, at a later point one step from what the point before left (the buffers are not written back in between). -/
def accs (c : Dev nD) : (n : ℕ) → n < cfg1.N → Vec F S1x1 .f32 × Vec F S1x1 .f32
  | 0, hn =>
    (sumStep (grid1.coords ⟨0, hn⟩) (blk V c 0 ⟨0, hn⟩) (blk V c 1 ⟨0, hn⟩) (blk V c 2 ⟨0, hn⟩) (blk V c 3 ⟨0, hn⟩) (blk V c 4 ⟨0, hn⟩) zeroSum,
     cntStep (grid1.coords ⟨0, hn⟩) (blk V c 2 ⟨0, hn⟩) (blk V c 3 ⟨0, hn⟩) (blk V c 4 ⟨0, hn⟩) zeroCnt)
  | n + 1, hn =>
    (sumStep (grid1.coords ⟨n + 1, hn⟩) (blk V c 0 ⟨n + 1, hn⟩) (blk V c 1 ⟨n + 1, hn⟩) (blk V c 2 ⟨n + 1, hn⟩) (blk V c 3 ⟨n + 1, hn⟩) (blk V c 4 ⟨n + 1, hn⟩)
        (accs c n (Nat.lt_of_succ_lt hn)).1,
     cntStep (grid1.coords ⟨n + 1, hn⟩) (blk V c 2 ⟨n + 1, hn⟩) (blk V c 3 ⟨n + 1, hn⟩) (blk V c 4 ⟨n + 1, hn⟩)
        (accs c n (Nat.lt_of_succ_lt hn)).2)

theorem accs_first (c : Dev nD) (t : Fin cfg1.N) (h0 : t.val = 0) :
    accs V c t.val t.isLt =
      (sumStep (grid1.coords t) (blk V c 0 t) (blk V c 1 t) (blk V c 2 t) (blk V c 3 t) (blk V c 4 t) zeroSum,
       cntStep (grid1.coords t) (blk V c 2 t) (blk V c 3 t) (blk V c 4 t) zeroCnt) := by
  obtain ⟨n, hn⟩ := t
  cases n with
  | zero => rfl
  | succ n => exact absurd h0 (Nat.succ_ne_zero n)

theorem accs_later (c : Dev nD) (t : Fin cfg1.N) (h0 : t.val ≠ 0) :
    accs V c t.val t.isLt =
      (sumStep (grid1.coords t) (blk V c 0 t) (blk V c 1 t) (blk V c 2 t) (blk V c 3 t) (blk V c 4 t)
          (accs V c (t.val - 1) (Nat.lt_of_le_of_lt (Nat.sub_le _ _) t.isLt)).1,
       cntStep (grid1.coords t) (blk V c 2 t) (blk V c 3 t) (blk V c 4 t)
          (accs V c (t.val - 1) (Nat.lt_of_le_of_lt (Nat.sub_le _ _) t.isLt)).2) := by
  obtain ⟨n, hn⟩ := t
  cases n with
  | zero => exact absurd rfl h0
  | succ n => rfl

/-! ## The pipeline's proof data -/

/-- The share each window holds its array at: the distance matrix is handed to the region twice (a row band and a
    tile of it) and so is the row of labels (whole and a tile), so each of those two arrays is split in two halves;
    the column of labels is held whole, and so are the two outputs. -/
def halfL : PosShare TreeShare := (fullShare : PosShare TreeShare).left
def halfR : PosShare TreeShare := (fullShare : PosShare TreeShare).right

open scoped Idealize.SL.RA.PCS in
/-- The two halves make the whole. -/
theorem half_mem : (fullShare : PosShare TreeShare) ∈ halfL ·? halfR := PosShare.mem_left_op_right fullShare

/-- The proof data of the triplet pipeline on core `c`: the arrays as the region finds them; after the body at point
    `t` each input's buffer at its block and the two accumulators at `accs`; the invariant is the scoped rest and the
    generator register, untouched; nothing owed. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => (accs V c t.val t.isLt).1
    | ⟨6, _⟩ => (accs V c t.val t.isLt).2
  Φ _ := Pipeline.ΦA spec1 c
  q w := match w with
    | ⟨0, _⟩ => halfL
    | ⟨1, _⟩ => halfR
    | ⟨2, _⟩ => fullShare
    | ⟨3, _⟩ => halfL
    | ⟨4, _⟩ => halfR
    | ⟨5, _⟩ => fullShare
    | ⟨6, _⟩ => fullShare
  owed _ := 0

theorem A_eq (c : Dev nD) (w : Fin cfg1.W) : (dat V c).A w = V c (Pipeline.arrRef spec1 w) := by
  dsimp only [dat]

theorem after0 (c : Dev nD) (t : Fin cfg1.N) : (dat V c).after 0 t = blk V c 0 t := by dsimp only [dat]
theorem after1 (c : Dev nD) (t : Fin cfg1.N) : (dat V c).after 1 t = blk V c 1 t := by dsimp only [dat]
theorem after2 (c : Dev nD) (t : Fin cfg1.N) : (dat V c).after 2 t = blk V c 2 t := by dsimp only [dat]
theorem after3 (c : Dev nD) (t : Fin cfg1.N) : (dat V c).after 3 t = blk V c 3 t := by dsimp only [dat]
theorem after4 (c : Dev nD) (t : Fin cfg1.N) : (dat V c).after 4 t = blk V c 4 t := by dsimp only [dat]
theorem after5 (c : Dev nD) (t : Fin cfg1.N) : (dat V c).after 5 t = (accs V c t.val t.isLt).1 := by dsimp only [dat]
theorem after6 (c : Dev nD) (t : Fin cfg1.N) : (dat V c).after 6 t = (accs V c t.val t.isLt).2 := by dsimp only [dat]

theorem before0 (c : Dev nD) (t : Fin cfg1.N) (d) : (dat V c).before 0 t d = blk V c 0 t :=
  before0_of V (dat V c) (A_eq V c 0) (after0 V c) t d
theorem before1 (c : Dev nD) (t : Fin cfg1.N) (d) : (dat V c).before 1 t d = blk V c 1 t :=
  before1_of V (dat V c) (A_eq V c 1) (after1 V c) t d
theorem before2 (c : Dev nD) (t : Fin cfg1.N) (d) : (dat V c).before 2 t d = blk V c 2 t :=
  before2_of V (dat V c) (A_eq V c 2) (after2 V c) t d
theorem before3 (c : Dev nD) (t : Fin cfg1.N) (d) : (dat V c).before 3 t d = blk V c 3 t :=
  before3_of V (dat V c) (A_eq V c 3) (after3 V c) t d
theorem before4 (c : Dev nD) (t : Fin cfg1.N) (d) : (dat V c).before 4 t d = blk V c 4 t :=
  before4_of V (dat V c) (A_eq V c 4) (after4 V c) t d

/-- At a later point the loss accumulator's staging buffer holds what the body left at the point before: the point is
    not the first, and the buffer is written back only after the last point. -/
theorem before5_later (c : Dev nD) (t : Fin cfg1.N) (h0 : t.val ≠ 0) (d) :
    (dat V c).before 5 t d = (accs V c (t.val - 1) (Nat.lt_of_le_of_lt (Nat.sub_le _ _) t.isLt)).1 := by
  have hN : t.val < 128 := lt_of_lt_of_eq t.isLt (show cfg1.N = 128 from N_1)
  rw [Dat.before_out_kept _ 5 rfl t h0 (Bool.eq_false_iff.mpr fun h => by have := (flush1_5 _).mp h; dsimp only at this; omega)
    (fun _ => rfl) (fun _ _ => rfl)]
  dsimp only [dat]

/-- The same for the count accumulator. -/
theorem before6_later (c : Dev nD) (t : Fin cfg1.N) (h0 : t.val ≠ 0) (d) :
    (dat V c).before 6 t d = (accs V c (t.val - 1) (Nat.lt_of_le_of_lt (Nat.sub_le _ _) t.isLt)).2 := by
  have hN : t.val < 128 := lt_of_lt_of_eq t.isLt (show cfg1.N = 128 from N_1)
  rw [Dat.before_out_kept _ 6 rfl t h0 (Bool.eq_false_iff.mpr fun h => by have := (flush1_6 _).mp h; dsimp only at this; omega)
    (fun _ => rfl) (fun _ _ => rfl)]
  dsimp only [dat]

/-! ## The body obligation -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t))

set_option maxHeartbeats 1600000 in
/-- The body at any point: the five inputs' buffers hold their blocks; at point 0 the body is in its first-point case and
    the accumulators' buffers may hold anything; at a later point it is in the other case and they hold what the point
    before left; the invariant and what the core owes pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3, before4]
  rw [show (dat V c).Φ t.succ = (dat V c).Φ t.castSucc from rfl,
    show (dat V c).owesAt () t.succ = (dat V c).owesAt () t.castSucc from rfl,
    after0, after1, after2, after3, after4, after5, after6]
  by_cases h0 : t.val = 0
  · rw [accs_first V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (run_first c Set.univ (grid1.coords t) ((isFirst_iff t).mpr h0) _ _ _ _ _ _ _ _ _ _ _ _ _ _
      (blk V c 0 t) (blk V c 1 t) (blk V c 2 t) (blk V c 3 t) (blk V c 4 t) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [accs_later V c t h0]
    simp only [before5_later V c t h0, before6_later V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (run_later c Set.univ (grid1.coords t) (fun h => h0 ((isFirst_iff t).mp h)) _ _ _ _ _ _ _ _ _ _ _ _ _ _
      (blk V c 0 t) (blk V c 1 t) (blk V c 2 t) (blk V c 3 t) (blk V c 4 t) _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation (c : Dev nD) : BodyObligation (dat (F := F) V c) (defs₀ (F := F)) Variants.none () Set.univ := fun t => by
  rw [bigSep_W1, bigSep_W1]
  exact sound_body V c t

end Cert.Kernel.Trip

end
-- ==== Proof.BitsWhole.lean ====
/-
  The whole program, at any float instance: @main is the distance region, two reshapes of the labels, the triplet region,
  and ten host operations that turn the two accumulators into the mean.

  Between two consecutive items every unscoped buffer of the core is held whole at known contents: the launch memory,
  then each region's arrays at what its write-backs leave and each host stretch's results. This module names those
  contents, gives each region as a segment entered from the contents before it and left at the contents after it, and
  runs @main over the segments. The run's post reads EVERY unscoped buffer off the last contents, so it gives both the
  frame (no item writes an argument) and the result buffer's value.

  The triplet region is handed the distance matrix through two windows and the row of labels through two windows. At its
  entry each of those two arrays is split into two half shares, one per window; at its exit the halves, which still hold
  the same contents because no input is written back, are joined again.
-/
import proofs.«146165_j50122268344327_2_alg».proof.Proof.BitsDist
import proofs.«146165_j50122268344327_2_alg».proof.Proof.BitsTrip
import proofs.«146165_j50122268344327_2_alg».proof.Proof.Gen.Kernel.Regions

set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (the distance region's entry). -/
abbrev W0 : Dev nD → Valuation τ sig (Elt F) := fun c b => m (c, b)
abbrev E0 : (c : Dev nD) → (b : Ref sig .tc) → Buf (Elt F) ((c : Thread nD τ).loc b) := fun c b => W0 m c b
/-- At the distance region's exit: its arrays at what the pipeline leaves, every other buffer as entered. -/
def W1 (c : Dev nD) : Valuation τ sig (Elt F) :=
  Pipeline.withArrays spec0 c (W0 m c) fun w => (Dist.dat (E0 m) c).arrAt w cfg0.N
theorem W1_arr (c : Dev nD) (w : Fin cfg0.W) :
    W1 m c (Proc.devRef .tc (Pipeline.arrRef spec0 w)) = (Dist.dat (E0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev E1 : (c : Dev nD) → (b : Ref sig .tc) → Buf (Elt F) ((c : Thread nD τ).loc b) := fun c b => W1 m c b
theorem hF0 (c : Dev nD) (w : Fin cfg0.W) : (Dist.dat (E0 m) c).arrAt w cfg0.N = E1 m c (Pipeline.arrRef spec0 w) :=
  (W1_arr m c w).symm
theorem hrest0 (c : Dev nD) : ∀ b, b ∉ Finset.univ.image (Pipeline.arrRef spec0) → E1 m c b = E0 m c b :=
  fun b hb => W1_of_ne m c b fun w e => hb (Finset.mem_image.mpr ⟨w, Finset.mem_univ _, e⟩)

/-- After the two reshapes of the labels (the triplet region's entry). -/
abbrev W2 : Dev nD → Valuation τ sig (Elt F) := fun c => StableHlo.after hostOps1 (W1 m c)
abbrev E2 : (c : Dev nD) → (b : Ref sig .tc) → Buf (Elt F) ((c : Thread nD τ).loc b) := fun c b => W2 m c b

/-- At the triplet region's exit: the two accumulators' arrays at what the last point wrote back, every other buffer as
    entered (the region writes nothing else back). -/
def W3 (c : Dev nD) : Valuation τ sig (Elt F) :=
  Function.update (Function.update (W2 m c) (Proc.devRef .tc main_v3_0) ((Trip.dat (E2 m) c).arrAt 5 cfg1.N))
    (Proc.devRef .tc main_v3_1) ((Trip.dat (E2 m) c).arrAt 6 cfg1.N)
theorem W3_sum (c : Dev nD) : W3 m c (Proc.devRef .tc main_v3_0) = (Trip.dat (E2 m) c).arrAt 5 cfg1.N := by
  unfold W3
  rw [Function.update_of_ne (StableHlo.devRef_ne_of_ne (by decide) : (Proc.devRef .tc main_v3_0 : DevRef τ sig) ≠ Proc.devRef .tc main_v3_1),
    Function.update_self]
theorem W3_cnt (c : Dev nD) : W3 m c (Proc.devRef .tc main_v3_1) = (Trip.dat (E2 m) c).arrAt 6 cfg1.N := by
  unfold W3; rw [Function.update_self]
theorem W3_of_ne (c : Dev nD) (b : Ref sig .tc) (h0 : b ≠ main_v3_0) (h1 : b ≠ main_v3_1) :
    W3 m c (Proc.devRef .tc b) = W2 m c (Proc.devRef .tc b) := by
  unfold W3
  rw [Function.update_of_ne (StableHlo.devRef_ne_of_ne h1 : (Proc.devRef .tc b : DevRef τ sig) ≠ Proc.devRef .tc main_v3_1),
    Function.update_of_ne (StableHlo.devRef_ne_of_ne h0 : (Proc.devRef .tc b : DevRef τ sig) ≠ Proc.devRef .tc main_v3_0)]
abbrev E3 : (c : Dev nD) → (b : Ref sig .tc) → Buf (Elt F) ((c : Thread nD τ).loc b) := fun c b => W3 m c b

/-- After the eight host operations that form the guarded quotient, -/
abbrev W4 : Dev nD → Valuation τ sig (Elt F) := fun c => StableHlo.after hostOps2 (W3 m c)
/-- and after the final select (the outlined `where`). -/
abbrev W5 : Dev nD → Valuation τ sig (Elt F) := fun c => StableHlo.after hostOps2_1 (W4 m c)

/-! ### The arguments end as launched -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := StableHlo.after_of_writes_sub hostOps2_1 _ hostOps2_1_writes (by decide)
    _ = W3 m c (Proc.devRef .tc main_arg0) := StableHlo.after_of_writes_sub hostOps2 _ hostOps2_writes (by decide)
    _ = W2 m c (Proc.devRef .tc main_arg0) := W3_of_ne m c main_arg0 (by decide) (by decide)
    _ = W1 m c (Proc.devRef .tc main_arg0) := StableHlo.after_of_writes_sub hostOps1 _ hostOps1_writes (by decide)
    _ = W0 m c (Proc.devRef .tc main_arg0) := (W1_arr m c 0).trans (((Dist.dat (E0 m) c).arrAt_in 0 rfl _).trans (Dist.A_eq (E0 m) c 0))
    _ = m ((c : Thread nD τ).loc main_arg0) := rfl

theorem W5_main_arg1 (c : Dev nD) : W5 m c (Proc.devRef .tc main_arg1) = m ((c : Thread nD τ).loc main_arg1) :=
  calc W5 m c (Proc.devRef .tc main_arg1)
    _ = W4 m c (Proc.devRef .tc main_arg1) := StableHlo.after_of_writes_sub hostOps2_1 _ hostOps2_1_writes (by decide)
    _ = W3 m c (Proc.devRef .tc main_arg1) := StableHlo.after_of_writes_sub hostOps2 _ hostOps2_writes (by decide)
    _ = W2 m c (Proc.devRef .tc main_arg1) := W3_of_ne m c main_arg1 (by decide) (by decide)
    _ = W1 m c (Proc.devRef .tc main_arg1) := StableHlo.after_of_writes_sub hostOps1 _ hostOps1_writes (by decide)
    _ = W0 m c (Proc.devRef .tc main_arg1) := W1_of_ne m c main_arg1 (by decide)
    _ = m ((c : Thread nD τ).loc main_arg1) := rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => Dist.dat (E0 m) c
  | ⟨1, _⟩ => fun c => Trip.dat (E2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last contents, the generator register
    at some state. -/
abbrev Tₙ (c : Dev nD) : sProp 𝕄 := iprop(StableHlo.held (c : Thread nD τ) (Pipeline.ucRefs τ sig) (W5 m c) ∗ ∃ r, prngReg c r)

/-! ## The distance region as a segment -/

set_option backward.isDefEq.respectTransparency.types false in
/-- Entered from every unscoped buffer at the launch contents, left at `W1`. Its two arrays are distinct: they are split
    out of the unscoped buffers and put back at the exit contents; the generator register goes into the invariant and
    comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Dist.body_obligation (E0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The triplet region's arrays: seven windows on five buffers -/

/-- The five distinct buffers behind the seven windows, one by one. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v0) ↦{fullShare} V main_v0) ∗ (((c : Thread nD τ).loc main_v1) ↦{fullShare} V main_v1) ∗ (((c : Thread nD τ).loc main_v2) ↦{fullShare} V main_v2)
          ∗ (((c : Thread nD τ).loc main_v3_0) ↦{fullShare} V main_v3_0) ∗ (((c : Thread nD τ).loc main_v3_1) ↦{fullShare} V main_v3_1)) := by
  unfold Pipeline.arrBufs
  exact bigSep_eq_bigSepL_of_eq [main_v0, main_v1, main_v2, main_v3_0, main_v3_1] (by decide) (by decide) _

/-- The pipeline's seven arrays, one by one, each at its window's share. -/
theorem arrays1_eq (c : Dev nD) (G : (w : Fin cfg1.W) → Buf (Elt F) ((cfg1.win w).arr.view.loc (c.tc : Thread nD τ))) :
    ((Trip.dat (E2 m) c).arrays G : sProp 𝕄)
      = iprop((((c : Thread nD τ).loc main_v0) ↦{Trip.halfL} G 0) ∗ (((c : Thread nD τ).loc main_v0) ↦{Trip.halfR} G 1) ∗ (((c : Thread nD τ).loc main_v1) ↦{fullShare} G 2)
          ∗ (((c : Thread nD τ).loc main_v2) ↦{Trip.halfL} G 3) ∗ (((c : Thread nD τ).loc main_v2) ↦{Trip.halfR} G 4)
          ∗ (((c : Thread nD τ).loc main_v3_0) ↦{fullShare} G 5) ∗ (((c : Thread nD τ).loc main_v3_1) ↦{fullShare} G 6)) := by
  unfold Dat.arrays
  rw [bigSep_W1]
  -- windows on one array have one and the same element set: a rewrite for one of them rewrites the other's too
  rw [(arr_whole1 0).set_eq_univ, (arr_whole1 2).set_eq_univ, (arr_whole1 3).set_eq_univ, (arr_whole1 5).set_eq_univ,
    (arr_whole1 6).set_eq_univ]
  rfl

/-- ENTRY: the five buffers whole at the entry contents are the seven windows' arrays at those contents, the distance
    matrix and the row of labels each split into two halves. -/
theorem arrays_of_bufs (c : Dev nD) :
    (Pipeline.arrBufs (Ix := Unit) (Name := ℕ) (U := UR sig nD τ) (Lvl := ℕ) spec1 c (E2 m c) : sProp 𝕄)
      ⊢ (Trip.dat (E2 m) c).arrays ((Trip.dat (E2 m) c).arrAt · 0) := by
  rw [arrBufs1_eq, arrays1_eq]
  iintro ⟨H0, H1, H2, H5, H6⟩
  ihave H0' := (pointsTo_share Trip.half_mem).1 $$ H0
  icases H0' with ⟨H0a, H0b⟩
  ihave H2' := (pointsTo_share Trip.half_mem).1 $$ H2
  icases H2' with ⟨H2a, H2b⟩
  isplitl [H0a]; · iexact H0a
  isplitl [H0b]; · iexact H0b
  isplitl [H1]; · iexact H1
  isplitl [H2a]; · iexact H2a
  isplitl [H2b]; · iexact H2b
  isplitl [H5]; · iexact H5
  iexact H6

/-- EXIT: the seven windows' arrays after the last point — the inputs as entered, the accumulators at what was written
    back — are the five buffers whole at the exit contents, the halves joined. -/
theorem bufs_of_arrays (c : Dev nD) :
    ((Trip.dat (E2 m) c).arrays ((Trip.dat (E2 m) c).arrAt · cfg1.N) : sProp 𝕄)
      ⊢ Pipeline.arrBufs (Ix := Unit) (Name := ℕ) (U := UR sig nD τ) (Lvl := ℕ) spec1 c (E3 m c) := by
  rw [arrBufs1_eq, arrays1_eq]
  have h0 : (Trip.dat (E2 m) c).arrAt 0 cfg1.N = E3 m c main_v0 :=
    ((Trip.dat (E2 m) c).arrAt_in 0 rfl _).trans ((Trip.A_eq (E2 m) c 0).trans (W3_of_ne m c main_v0 (by decide) (by decide)).symm)
  have h1 : (Trip.dat (E2 m) c).arrAt 1 cfg1.N = E3 m c main_v0 :=
    ((Trip.dat (E2 m) c).arrAt_in 1 rfl _).trans ((Trip.A_eq (E2 m) c 1).trans (W3_of_ne m c main_v0 (by decide) (by decide)).symm)
  have h2 : (Trip.dat (E2 m) c).arrAt 2 cfg1.N = E3 m c main_v1 :=
    ((Trip.dat (E2 m) c).arrAt_in 2 rfl _).trans ((Trip.A_eq (E2 m) c 2).trans (W3_of_ne m c main_v1 (by decide) (by decide)).symm)
  have h3 : (Trip.dat (E2 m) c).arrAt 3 cfg1.N = E3 m c main_v2 :=
    ((Trip.dat (E2 m) c).arrAt_in 3 rfl _).trans ((Trip.A_eq (E2 m) c 3).trans (W3_of_ne m c main_v2 (by decide) (by decide)).symm)
  have h4 : (Trip.dat (E2 m) c).arrAt 4 cfg1.N = E3 m c main_v2 :=
    ((Trip.dat (E2 m) c).arrAt_in 4 rfl _).trans ((Trip.A_eq (E2 m) c 4).trans (W3_of_ne m c main_v2 (by decide) (by decide)).symm)
  have h5 : (Trip.dat (E2 m) c).arrAt 5 cfg1.N = E3 m c main_v3_0 := (W3_sum m c).symm
  have h6 : (Trip.dat (E2 m) c).arrAt 6 cfg1.N = E3 m c main_v3_1 := (W3_cnt m c).symm
  rw [h0, h1, h2, h3, h4, h5, h6]
  iintro ⟨H0a, H0b, H1, H2a, H2b, H5, H6⟩
  isplitl [H0a H0b]
  · iapply (pointsTo_share Trip.half_mem).2; isplitl [H0a] <;> iassumption
  isplitl [H1]; · iexact H1
  isplitl [H2a H2b]
  · iapply (pointsTo_share Trip.half_mem).2; isplitl [H2a] <;> iassumption
  isplitl [H5]; · iexact H5
  iexact H6

/-- The buffers that are no array of the triplet region hold the same at its exit as at its entry. -/
theorem rest_eq (c : Dev nD) :
    (Pipeline.unscopedRest (Ix := Unit) (Name := ℕ) (U := UR sig nD τ) (Lvl := ℕ) spec1 c (E3 m c) : sProp 𝕄) = Pipeline.unscopedRest (Ix := Unit) (Name := ℕ) (U := UR sig nD τ) (Lvl := ℕ) spec1 c (E2 m c) := by
  unfold Pipeline.unscopedRest
  exact bigSep_congr fun b hb => by
    have hb' := (Finset.mem_sdiff.mp hb).2
    rw [show E3 m c b = E2 m c b from W3_of_ne m c b (fun e => hb' (by rw [e]; decide)) (fun e => hb' (by rw [e]; decide))]

/-! ## The triplet region as a segment -/

set_option backward.isDefEq.respectTransparency.types false in
/-- Entered from every unscoped buffer at `W2`, left at `W3`. Its seven windows stand on five buffers: those are split out
    of the unscoped buffers and shared out among the windows at entry, and gathered and put back at exit; the generator
    register goes into the invariant and comes back; nothing is owed; the kernel has no semaphore of its own. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (Trip.body_obligation (E2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit : (unscopedBufs (Ix := Unit) (Name := ℕ) (U := UR sig nD τ) (Lvl := ℕ) c (E2 m c) : sProp 𝕄)
        ⊢ iprop((pdats m 1 c).arrays ((pdats m 1 c).arrAt · 0) ∗ Pipeline.unscopedRest (Ix := Unit) (Name := ℕ) (U := UR sig nD τ) (Lvl := ℕ) spec1 c (E2 m c)) := by
      rw [Pipeline.unscopedBufs_split₀ (Pipeline.pin (pcfgs (F := F)) adm) 1 winFacts₀1.arr_unscoped c (E2 m c)]
      exact sep_mono (arrays_of_bufs m c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest (Ix := Unit) (Name := ℕ) (U := UR sig nD τ) (Lvl := ℕ) spec1 c (E2 m c))
        ⊢ (unscopedBufs (Ix := Unit) (Name := ℕ) (U := UR sig nD τ) (Lvl := ℕ) c (E3 m c) : sProp 𝕄) := by
      rw [Pipeline.unscopedBufs_split₀ (Pipeline.pin (pcfgs (F := F)) adm) 1 winFacts₀1.arr_unscoped c (E3 m c)]
      exact BI.sep_mono (bufs_of_arrays m c) (Entails.of_eq (rest_eq m c).symm)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

/-- @main's five segments in order. -/
abbrev segs : List (Pipeline.Seg (pcfgs (F := F)) adm (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)),
    .host (hseg hostOps2_1 hostOps2_1_sub hostOps2_1_fresh (W4 m)) ]

/-- The last link of the chain: the last host stretch leaves every unscoped buffer at `W5` beside the generator register
    and nothing owed. -/
theorem last_link (c : Dev nD) :
    iprop(StableHlo.held (c : Thread nD τ) (Pipeline.ucRefs τ sig) (W5 m c) ∗ R c)
      ⊢ (iprop(Tₙ m c ∗ ∃ W, owes (c : Thread nD τ) (0 : CellTallies nD τ sig Unit) W) : sProp 𝕄) := by
  iintro ⟨Hh, Hp, HO⟩
  isplitl [Hh Hp]
  · isplitl [Hh]; · iexact Hh
    iexact Hp
  iexact HO

/-- @main IS the run of the segments. -/
theorem main_run (c : Dev nD) : main (F := F) c = Pipeline.Seg.run (segs m) := (main_chain c).trans (by chain_rfl)

set_option backward.isDefEq.respectTransparency.types false in
/-- THE RUN. At the compiled mesh, from any memory with zero counters, every weakly fair execution of @main on the
    TensorCores terminates, nothing faulting, and every final state holds every unscoped buffer at the last contents
    `W5` — in particular the result, and the two arguments as launched. -/
theorem run : θ_run defs (onTc (τ := τ) (main (F := F))) ⟨m, fun _ => 0, ρ⟩ (fun r => ∀ c : Dev nD,
      r.2.mem ((c.tc : Thread nD τ).loc main_v9) = W5 m c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => last_link m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c =>
      ⟨h c _ (mem_uc main_v9 (by decide)),
        (h c _ (mem_uc main_arg0 (by decide))).trans (W5_main_arg0 m c),
        (h c _ (mem_uc main_arg1 (by decide))).trans (W5_main_arg1 m c)⟩)

/-- info: 'Cert.Kernel.Whole.run' depends on axioms: [propext, Classical.choice, Quot.sound] -/
#guard_msgs in #print axioms run

end Cert.Kernel.Whole

end
-- ==== Proof.IdealSlab.lean ====
/-
  One grid point of the triplet kernel at the ideal values, as explicit sums.

  At a point the body's loss accumulator goes from a to a + Σ_r Σ_j Σ_k hinge(d(r,j), d'(r,k)) · p(r,j) · n(r,k), and its count
  accumulator from a to a + Σ_r Σ_j Σ_k p(r,j) · n(r,k): r runs over the 16 anchor rows of the band, j over the 512 positives,
  k over the 128 negatives of the tile; hinge(p, n) = max(p − n + 1, 0); p(r,j) is the value (0 or 1) of the bit "same label,
  different sample" and n(r,k) that of the bit "different label". The three nested lane sums, the rank-3 casts and
  broadcasts, and the mask are each read at an index here.
-/
import proofs.«146165_j50122268344327_2_alg».proof.Proof.IdealTrip
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Slab

open Idealize.ShloMosaic Idealize.ShloMosaic.ValueIdx
open Cert.KernelIdeal Cert.KernelIdeal.Gen

/-! ## The three lane sums of the slab, at the ideal values -/

/-- The sum over the negatives' axis of a [16,512,128] slab at (r, j). -/
theorem red_k (v : FVec Ideal S16x512x128 .f32) (hacc : (0x00000000#32 : BitVec 32) = 0x00000000#32) (r : Fin 16) (j : Fin 512) :
    multiReduction .add [2] S16x512 v 0x00000000#32 reduces_S16x512x128_S16x512 (.inl rfl) hacc (ix2 r j)
      = ∑ k : Fin 128, v (ix3 r j k) := by
  refine (Ideal.multiReduction_add_single v 0x00000000#32 reduces_S16x512x128_S16x512 (.inl rfl) hacc (ix2 r j)).trans ?_
  refine Finset.sum_congr rfl fun k _ => congrArg v (funext fun a => Fin.ext ?_)
  match a with
  | ⟨0, _⟩ => rfl
  | ⟨1, _⟩ => rfl
  | ⟨2, _⟩ => rfl

/-- The sum over the positives' axis of a [16,512] matrix at row r. -/
theorem red_j (v : FVec Ideal S16x512 .f32) (hacc : (0x00000000#32 : BitVec 32) = 0x00000000#32) (r : Fin 16) :
    multiReduction .add [1] S16 v 0x00000000#32 reduces_S16x512_S16 (.inl rfl) hacc (ix1 r)
      = ∑ j : Fin 512, v (ix2 r j) := by
  refine (Ideal.multiReduction_add_single v 0x00000000#32 reduces_S16x512_S16 (.inl rfl) hacc (ix1 r)).trans ?_
  refine Finset.sum_congr rfl fun k _ => congrArg v (funext fun a => Fin.ext ?_)
  match a with
  | ⟨0, _⟩ => rfl
  | ⟨1, _⟩ => rfl

/-- The sum of a [1,16] row. -/
theorem red_r (v : FVec Ideal S1x16 .f32) (hacc : (0x00000000#32 : BitVec 32) = 0x00000000#32) (z : Fin 1) :
    multiReduction .add [1] S1 v 0x00000000#32 reduces_S1x16_S1 (.inl rfl) hacc (ix1 z)
      = ∑ r : Fin 16, v (ix2 z r) := by
  refine (Ideal.multiReduction_add_single v 0x00000000#32 reduces_S1x16_S1 (.inl rfl) hacc (ix1 z)).trans ?_
  refine Finset.sum_congr rfl fun k _ => congrArg v (funext fun a => Fin.ext ?_)
  match a with
  | ⟨0, _⟩ => rfl
  | ⟨1, _⟩ => rfl

/-! ## Casts and broadcasts of the slab, read at an index -/

/-- A [16] vector laid as a [1,16] row. -/
theorem cast_row {α : Type} (v : S16.Idx → α) (z : Fin 1) (r : Fin 16) :
    shapeCast S1x16 v shapeCasts_S16_S1x16 (ix2 z r) = v (ix1 r) := by
  refine shapeCast_apply v shapeCasts_S16_S1x16 (ix2 z r) (ix1 r) ?_
  have hz : z.val = 0 := by omega
  rw [Shape.rowMajor_val_one, Shape.rowMajor_val_two]
  show r.val = z.val * 16 + r.val
  omega

/-- A [1] vector laid as a [1,1] array. -/
theorem cast_one {α : Type} (v : S1.Idx → α) (y : S1x1.Idx) :
    shapeCast S1x1 v shapeCasts_S1_S1x1 y = v (ix1 0) := by
  refine shapeCast_apply v shapeCasts_S1_S1x1 y (ix1 0) ?_
  have h0 : (y 0).val = 0 := by have := idx2_lt0 y; omega
  have h1 : (y 1).val = 0 := by have := idx2_lt1 y; omega
  rw [Shape.rowMajor_val_one, Shape.rowMajor_val_two]
  show (0 : ℕ) = (y 0).val * 1 + (y 1).val
  omega

/-- A [16,512] matrix given a trailing unit axis. -/
theorem cast_pos {α : Type} (v : S16x512.Idx → α) (r : Fin 16) (j : Fin 512) (u : Fin 1) :
    shapeCast S16x512x1 v shapeCasts_S16x512_S16x512x1 (ix3 r j u) = v (ix2 r j) := by
  refine shapeCast_apply v shapeCasts_S16x512_S16x512x1 (ix3 r j u) (ix2 r j) ?_
  have hu : u.val = 0 := by omega
  rw [Shape.rowMajor_val_two, Shape.rowMajor_val_three]
  show r.val * 512 + j.val = (r.val * 512 + j.val) * 1 + u.val
  omega

/-- A [16,128] matrix given a middle unit axis. -/
theorem cast_neg {α : Type} (v : S16x128.Idx → α) (r : Fin 16) (u : Fin 1) (k : Fin 128) :
    shapeCast S16x1x128 v shapeCasts_S16x128_S16x1x128 (ix3 r u k) = v (ix2 r k) := by
  refine shapeCast_apply v shapeCasts_S16x128_S16x1x128 (ix3 r u k) (ix2 r k) ?_
  have hu : u.val = 0 := by omega
  rw [Shape.rowMajor_val_two, Shape.rowMajor_val_three]
  show r.val * 128 + k.val = (r.val * 1 + u.val) * 128 + k.val
  omega

/-- A [16,512,1] array repeated along the negatives' axis. -/
theorem bcast_pos {α : Type} (v : S16x512x1.Idx → α) (r : Fin 16) (j : Fin 512) (k : Fin 128) :
    broadcastTo S16x512x128 v broadcasts_S16x512x1_S16x512x128 (ix3 r j k) = v (ix3 r j 0) :=
  broadcastTo_apply v broadcasts_S16x512x1_S16x512x128 (ix3 r j k) (ix3 r j 0) fun a =>
    match a with
    | ⟨0, _⟩ => rfl
    | ⟨1, _⟩ => rfl
    | ⟨2, _⟩ => rfl

/-- A [16,1,128] array repeated along the positives' axis. -/
theorem bcast_neg {α : Type} (v : S16x1x128.Idx → α) (r : Fin 16) (j : Fin 512) (k : Fin 128) :
    broadcastTo S16x512x128 v broadcasts_S16x1x128_S16x512x128 (ix3 r j k) = v (ix3 r 0 k) :=
  broadcastTo_apply v broadcasts_S16x1x128_S16x512x128 (ix3 r j k) (ix3 r 0 k) fun a =>
    match a with
    | ⟨0, _⟩ => rfl
    | ⟨1, _⟩ => rfl
    | ⟨2, _⟩ => rfl

/-! ## The two accumulator payloads at the ideal values -/

/-- The hinge term of one triplet: max(p − n + 1, 0), with the two literals as the program spells them. -/
abbrev hinge (p n : EReal) : EReal :=
  max (p - n + (Scalar.ofBits .f32 0x3F800000#32 : Ideal .f32)) (Scalar.ofBits .f32 0x00000000#32 : Ideal .f32)

/-- The loss accumulator's new value: the old one plus the sum over the slab of the hinge terms times the mask. -/
theorem pay1_apply (v38 : FVec Ideal S16x512x128 .f32) (v39 : FVec Ideal S16x512x1 .f32) (v40 : FVec Ideal S16x1x128 .f32)
    (v61 : Vec Ideal S1x1 .f32) (y : S1x1.Idx) :
    k1_pay1 (F := Ideal) v38 v39 v40 v61 y
      = v61 y + ∑ r : Fin 16, ∑ j : Fin 512, ∑ k : Fin 128, hinge (v39 (ix3 r j 0)) (v40 (ix3 r 0 k)) * v38 (ix3 r j k) := by
  unfold k1_pay1
  dsimp only
  refine (addf_apply _ _ y).trans ?_
  refine congrArg₂ (· + ·) (congrFun (shapeCast_self v61 _) y) ?_
  refine (cast_one _ _).trans ?_
  refine (red_r _ rfl 0).trans ?_
  refine Finset.sum_congr rfl fun r _ => ?_
  refine (cast_row _ 0 r).trans ?_
  refine (red_j _ rfl r).trans ?_
  refine Finset.sum_congr rfl fun j _ => ?_
  refine (red_k _ rfl r j).trans ?_
  refine Finset.sum_congr rfl fun k _ => ?_
  show max (broadcastTo S16x512x128 v39 broadcasts_S16x512x1_S16x512x128 (ix3 r j k)
      - broadcastTo S16x512x128 v40 broadcasts_S16x1x128_S16x512x128 (ix3 r j k) + _) _ * _ = _
  rw [bcast_pos, bcast_neg]
  rfl

/-- The count accumulator's new value: the old one plus the sum of the mask over the slab. -/
theorem pay2_apply (v38 : FVec Ideal S16x512x128 .f32) (v66 : Vec Ideal S1x1 .f32) (y : S1x1.Idx) :
    k1_pay2 (F := Ideal) v38 v66 y = v66 y + ∑ r : Fin 16, ∑ j : Fin 512, ∑ k : Fin 128, v38 (ix3 r j k) := by
  unfold k1_pay2
  dsimp only
  refine (addf_apply _ _ y).trans ?_
  refine congrArg₂ (· + ·) (congrFun (shapeCast_self v66 _) y) ?_
  refine (cast_one _ _).trans ?_
  refine (red_r _ rfl 0).trans ?_
  refine Finset.sum_congr rfl fun r _ => ?_
  refine (cast_row _ 0 r).trans ?_
  refine (red_j _ rfl r).trans ?_
  refine Finset.sum_congr rfl fun j _ => ?_
  exact red_k _ rfl r j

/-! ## The label blocks' broadcasts, and the hinge's two operands -/

theorem bc_col512 {α : Type} (v : S16x1.Idx → α) (r : Fin 16) (j : Fin 512) :
    broadcastTo S16x512 v broadcasts_S16x1_S16x512 (ix2 r j) = v (ix2 r 0) :=
  broadcastTo_apply v broadcasts_S16x1_S16x512 (ix2 r j) (ix2 r 0) fun a =>
    match a with
    | ⟨0, _⟩ => rfl
    | ⟨1, _⟩ => rfl
theorem bc_row512 {α : Type} (v : S1x512.Idx → α) (r : Fin 16) (j : Fin 512) :
    broadcastTo S16x512 v broadcasts_S1x512_S16x512 (ix2 r j) = v (ix2 0 j) :=
  broadcastTo_apply v broadcasts_S1x512_S16x512 (ix2 r j) (ix2 0 j) fun a =>
    match a with
    | ⟨0, _⟩ => rfl
    | ⟨1, _⟩ => rfl
theorem bc_col128 {α : Type} (v : S16x1.Idx → α) (r : Fin 16) (k : Fin 128) :
    broadcastTo S16x128 v broadcasts_S16x1_S16x128 (ix2 r k) = v (ix2 r 0) :=
  broadcastTo_apply v broadcasts_S16x1_S16x128 (ix2 r k) (ix2 r 0) fun a =>
    match a with
    | ⟨0, _⟩ => rfl
    | ⟨1, _⟩ => rfl
theorem bc_row128 {α : Type} (v : S1x128.Idx → α) (r : Fin 16) (k : Fin 128) :
    broadcastTo S16x128 v broadcasts_S1x128_S16x128 (ix2 r k) = v (ix2 0 k) :=
  broadcastTo_apply v broadcasts_S1x128_S16x128 (ix2 r k) (ix2 0 k) fun a =>
    match a with
    | ⟨0, _⟩ => rfl
    | ⟨1, _⟩ => rfl

/-- The band of distances, with a trailing unit axis, at (r, j, ·) is the band at (r, j). -/
theorem pay6_apply (x : Vec Ideal S16x512 .f32) (r : Fin 16) (j : Fin 512) (u : Fin 1) :
    k1_pay6 (F := Ideal) x (ix3 r j u) = x (ix2 r j) := by
  unfold k1_pay6
  refine (cast_pos _ r j u).trans ?_
  exact congrFun (shapeCast_self x _) (ix2 r j)

/-- The tile of distances, with a middle unit axis, at (r, ·, k) is the tile at (r, k). -/
theorem pay7_apply (x : Vec Ideal S16x128 .f32) (r : Fin 16) (u : Fin 1) (k : Fin 128) :
    k1_pay7 (F := Ideal) x (ix3 r u k) = x (ix2 r k) := by
  unfold k1_pay7
  refine (cast_neg _ r u k).trans ?_
  exact congrFun (shapeCast_self x _) (ix2 r k)

/-! ## The mask at a triplet -/

/-- The anchor–positive bit at (row r of band b, column j): the two labels are equal and the two samples differ. -/
def posBit (b : BitVec 32) (la lp : BitVec 32) (r : Fin 16) (j : Fin 512) : BitVec 1 :=
  IntOp.andi (IntOp.cmpi .eq la lp)
    (IntOp.xori (IntOp.cmpi .eq (IntOp.addi (Scalar.muli b 16#32) (BitVec.ofNat 32 r.val)) (BitVec.ofNat 32 j.val)) 1#1)

/-- The anchor–negative bit: the two labels differ. -/
def negBit (la ln : BitVec 32) : BitVec 1 := IntOp.xori (IntOp.cmpi .eq la ln) 1#1

/-- A one-bit word as an extended real: 0 or 1. -/
abbrev bitVal (b : BitVec 1) : EReal := (FloatOps.sitofp .f32 (b.setWidth 32) : Ideal .f32)

/-- The mask at a triplet of the slab is the product of the two bits' values. -/
theorem mask_apply (i : grid1.Coords) (v9 : Vec Ideal S16x1 .i32) (v11 : Vec Ideal S1x512 .i32) (v13 : Vec Ideal S1x128 .i32)
    (r : Fin 16) (j : Fin 512) (k : Fin 128) :
    k1_pay5 (F := Ideal) i v9 v11 v13 (ix3 r j k)
      = bitVal (posBit (BitVec.ofNat 32 (i 0).val) (v9 (ix2 r 0)) (v11 (ix2 0 j)) r j) * bitVal (negBit (v9 (ix2 r 0)) (v13 (ix2 0 k))) := by
  unfold k1_pay5
  dsimp only
  refine (mulf_apply _ _ _).trans ?_
  rw [bcast_pos, bcast_neg, cast_pos, cast_neg]
  simp only [sitofp, extui, andi, xori, cmpi, addi, constantI, broadcast, iota, bc_col512, bc_row512, bc_col128, bc_row128,
    shapeCast_self, List.foldl, Nat.zero_mul, Nat.zero_add]
  rfl

/-! ## One step of each accumulator, as a sum over the slab -/

/-- The loss accumulator one step on: its old value plus the sum over the slab's triplets of hinge × mask. -/
theorem sumStep_apply (i : grid1.Coords) (x0 : Vec Ideal S16x512 .f32) (x1 : Vec Ideal S16x128 .f32) (x2 : Vec Ideal S16x1 .i32)
    (x3 : Vec Ideal S1x512 .i32) (x4 : Vec Ideal S1x128 .i32) (a : Vec Ideal S1x1 .f32) (y : S1x1.Idx) :
    Trip.sumStep (F := Ideal) i x0 x1 x2 x3 x4 a y
      = a y + ∑ r : Fin 16, ∑ j : Fin 512, ∑ k : Fin 128,
          hinge (x0 (ix2 r j)) (x1 (ix2 r k))
            * (bitVal (posBit (BitVec.ofNat 32 (i 0).val) (x2 (ix2 r 0)) (x3 (ix2 0 j)) r j) * bitVal (negBit (x2 (ix2 r 0)) (x4 (ix2 0 k)))) := by
  unfold Trip.sumStep Trip.maskOf
  rw [View.canon_unit_zero Trip.hz2, View.ld_unit_zero (S := S1x1) Trip.hz2, View.ld_unit_zero (S := S16x512) Trip.hz2,
    View.ld_unit_zero (S := S16x128) Trip.hz2, View.ld_unit_zero (S := S16x1) Trip.hz2, View.ld_unit_zero (S := S1x512) Trip.hz2,
    View.ld_unit_zero (S := S1x128) Trip.hz2]
  refine (pay1_apply _ _ _ _ y).trans ?_
  refine congrArg (a y + ·) (Finset.sum_congr rfl fun r _ => Finset.sum_congr rfl fun j _ => Finset.sum_congr rfl fun k _ => ?_)
  rw [pay6_apply, pay7_apply, mask_apply]

/-- The count accumulator one step on: its old value plus the sum of the mask over the slab's triplets. -/
theorem cntStep_apply (i : grid1.Coords) (x2 : Vec Ideal S16x1 .i32) (x3 : Vec Ideal S1x512 .i32) (x4 : Vec Ideal S1x128 .i32)
    (a : Vec Ideal S1x1 .f32) (y : S1x1.Idx) :
    Trip.cntStep (F := Ideal) i x2 x3 x4 a y
      = a y + ∑ r : Fin 16, ∑ j : Fin 512, ∑ k : Fin 128,
          (bitVal (posBit (BitVec.ofNat 32 (i 0).val) (x2 (ix2 r 0)) (x3 (ix2 0 j)) r j) * bitVal (negBit (x2 (ix2 r 0)) (x4 (ix2 0 k)))) := by
  unfold Trip.cntStep Trip.maskOf
  rw [View.canon_unit_zero Trip.hz2, View.ld_unit_zero (S := S1x1) Trip.hz2, View.ld_unit_zero (S := S16x1) Trip.hz2,
    View.ld_unit_zero (S := S1x512) Trip.hz2, View.ld_unit_zero (S := S1x128) Trip.hz2]
  refine (pay2_apply _ _ y).trans ?_
  refine congrArg (a y + ·) (Finset.sum_congr rfl fun r _ => Finset.sum_congr rfl fun j _ => Finset.sum_congr rfl fun k _ => ?_)
  rw [mask_apply]

end Cert.KernelIdeal.Slab

end
-- ==== Proof.IdealResult.lean ====
/-
  What the idealized kernel's result holds.

  The triplet region writes each accumulator back once, after its last point, so the two [1,1] arrays end holding the
  accumulation after point 127. The host tail then reads the two scalars s and n out of them and returns s / max(n, 1) if
  n > 0, else 0.
-/
import proofs.«146165_j50122268344327_2_alg».proof.Proof.IdealWhole
import Idealize.ShloMosaic.Lib.StableHlo.Run
import Idealize.ShloMosaic.Lib.Pipeline.Value

set_option maxRecDepth 16384

noncomputable section

namespace Cert.KernelIdeal.Result

open Idealize.ShloMosaic Idealize.ShloMosaic.TcCoe Idealize.SL.Sem Idealize.ShloMosaic.StableHlo
open Idealize.ShloMosaic.Pipeline (Dat)
open Cert.KernelIdeal Cert.KernelIdeal.Gen

variable {F : FTy → Type} [FloatOps F]
variable (m : (ℓ : Loc nD τ sig) → Buf (Elt F) ℓ)

/-- The last grid point. -/
def tLast : Fin cfg1.N := ⟨127, by rw [show cfg1.N = 128 from N_1]; decide⟩

/-- The loss accumulator after the last point, as the contents of its [1,1] array (the one block IS the array), -/
abbrev sumArr (c : Dev nD) : Buf (Elt F) ((c : Thread nD τ).loc main_v3_0) :=
  (Trip.accs (Whole.E2 m) c 127 (by rw [show cfg1.N = 128 from N_1]; decide)).1
/-- and the count accumulator. -/
abbrev cntArr (c : Dev nD) : Buf (Elt F) ((c : Thread nD τ).loc main_v3_1) :=
  (Trip.accs (Whole.E2 m) c 127 (by rw [show cfg1.N = 128 from N_1]; decide)).2

/-- The one write-back of the loss accumulator, at point 127, writes it: block (0, 0) of the [1,1] array read through
    zero offsets is the array. -/
theorem flushed5_eq (c : Dev nD) (t : Fin cfg1.N) (hf : (cfg1.win 5).flush t = true) :
    (Trip.dat (Whole.E2 m) c).flushed 5 t = ((cfg1.win 5).blk t).view.read (Elt F) (sumArr m c) := by
  have hN : cfg1.N = 128 := N_1
  have h3 : t.val = 127 := by have := (flush1_5 t).mp hf; have := t.isLt; omega
  obtain rfl : t = tLast := Fin.ext h3
  show (cfg1.win 5).cut (grid1.coords tLast) ((Trip.dat (Whole.E2 m) c).after 5 tLast) = _
  rw [Trip.after5]
  have hz' : (fun a => win1_5.index tLast a * main_v3_0.ty.shape.size a) = fun _ => 0 :=
    funext fun a => by fin_cases a <;> decide +kernel
  exact (Memref.read_access_unit_zero (Elt F) main_v3_0 hz' (fun a => by rw [congrFun hz' a]; simp) (sumArr m c)).symm

theorem flushed6_eq (c : Dev nD) (t : Fin cfg1.N) (hf : (cfg1.win 6).flush t = true) :
    (Trip.dat (Whole.E2 m) c).flushed 6 t = ((cfg1.win 6).blk t).view.read (Elt F) (cntArr m c) := by
  have hN : cfg1.N = 128 := N_1
  have h3 : t.val = 127 := by have := (flush1_6 t).mp hf; have := t.isLt; omega
  obtain rfl : t = tLast := Fin.ext h3
  show (cfg1.win 6).cut (grid1.coords tLast) ((Trip.dat (Whole.E2 m) c).after 6 tLast) = _
  rw [Trip.after6]
  have hz' : (fun a => win1_6.index tLast a * main_v3_1.ty.shape.size a) = fun _ => 0 :=
    funext fun a => by fin_cases a <;> decide +kernel
  exact (Memref.read_access_unit_zero (Elt F) main_v3_1 hz' (fun a => by rw [congrFun hz' a]; simp) (cntArr m c)).symm

/-- So the loss array ends holding the accumulation after point 127: that point's block covers it. -/
theorem final_sum (c : Dev nD) : (Trip.dat (Whole.E2 m) c).arrAt 5 cfg1.N = sumArr m c :=
  (Trip.dat (Whole.E2 m) c).arrAt_eq_of_cover 5 (sumArr m c) (flushed5_eq m c) fun i =>
    ⟨tLast, (flush1_5 tLast).mpr rfl, by
      show i ∈ ((View.whole main_v3_0).slice (win1_5.rect tLast)).set
      rw [View.set_slice_whole, Rect.mem_set_unit]
      intro a
      have h0 : (i 0 : Nat) < 1 := (i 0).isLt
      have h1 : (i 1 : Nat) < 1 := (i 1).isLt
      match a with
      | ⟨0, _⟩ => show win1_5.index tLast 0 * win1_5.size 0 ≤ (i 0 : Nat) ∧ (i 0 : Nat) < win1_5.index tLast 0 * win1_5.size 0 + win1_5.xsize (grid1.coords tLast) 0
                  rw [show win1_5.index tLast 0 * win1_5.size 0 = 0 from by decide +kernel, show win1_5.xsize (grid1.coords tLast) 0 = 1 from by decide +kernel]; omega
      | ⟨1, _⟩ => show win1_5.index tLast 1 * win1_5.size 1 ≤ (i 1 : Nat) ∧ (i 1 : Nat) < win1_5.index tLast 1 * win1_5.size 1 + win1_5.xsize (grid1.coords tLast) 1
                  rw [show win1_5.index tLast 1 * win1_5.size 1 = 0 from by decide +kernel, show win1_5.xsize (grid1.coords tLast) 1 = 1 from by decide +kernel]; omega⟩

theorem final_cnt (c : Dev nD) : (Trip.dat (Whole.E2 m) c).arrAt 6 cfg1.N = cntArr m c :=
  (Trip.dat (Whole.E2 m) c).arrAt_eq_of_cover 6 (cntArr m c) (flushed6_eq m c) fun i =>
    ⟨tLast, (flush1_6 tLast).mpr rfl, by
      show i ∈ ((View.whole main_v3_1).slice (win1_6.rect tLast)).set
      rw [View.set_slice_whole, Rect.mem_set_unit]
      intro a
      have h0 : (i 0 : Nat) < 1 := (i 0).isLt
      have h1 : (i 1 : Nat) < 1 := (i 1).isLt
      match a with
      | ⟨0, _⟩ => show win1_6.index tLast 0 * win1_6.size 0 ≤ (i 0 : Nat) ∧ (i 0 : Nat) < win1_6.index tLast 0 * win1_6.size 0 + win1_6.xsize (grid1.coords tLast) 0
                  rw [show win1_6.index tLast 0 * win1_6.size 0 = 0 from by decide +kernel, show win1_6.xsize (grid1.coords tLast) 0 = 1 from by decide +kernel]; omega
      | ⟨1, _⟩ => show win1_6.index tLast 1 * win1_6.size 1 ≤ (i 1 : Nat) ∧ (i 1 : Nat) < win1_6.index tLast 1 * win1_6.size 1 + win1_6.xsize (grid1.coords tLast) 1
                  rw [show win1_6.index tLast 1 * win1_6.size 1 = 0 from by decide +kernel, show win1_6.xsize (grid1.coords tLast) 1 = 1 from by decide +kernel]; omega⟩

/-! ## The host tail -/

/-- The mean: from the two [1,1] accumulators `s` (the loss sum) and `n` (the count), s / max(n, 1) if n > 0, else 0 —
    the ten host operations after the triplet region as one function. Both programs end with it. -/
def tail (s n : Vec F S1x1 .f32) : Vec F S_ .f32 :=
  select (cmpf .ogt (shapeCast S_ n shapeCasts_S1x1_S_) (constant (F := F) S_ .f32 0x00000000#32))
    (Host.divf (shapeCast S_ s shapeCasts_S1x1_S_)
      (maximumf (shapeCast S_ n shapeCasts_S1x1_S_) (constant (F := F) S_ .f32 0x3F800000#32)))
    (constant (F := F) S_ .f32 0x00000000#32)

/-- The result buffer at the end of @main is the tail of the two accumulator arrays as the triplet region left them. -/
theorem W5_result (c : Dev nD) :
    Whole.W5 m c (Proc.devRef .tc main_v9)
      = tail (Whole.W3 m c (Proc.devRef .tc main_v3_0)) (Whole.W3 m c (Proc.devRef .tc main_v3_1)) := by
  dsimp only [Whole.W5, Whole.W4, hostOps2, hostOps2_1]
  after_results
  rfl

/-- The idealized kernel's result: the mean of the accumulations after the last point. -/
theorem result_eq (c : Dev nD) :
    Whole.W5 m c (Proc.devRef .tc main_v9) = tail (sumArr m c) (cntArr m c) := by
  rw [W5_result, Whole.W3_sum, Whole.W3_cnt, final_sum, final_cnt]

end Cert.KernelIdeal.Result

end
-- ==== Proof.LibTripletSums.lean ====
import Mathlib

/-!
# Sums over a grid of tiles, running accumulators, and counting sums

General summation facts, stated over an arbitrary additive commutative monoid unless said
otherwise.

* `sum_range_mul` / `sum_range_divMod`: a sum over the first `a * b` naturals is the double sum
  over a quotient digit `i < a` and a remainder digit `j < b`.
* `sum_tiles` / `sum_tiles_fin`: the `32 × 4` grid of tiles of `16` rows by `128` columns covers
  every (row, last-column) pair of a `512 × 512 × 512` cube exactly once, so the tiled sum is the
  plain triple sum.
* `acc_eq_sum`: an accumulator that adds one term per step is its start plus the terms so far.
* `coe_sum`: the inclusion of the reals into the extended reals commutes with finite sums.
* `foldl_count` / `setWidth_one`: a running 32-bit sum of fewer than `2 ^ 31` zero/one words
  never wraps, so it counts; and widening a one-bit word gives the word one or the word zero.
* `sum_indicator`: a real sum of zero/one indicators is the number of indices that satisfy the
  predicate.
-/

namespace Cert.Lib.TripletSums

open Finset

/-- A sum over the first `a * b` naturals, split by quotient digit `i < a` and remainder digit
`j < b`: every `n < a * b` is `b * i + j` for exactly one such pair. -/
theorem sum_range_mul {M : Type*} [AddCommMonoid M] (a b : ℕ) (g : ℕ → M) :
    ∑ n ∈ range (a * b), g n = ∑ i ∈ range a, ∑ j ∈ range b, g (b * i + j) := by
  induction a with
  | zero => simp
  | succ a ih =>
    rw [Nat.succ_mul, sum_range_add, ih, sum_range_succ, Nat.mul_comm a b]

/-- The same split, for a summand given as a function of the two digits `n / b` and `n % b`. -/
theorem sum_range_divMod {M : Type*} [AddCommMonoid M] (a b : ℕ) (G : ℕ → ℕ → M) :
    ∑ n ∈ range (a * b), G (n / b) (n % b) = ∑ i ∈ range a, ∑ j ∈ range b, G i j := by
  rw [sum_range_mul]
  refine sum_congr rfl fun i _ => sum_congr rfl fun j hj => ?_
  have hj' : j < b := mem_range.mp hj
  have hb : 0 < b := Nat.lt_of_le_of_lt (Nat.zero_le _) hj'
  rw [Nat.mul_add_div hb, Nat.div_eq_of_lt hj', Nat.add_zero, Nat.mul_add_mod,
    Nat.mod_eq_of_lt hj']

/-- The `32 × 4` grid of tiles of `16` rows by `128` columns covers the `512 × 512`
(row, last-column) pairs exactly once: tile `t` holds rows `16 * (t / 4) + r`, `r < 16`, and
columns `128 * (t % 4) + k`, `k < 128`. -/
theorem sum_tiles {M : Type*} [AddCommMonoid M] (f : ℕ → ℕ → ℕ → M) :
    ∑ t ∈ range 128, ∑ r ∈ range 16, ∑ j ∈ range 512, ∑ k ∈ range 128,
        f (16 * (t / 4) + r) j (128 * (t % 4) + k)
      = ∑ i ∈ range 512, ∑ j ∈ range 512, ∑ k ∈ range 512, f i j k := by
  -- split the tile number into its row digit `a = t / 4` and its column digit `b = t % 4`
  have h1 : ∑ t ∈ range (32 * 4), ∑ r ∈ range 16, ∑ j ∈ range 512, ∑ k ∈ range 128,
        f (16 * (t / 4) + r) j (128 * (t % 4) + k)
      = ∑ a ∈ range 32, ∑ b ∈ range 4, ∑ r ∈ range 16, ∑ j ∈ range 512, ∑ k ∈ range 128,
        f (16 * a + r) j (128 * b + k) :=
    sum_range_divMod 32 4
      (fun a b => ∑ r ∈ range 16, ∑ j ∈ range 512, ∑ k ∈ range 128, f (16 * a + r) j (128 * b + k))
  -- the rows: 32 row digits times 16 rows inside a tile
  have h2 : ∀ H : ℕ → M, ∑ i ∈ range (32 * 16), H i
      = ∑ a ∈ range 32, ∑ r ∈ range 16, H (16 * a + r) := fun H => sum_range_mul 32 16 H
  -- the columns: 4 column digits times 128 columns inside a tile
  have h3 : ∀ K : ℕ → M, ∑ k ∈ range (4 * 128), K k
      = ∑ b ∈ range 4, ∑ k ∈ range 128, K (128 * b + k) := fun K => sum_range_mul 4 128 K
  calc ∑ t ∈ range 128, ∑ r ∈ range 16, ∑ j ∈ range 512, ∑ k ∈ range 128,
        f (16 * (t / 4) + r) j (128 * (t % 4) + k)
      = ∑ a ∈ range 32, ∑ b ∈ range 4, ∑ r ∈ range 16, ∑ j ∈ range 512, ∑ k ∈ range 128,
        f (16 * a + r) j (128 * b + k) := h1
    _ = ∑ a ∈ range 32, ∑ r ∈ range 16, ∑ j ∈ range 512, ∑ b ∈ range 4, ∑ k ∈ range 128,
        f (16 * a + r) j (128 * b + k) := by
        refine sum_congr rfl fun a _ => ?_
        rw [sum_comm]
        refine sum_congr rfl fun r _ => ?_
        rw [sum_comm]
    _ = ∑ a ∈ range 32, ∑ r ∈ range 16, ∑ j ∈ range 512, ∑ k ∈ range 512,
        f (16 * a + r) j k := by
        refine sum_congr rfl fun a _ => sum_congr rfl fun r _ => sum_congr rfl fun j _ => ?_
        exact (h3 (fun k => f (16 * a + r) j k)).symm
    _ = ∑ i ∈ range 512, ∑ j ∈ range 512, ∑ k ∈ range 512, f i j k :=
        (h2 (fun i => ∑ j ∈ range 512, ∑ k ∈ range 512, f i j k)).symm

/-- The tile cover, with the three coordinates taken in `Fin 512`. -/
theorem sum_tiles_fin {M : Type*} [AddCommMonoid M] (f : Fin 512 → Fin 512 → Fin 512 → M) :
    ∑ t : Fin 128, ∑ r : Fin 16, ∑ j : Fin 512, ∑ k : Fin 128,
        f ⟨16 * (t.val / 4) + r.val, by omega⟩ j ⟨128 * (t.val % 4) + k.val, by omega⟩
      = ∑ i : Fin 512, ∑ j : Fin 512, ∑ k : Fin 512, f i j k := by
  -- extend `f` by zero to all triples of naturals, and use the statement over the naturals
  let F : ℕ → ℕ → ℕ → M := fun i j k =>
    if hi : i < 512 then if hj : j < 512 then if hk : k < 512 then f ⟨i, hi⟩ ⟨j, hj⟩ ⟨k, hk⟩
      else 0 else 0 else 0
  have hF : ∀ (i j k : ℕ) (hi : i < 512) (hj : j < 512) (hk : k < 512),
      F i j k = f ⟨i, hi⟩ ⟨j, hj⟩ ⟨k, hk⟩ := by
    intro i j k hi hj hk
    simp only [F, dif_pos hi, dif_pos hj, dif_pos hk]
  have key := sum_tiles F
  simp only [sum_range] at key
  refine Eq.trans ?_ (key.trans ?_)
  · refine sum_congr rfl fun t _ => sum_congr rfl fun r _ => sum_congr rfl fun j _ =>
      sum_congr rfl fun k _ => ?_
    exact (hF _ _ _ (by omega) j.isLt (by omega)).symm
  · refine sum_congr rfl fun i _ => sum_congr rfl fun j _ => sum_congr rfl fun k _ => ?_
    exact hF _ _ _ i.isLt j.isLt k.isLt

/-- An accumulator that starts at `z + g 0` and adds `g (n + 1)` at step `n + 1` holds, after
step `n`, the start `z` plus the terms `g 0, …, g n`. -/
theorem acc_eq_sum {M : Type*} [AddCommMonoid M] (z : M) (g a : ℕ → M) (h0 : a 0 = z + g 0)
    (hs : ∀ n, a (n + 1) = a n + g (n + 1)) (n : ℕ) :
    a n = z + ∑ t ∈ range (n + 1), g t := by
  induction n with
  | zero => rw [h0, sum_range_one]
  | succ n ih => rw [hs, ih, sum_range_succ g (n + 1), add_assoc]

/-- The inclusion of the reals into the extended reals commutes with finite sums. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [sum_insert ha, sum_insert ha, ih, EReal.coe_add]

/-- Adding zero/one words one at a time, from any start, adds the word of the count. -/
theorem foldl_count_aux {ι : Type*} (l : List ι) (p : ι → Bool) (acc : BitVec 32) :
    l.foldl (fun acc i => acc + (if p i then 1#32 else 0#32)) acc
      = acc + BitVec.ofNat 32 (l.countP p) := by
  induction l generalizing acc with
  | nil => simp
  | cons x l ih =>
    rw [List.foldl_cons, ih, List.countP_cons, BitVec.ofNat_add, BitVec.add_assoc]
    congr 1
    rw [BitVec.add_comm]
    congr 1
    cases p x <;> rfl

/-- The running 32-bit sum of fewer than `2 ^ 31` zero/one words never wraps: read as a signed
integer it is the number of indices that satisfy the predicate. -/
theorem foldl_count (ι : Type*) (l : List ι) (p : ι → Bool) (h : l.length < 2 ^ 31) :
    (l.foldl (fun acc i => acc + (if p i then 1#32 else 0#32)) 0#32).toInt
      = (l.countP p : ℤ) := by
  have hc : l.countP p < 2 ^ 31 := Nat.lt_of_le_of_lt List.countP_le_length h
  rw [foldl_count_aux, BitVec.zero_add]
  have hn : (BitVec.ofNat 32 (l.countP p)).toNat = l.countP p := by
    rw [BitVec.toNat_ofNat]
    exact Nat.mod_eq_of_lt (by omega)
  rw [BitVec.toInt_eq_toNat_of_lt (by rw [hn]; omega), hn]

/-- Widening a one-bit word to 32 bits gives the word one or the word zero. -/
theorem setWidth_one (b : BitVec 1) :
    b.setWidth 32 = if b = 1#1 then 1#32 else 0#32 := by
  revert b
  decide

/-- A real sum of zero/one indicators counts the indices that satisfy the predicate. -/
theorem sum_indicator {ι : Type*} (s : Finset ι) (p : ι → Prop) [DecidablePred p] :
    (∑ i ∈ s, (if p i then (1 : ℝ) else 0)) = ((s.filter p).card : ℝ) :=
  sum_boole p s

end Cert.Lib.TripletSums
-- ==== Proof.IdealTotals.lean ====
/-
  The two accumulations of the triplet kernel as sums over all 512 × 512 × 512 triplets, at the ideal values.

  The accumulator after point 127 is zero plus the sum over the 128 points of each point's slab sum. Point t = 4·b + q reads
  rows 16b … 16b+15 of the distance matrix and of the label column, and columns 128q … 128q+127 of the matrix and of the
  label row; so its slab sum is the sum over the triplets (16b + r, j, 128q + k), and the 32 × 4 tiles cover each triplet
  (i, j, k) of 512³ once. The anchor's position 16·b + r, formed by the body in 32-bit words, is the word of the position.
-/
import proofs.«146165_j50122268344327_2_alg».proof.Proof.IdealSlab
import proofs.«146165_j50122268344327_2_alg».proof.Proof.IdealResult
import proofs.«146165_j50122268344327_2_alg».proof.Proof.LibTripletSums

set_option maxRecDepth 16384

noncomputable section

namespace Cert.KernelIdeal.Totals

open Idealize.ShloMosaic Idealize.ShloMosaic.TcCoe Idealize.ShloMosaic.ValueIdx Idealize.SL.Sem
open Cert.KernelIdeal Cert.KernelIdeal.Gen Cert.KernelIdeal.Slab

variable (V : (c : Dev nD) → (b : Ref sig .tc) → Buf (Elt Ideal) ((c : Thread nD τ).loc b))

/-! ## The blocks, read off the arrays -/

/-- Where each window's block sits at point t, and the point's two coordinates: decided once over the 128 points. -/
theorem grid_facts : ∀ t : Fin cfg1.N,
    (win1_0.index t 0 = t.val / 4 ∧ win1_0.index t 1 = 0) ∧ (win1_1.index t 0 = t.val / 4 ∧ win1_1.index t 1 = t.val % 4)
    ∧ (win1_2.index t 0 = t.val / 4 ∧ win1_2.index t 1 = 0) ∧ (win1_3.index t 0 = 0 ∧ win1_3.index t 1 = 0)
    ∧ (win1_4.index t 0 = 0 ∧ win1_4.index t 1 = t.val % 4) ∧ ((grid1.coords t 0).val = t.val / 4) :=
  (by decide +kernel : ∀ t : Fin grid1.N,
    (win1_0.index t 0 = t.val / 4 ∧ win1_0.index t 1 = 0) ∧ (win1_1.index t 0 = t.val / 4 ∧ win1_1.index t 1 = t.val % 4)
    ∧ (win1_2.index t 0 = t.val / 4 ∧ win1_2.index t 1 = 0) ∧ (win1_3.index t 0 = 0 ∧ win1_3.index t 1 = 0)
    ∧ (win1_4.index t 0 = 0 ∧ win1_4.index t 1 = t.val % 4) ∧ ((grid1.coords t 0).val = t.val / 4))

theorem lt128 (t : Fin cfg1.N) : t.val < 128 := lt_of_lt_of_eq t.isLt (show cfg1.N = 128 from N_1)

/-- Row 16·(t/4) + r of the 512. -/
def rowOf (t : Fin cfg1.N) (r : Fin 16) : Fin 512 := ⟨16 * (t.val / 4) + r.val, by have := lt128 t; omega⟩
/-- Column 128·(t%4) + k of the 512. -/
def colOf (t : Fin cfg1.N) (k : Fin 128) : Fin 512 := ⟨128 * (t.val % 4) + k.val, by have := lt128 t; omega⟩

/-- The band of distances at point t. -/
theorem blk0_apply (c : Dev nD) (t : Fin cfg1.N) (r : Fin 16) (j : Fin 512) :
    (Trip.blk V c 0 t : Vec Ideal S16x512 .f32) (ix2 r j) = V c main_v0 (ix2 (rowOf t r) j) := by
  have hi := (grid_facts t).1
  unfold Trip.blk
  rw [View.read_apply]
  show V c main_v0 _ = V c main_v0 _
  congr 1
  funext a
  apply Fin.ext
  match a with
  | ⟨0, _⟩ => show win1_0.index t 0 * 16 + 1 * r.val = 16 * (t.val / 4) + r.val; rw [hi.1]; omega
  | ⟨1, _⟩ => show win1_0.index t 1 * 512 + 1 * j.val = j.val; rw [hi.2]; omega

/-- The tile of distances at point t. -/
theorem blk1_apply (c : Dev nD) (t : Fin cfg1.N) (r : Fin 16) (k : Fin 128) :
    (Trip.blk V c 1 t : Vec Ideal S16x128 .f32) (ix2 r k) = V c main_v0 (ix2 (rowOf t r) (colOf t k)) := by
  have hi := (grid_facts t).2.1
  unfold Trip.blk
  rw [View.read_apply]
  show V c main_v0 _ = V c main_v0 _
  congr 1
  funext a
  apply Fin.ext
  match a with
  | ⟨0, _⟩ => show win1_1.index t 0 * 16 + 1 * r.val = 16 * (t.val / 4) + r.val; rw [hi.1]; omega
  | ⟨1, _⟩ => show win1_1.index t 1 * 128 + 1 * k.val = 128 * (t.val % 4) + k.val; rw [hi.2]; omega

/-- The band's labels at point t. -/
theorem blk2_apply (c : Dev nD) (t : Fin cfg1.N) (r : Fin 16) (u : Fin 1) :
    (Trip.blk V c 2 t : Vec Ideal S16x1 .i32) (ix2 r u) = V c main_v1 (ix2 (rowOf t r) u) := by
  have hi := (grid_facts t).2.2.1
  have hu : u.val = 0 := by omega
  unfold Trip.blk
  rw [View.read_apply]
  show V c main_v1 _ = V c main_v1 _
  congr 1
  funext a
  apply Fin.ext
  match a with
  | ⟨0, _⟩ => show win1_2.index t 0 * 16 + 1 * r.val = 16 * (t.val / 4) + r.val; rw [hi.1]; omega
  | ⟨1, _⟩ => show win1_2.index t 1 * 1 + 1 * u.val = u.val; rw [hi.2]; omega

/-- All the labels, at every point. -/
theorem blk3_apply (c : Dev nD) (t : Fin cfg1.N) (u : Fin 1) (j : Fin 512) :
    (Trip.blk V c 3 t : Vec Ideal S1x512 .i32) (ix2 u j) = V c main_v2 (ix2 u j) := by
  have hi := (grid_facts t).2.2.2.1
  unfold Trip.blk
  rw [View.read_apply]
  show V c main_v2 _ = V c main_v2 _
  congr 1
  funext a
  apply Fin.ext
  match a with
  | ⟨0, _⟩ => show win1_3.index t 0 * 1 + 1 * u.val = u.val; rw [hi.1]; omega
  | ⟨1, _⟩ => show win1_3.index t 1 * 512 + 1 * j.val = j.val; rw [hi.2]; omega

/-- The tile's labels at point t. -/
theorem blk4_apply (c : Dev nD) (t : Fin cfg1.N) (u : Fin 1) (k : Fin 128) :
    (Trip.blk V c 4 t : Vec Ideal S1x128 .i32) (ix2 u k) = V c main_v2 (ix2 u (colOf t k)) := by
  have hi := (grid_facts t).2.2.2.2.1
  unfold Trip.blk
  rw [View.read_apply]
  show V c main_v2 _ = V c main_v2 _
  congr 1
  funext a
  apply Fin.ext
  match a with
  | ⟨0, _⟩ => show win1_4.index t 0 * 1 + 1 * u.val = u.val; rw [hi.1]; omega
  | ⟨1, _⟩ => show win1_4.index t 1 * 128 + 1 * k.val = 128 * (t.val % 4) + k.val; rw [hi.2]; omega

/-! ## A triplet's two terms, from the three arrays -/

/-- The anchor–positive bit of the triplet's first two samples: same label, different positions. -/
def pBit (c : Dev nD) (i j : Fin 512) : BitVec 1 :=
  IntOp.andi (IntOp.cmpi .eq (V c main_v1 (ix2 i 0)) (V c main_v2 (ix2 0 j)))
    (IntOp.xori (IntOp.cmpi .eq (BitVec.ofNat 32 i.val) (BitVec.ofNat 32 j.val)) 1#1)
/-- The anchor–negative bit: different labels. -/
def nBit (c : Dev nD) (i k : Fin 512) : BitVec 1 := negBit (V c main_v1 (ix2 i 0)) (V c main_v2 (ix2 0 k))

/-- The loss term of the triplet (i, j, k). -/
def lossTerm (c : Dev nD) (i j k : Fin 512) : EReal :=
  hinge (V c main_v0 (ix2 i j)) (V c main_v0 (ix2 i k)) * (bitVal (pBit V c i j) * bitVal (nBit V c i k))
/-- The count term of the triplet (i, j, k). -/
def cntTerm (c : Dev nD) (i j k : Fin 512) : EReal := bitVal (pBit V c i j) * bitVal (nBit V c i k)

/-- The anchor's position as the body forms it in 32-bit words, 16·b + r, is the word of the position. -/
theorem anchor_word (t : Fin cfg1.N) (r : Fin 16) :
    IntOp.addi (Scalar.muli (BitVec.ofNat 32 (t.val / 4)) 16#32) (BitVec.ofNat 32 r.val) = BitVec.ofNat 32 (rowOf t r).val := by
  have h := lt128 t
  show BitVec.ofNat 32 (t.val / 4) * 16#32 + BitVec.ofNat 32 r.val = BitVec.ofNat 32 (16 * (t.val / 4) + r.val)
  apply BitVec.eq_of_toNat_eq
  simp only [BitVec.toNat_add, BitVec.toNat_mul, BitVec.toNat_ofNat]
  have h1 : t.val / 4 < 32 := by omega
  have h2 : r.val < 16 := r.isLt
  omega

theorem posBit_eq (c : Dev nD) (t : Fin cfg1.N) (r : Fin 16) (j : Fin 512) :
    posBit (BitVec.ofNat 32 (grid1.coords t 0).val) (V c main_v1 (ix2 (rowOf t r) 0)) (V c main_v2 (ix2 0 j)) r j = pBit V c (rowOf t r) j := by
  unfold posBit pBit
  rw [(grid_facts t).2.2.2.2.2, anchor_word]

/-! ## The slab sums of a point, and the accumulation -/

/-- The loss sum of point t's slab. -/
def ptSum (c : Dev nD) (t : ℕ) : EReal :=
  if h : t < cfg1.N then ∑ r : Fin 16, ∑ j : Fin 512, ∑ k : Fin 128, lossTerm V c (rowOf ⟨t, h⟩ r) j (colOf ⟨t, h⟩ k) else 0
/-- The count sum of point t's slab. -/
def ptCnt (c : Dev nD) (t : ℕ) : EReal :=
  if h : t < cfg1.N then ∑ r : Fin 16, ∑ j : Fin 512, ∑ k : Fin 128, cntTerm V c (rowOf ⟨t, h⟩ r) j (colOf ⟨t, h⟩ k) else 0

/-- One step of the loss accumulator at point t, over the arrays. -/
theorem sum_step (c : Dev nD) (t : Fin cfg1.N) (a : Vec Ideal S1x1 .f32) (y : S1x1.Idx) :
    Trip.sumStep (F := Ideal) (grid1.coords t) (Trip.blk V c 0 t) (Trip.blk V c 1 t) (Trip.blk V c 2 t) (Trip.blk V c 3 t) (Trip.blk V c 4 t) a y
      = a y + ptSum V c t.val := by
  rw [sumStep_apply, ptSum, dif_pos t.isLt]
  refine congrArg (a y + ·) (Finset.sum_congr rfl fun r _ => Finset.sum_congr rfl fun j _ => Finset.sum_congr rfl fun k _ => ?_)
  rw [blk0_apply, blk1_apply, blk2_apply, blk3_apply, blk4_apply, posBit_eq]
  rfl

/-- One step of the count accumulator at point t, over the arrays. -/
theorem cnt_step (c : Dev nD) (t : Fin cfg1.N) (a : Vec Ideal S1x1 .f32) (y : S1x1.Idx) :
    Trip.cntStep (F := Ideal) (grid1.coords t) (Trip.blk V c 2 t) (Trip.blk V c 3 t) (Trip.blk V c 4 t) a y
      = a y + ptCnt V c t.val := by
  rw [cntStep_apply, ptCnt, dif_pos t.isLt]
  refine congrArg (a y + ·) (Finset.sum_congr rfl fun r _ => Finset.sum_congr rfl fun j _ => Finset.sum_congr rfl fun k _ => ?_)
  rw [blk2_apply, blk3_apply, blk4_apply, posBit_eq]
  rfl

/-- The accumulators after point n: zero plus the slab sums of the points up to n. -/
theorem accs_sum (c : Dev nD) : ∀ (n : ℕ) (h : n < cfg1.N) (y : S1x1.Idx),
    (Trip.accs V c n h).1 y = Trip.zeroSum (F := Ideal) y + ∑ t ∈ Finset.range (n + 1), ptSum V c t
  | 0, h, y => by
    show Trip.sumStep _ _ _ _ _ _ Trip.zeroSum y = _
    rw [sum_step V c ⟨0, h⟩, Finset.sum_range_one]
  | n + 1, h, y => by
    show Trip.sumStep _ _ _ _ _ _ (Trip.accs V c n _).1 y = _
    rw [sum_step V c ⟨n + 1, h⟩, accs_sum c n _ y, Finset.sum_range_succ _ (n + 1), add_assoc]

theorem accs_cnt (c : Dev nD) : ∀ (n : ℕ) (h : n < cfg1.N) (y : S1x1.Idx),
    (Trip.accs V c n h).2 y = Trip.zeroCnt (F := Ideal) y + ∑ t ∈ Finset.range (n + 1), ptCnt V c t
  | 0, h, y => by
    show Trip.cntStep _ _ _ _ Trip.zeroCnt y = _
    rw [cnt_step V c ⟨0, h⟩, Finset.sum_range_one]
  | n + 1, h, y => by
    show Trip.cntStep _ _ _ _ (Trip.accs V c n _).2 y = _
    rw [cnt_step V c ⟨n + 1, h⟩, accs_cnt c n _ y, Finset.sum_range_succ _ (n + 1), add_assoc]

/-! ## The tiles cover the triplets once -/

/-- The 128 points' slab sums are the sum over all triplets. -/
theorem sum_points (f : Fin 512 → Fin 512 → Fin 512 → EReal)
    (g : ℕ → EReal) (hg : ∀ t : Fin cfg1.N, g t.val = ∑ r : Fin 16, ∑ j : Fin 512, ∑ k : Fin 128, f (rowOf t r) j (colOf t k)) :
    ∑ t ∈ Finset.range 128, g t = ∑ i : Fin 512, ∑ j : Fin 512, ∑ k : Fin 512, f i j k := by
  rw [← Cert.Lib.TripletSums.sum_tiles_fin f, Finset.sum_range]
  refine Finset.sum_congr rfl fun t _ => ?_
  have hN : cfg1.N = 128 := N_1
  exact hg ⟨t.val, by rw [hN]; exact t.isLt⟩

theorem total_sum (c : Dev nD) (y : S1x1.Idx) :
    (Trip.accs V c 127 (by rw [show cfg1.N = 128 from N_1]; decide)).1 y
      = Trip.zeroSum (F := Ideal) y + ∑ i : Fin 512, ∑ j : Fin 512, ∑ k : Fin 512, lossTerm V c i j k := by
  rw [accs_sum V c 127 _ y]
  exact congrArg (_ + ·) (sum_points (lossTerm V c) (ptSum V c) fun t => by rw [ptSum, dif_pos t.isLt])

theorem total_cnt (c : Dev nD) (y : S1x1.Idx) :
    (Trip.accs V c 127 (by rw [show cfg1.N = 128 from N_1]; decide)).2 y
      = Trip.zeroCnt (F := Ideal) y + ∑ i : Fin 512, ∑ j : Fin 512, ∑ k : Fin 512, cntTerm V c i j k := by
  rw [accs_cnt V c 127 _ y]
  exact congrArg (_ + ·) (sum_points (cntTerm V c) (ptCnt V c) fun t => by rw [ptCnt, dif_pos t.isLt])

end Cert.KernelIdeal.Totals

end
-- ==== Proof.IdealArrays.lean ====
/-
  The three arrays the triplet region reads, in terms of @main's two arguments.

  The distance matrix is what the distance region's one write-back leaves: the distances of the whole embedding block, which
  is the embeddings argument itself. The label column [512,1] and the label row [1,512] are the two reshapes of the labels
  argument; no other item writes any of the three before the triplet region.
-/
import proofs.«146165_j50122268344327_2_alg».proof.Proof.IdealWhole
import Idealize.ShloMosaic.Lib.StableHlo.Run
import Idealize.ShloMosaic.Lib.Pipeline.Value
import Idealize.ShloMosaic.Lib.ValueIdx

set_option maxRecDepth 16384

noncomputable section

namespace Cert.KernelIdeal.Arrays

open Idealize.ShloMosaic Idealize.ShloMosaic.TcCoe Idealize.ShloMosaic.ValueIdx Idealize.SL.Sem Idealize.ShloMosaic.StableHlo
open Idealize.ShloMosaic.Pipeline (Dat)
open Cert.KernelIdeal Cert.KernelIdeal.Gen

variable {F : FTy → Type} [FloatOps F]
variable (m : (ℓ : Loc nD τ sig) → Buf (Elt F) ℓ)

/-! ## The distance matrix -/

/-- The embedding window's one block is the whole embeddings argument. -/
theorem emb_block (c : Dev nD) : (Dist.blk (Whole.E0 m) c 0 t0_0 : Vec F S512x128 .f32) = m ((c : Thread nD τ).loc main_arg0) := by
  unfold Dist.blk
  have hz' : (fun a => win0_0.index t0_0 a * main_arg0.ty.shape.size a) = fun _ => 0 :=
    funext fun a => by fin_cases a <;> decide +kernel
  exact Memref.read_access_unit_zero (Elt F) main_arg0 hz' (fun a => by rw [congrFun hz' a]; simp) (m ((c : Thread nD τ).loc main_arg0))

/-- The distances of the embeddings, as the contents of the [512,512] array. -/
abbrev distArr (c : Dev nD) : Buf (Elt F) ((c : Thread nD τ).loc main_v0) := Dist.dist (m ((c : Thread nD τ).loc main_arg0))

theorem flushed_eq (c : Dev nD) (t : Fin cfg0.N) (hf : (cfg0.win 1).flush t = true) :
    (Dist.dat (Whole.E0 m) c).flushed 1 t = ((cfg0.win 1).blk t).view.read (Elt F) (distArr m c) := by
  obtain rfl : t = t0_0 := fin_N0 t
  show (cfg0.win 1).cut (grid0.coords t0_0) ((Dist.dat (Whole.E0 m) c).after 1 t0_0) = _
  rw [Dist.after_dist, emb_block]
  have hz' : (fun a => win0_1.index t0_0 a * main_v0.ty.shape.size a) = fun _ => 0 :=
    funext fun a => by fin_cases a <;> decide +kernel
  exact (Memref.read_access_unit_zero (Elt F) main_v0 hz' (fun a => by rw [congrFun hz' a]; simp) (distArr m c)).symm

/-- The distance region leaves the distances of the embeddings in its output array: its one block covers the array. -/
theorem final_dist (c : Dev nD) : (Dist.dat (Whole.E0 m) c).arrAt 1 cfg0.N = distArr m c :=
  (Dist.dat (Whole.E0 m) c).arrAt_eq_of_cover 1 (distArr m c) (flushed_eq m c) fun i =>
    ⟨t0_0, flush0_1 t0_0, by
      show i ∈ ((View.whole main_v0).slice (win0_1.rect t0_0)).set
      rw [View.set_slice_whole, Rect.mem_set_unit]
      intro a
      have h0 : (i 0 : Nat) < 512 := (i 0).isLt
      have h1 : (i 1 : Nat) < 512 := (i 1).isLt
      match a with
      | ⟨0, _⟩ => show win0_1.index t0_0 0 * win0_1.size 0 ≤ (i 0 : Nat) ∧ (i 0 : Nat) < win0_1.index t0_0 0 * win0_1.size 0 + win0_1.xsize (grid0.coords t0_0) 0
                  rw [show win0_1.index t0_0 0 * win0_1.size 0 = 0 from by decide +kernel, show win0_1.xsize (grid0.coords t0_0) 0 = 512 from by decide +kernel]; omega
      | ⟨1, _⟩ => show win0_1.index t0_0 1 * win0_1.size 1 ≤ (i 1 : Nat) ∧ (i 1 : Nat) < win0_1.index t0_0 1 * win0_1.size 1 + win0_1.xsize (grid0.coords t0_0) 1
                  rw [show win0_1.index t0_0 1 * win0_1.size 1 = 0 from by decide +kernel, show win0_1.xsize (grid0.coords t0_0) 1 = 512 from by decide +kernel]; omega⟩

/-- What the triplet region finds in the distance array. -/
theorem E2_dist (c : Dev nD) : Whole.E2 m c main_v0 = distArr m c :=
  calc Whole.W2 m c (Proc.devRef .tc main_v0)
    _ = Whole.W1 m c (Proc.devRef .tc main_v0) := StableHlo.after_of_writes_sub hostOps1 _ hostOps1_writes (by decide)
    _ = (Dist.dat (Whole.E0 m) c).arrAt 1 cfg0.N := Whole.W1_arr m c 1
    _ = distArr m c := final_dist m c

/-! ## The two label arrays -/

/-- What the triplet region finds in the label column and the label row: the two reshapes of the labels argument. -/
theorem E2_col (c : Dev nD) :
    Whole.E2 m c main_v1 = fun i => shapeCast S512x1 (m ((c : Thread nD τ).loc main_arg1)) shapeCasts_S512_S512x1 i := by
  show Whole.W2 m c (Proc.devRef .tc main_v1) = _
  dsimp only [Whole.W2, hostOps1]
  after_results
  rw [Whole.W1_of_ne m c main_arg1 (by decide)]
  rfl

theorem E2_row (c : Dev nD) :
    Whole.E2 m c main_v2 = fun i => shapeCast S1x512 (m ((c : Thread nD τ).loc main_arg1)) shapeCasts_S512_S1x512 i := by
  show Whole.W2 m c (Proc.devRef .tc main_v2) = _
  dsimp only [Whole.W2, hostOps1]
  after_results
  rw [Whole.W1_of_ne m c main_arg1 (by decide)]
  rfl

/-- The label column at (i, ·) and the label row at (·, j) are the labels at i and at j. -/
theorem col_apply {α : Type} (v : S512.Idx → α) (i : Fin 512) (u : Fin 1) :
    shapeCast S512x1 v shapeCasts_S512_S512x1 (ix2 i u) = v (ix1 i) := by
  refine shapeCast_apply v shapeCasts_S512_S512x1 (ix2 i u) (ix1 i) ?_
  have hu : u.val = 0 := by omega
  rw [Shape.rowMajor_val_one, Shape.rowMajor_val_two]
  show i.val = i.val * 1 + u.val
  omega

theorem row_apply {α : Type} (v : S512.Idx → α) (u : Fin 1) (j : Fin 512) :
    shapeCast S1x512 v shapeCasts_S512_S1x512 (ix2 u j) = v (ix1 j) := by
  refine shapeCast_apply v shapeCasts_S512_S1x512 (ix2 u j) (ix1 j) ?_
  have hu : u.val = 0 := by omega
  rw [Shape.rowMajor_val_one, Shape.rowMajor_val_two]
  show j.val = u.val * 512 + j.val
  omega

end Cert.KernelIdeal.Arrays

end
-- ==== Proof.RefSums.lean ====
/-
  The reference's two sums, read as sums over triples of positions.

  The reference computes, over the cube of triples (i, j, k) of positions below 512, a validity bit (the labels of i and
  j agree, i and j are different positions, the labels of i and k differ) and a hinge (the distance of (i, j) less the
  distance of (i, k), plus the margin one, cut off below at zero). Its total is zero plus the sum, over all triples, of the
  hinge where the triple is valid and zero elsewhere (`total_eq`); its count is the number of valid triples
  (`count_eq`): the running 32-bit sum of the 2 ^ 27 validity bits never wraps, and the conversion to a float reads it
  signed. `valid_eq` spells the validity bit by the three labels and the two positions, and `valid_iff` says when it is
  one. A sum over the rank-3 index set is the triple sum over the coordinates (`idxEquiv3`, `sum_idx3`), and counting
  over the row-major list of a shape's indices is counting over the index set (`countP_rowMajor`).
-/
import proofs.«146165_j50122268344327_2_alg».proof.Proof.RefReadP
import proofs.«146165_j50122268344327_2_alg».proof.Proof.LibTripletSums
import Idealize.ShloMosaic.Lib.ValueIdx
import Idealize.ShloMosaic.Lib.Pipeline.Value
import Idealize.ShloMosaic.PureOps.Ideal.Laws
import Idealize.ShloMosaic.PureOps.Reduce
import Idealize.ShloMosaic.Lib.Affine

noncomputable section

open scoped BigOperators

namespace Cert.Proof.RefSums

open Idealize.ShloMosaic Idealize.ShloMosaic.ValueIdx Cert.ReferenceIdeal Cert.ReferenceIdeal.Gen Cert.ReferenceIdeal.ReadP

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The hinge array at (i, j, k): the distance of (i, j) less the distance of (i, k), plus the margin one, cut off
    below at zero. -/
theorem hinge_at (x0 : (⟨S512x128, .f32⟩ : BufTy).Contents (Elt Ideal)) (i j k : Fin 512) :
    val_main_v44 (F := Ideal) x0 (ix3 i j k)
      = max (val_main_v18 (F := Ideal) x0 (ix2 i j) - val_main_v18 (F := Ideal) x0 (ix2 i k)
              + Ideal.ofBits .f32 0x3F800000#32) (Ideal.ofBits .f32 0x00000000#32) := by
  have e1 : idx_main_v37 (idx_main_v39 (ix3 i j k)) = ix2 i j :=
    funext fun a => Fin.ext (by match a with | ⟨0, _⟩ => rfl | ⟨1, _⟩ => rfl)
  have e2 : idx_main_v38 (idx_main_v40 (ix3 i j k)) = ix2 i k :=
    funext fun a => Fin.ext (by match a with | ⟨0, _⟩ => rfl | ⟨1, _⟩ => rfl)
  rw [val_main_v44_apply, val_main_v43_apply, val_main_v41_apply, val_main_v39_apply, val_main_v37_apply, e1,
    val_main_v40_apply, val_main_v38_apply, e2, val_main_v42_apply, val_main_cst_5_apply,
    val_main_call2_v0_apply, val_main_call2_cst_apply]
  rfl

/-- The reference's total: zero plus, over all triples (i, j, k), the hinge where the triple is valid and zero
    elsewhere. -/
theorem total_eq (x0 : (⟨S512x128, .f32⟩ : BufTy).Contents (Elt Ideal))
    (x1 : (⟨S512, .i32⟩ : BufTy).Contents (Elt Ideal)) :
    val_main_v49 (F := Ideal) x0 x1 ix0
      = Ideal.ofBits .f32 0x00000000#32 + ∑ i : Fin 512, ∑ j : Fin 512, ∑ k : Fin 512,
          Scalar.select (val_main_v36 (F := Ideal) x1 (ix3 i j k))
            (max (val_main_v18 (F := Ideal) x0 (ix2 i j) - val_main_v18 (F := Ideal) x0 (ix2 i k)
                    + Ideal.ofBits .f32 0x3F800000#32) (Ideal.ofBits .f32 0x00000000#32))
            (Ideal.ofBits .f32 0x00000000#32) := by
  rw [val_main_v49_apply, val_main_cst_8_apply, Ideal.ofBits_def, sum_idx3]
  refine congrArg (fun s => Ideal.ofBits .f32 0x00000000#32 + s) ?_
  refine Finset.sum_congr rfl fun i _ => Finset.sum_congr rfl fun j _ => Finset.sum_congr rfl fun k _ => ?_
  rw [val_main_v48_apply, hinge_at, val_main_call3_v1_apply, val_main_call3_v0_apply, val_main_cst_7_apply,
    Ideal.ofBits_def]

/-- The label-equality bit of the pair (a, b): the comparison of the two labels as words. -/
theorem sameLabel_at (x1 : (⟨S512, .i32⟩ : BufTy).Contents (Elt Ideal)) (a b : Fin 512) :
    val_main_v23 (F := Ideal) x1 (ix2 a b) = IntOp.cmpi .eq (x1 (ix1 a)) (x1 (ix1 b)) := by
  have e1 : idx_main_v19 (idx_main_v21 (ix2 a b)) = ix1 a :=
    funext fun d => Fin.ext (by match d with | ⟨0, _⟩ => rfl)
  have e2 : idx_main_v20 (idx_main_v22 (ix2 a b)) = ix1 b :=
    funext fun d => Fin.ext (by match d with | ⟨0, _⟩ => rfl)
  rw [val_main_v23_apply, val_main_v21_apply, val_main_v19_apply, e1, val_main_v22_apply, val_main_v20_apply, e2]

/-- The validity bit of the triple (i, j, k): the labels of i and j agree, the positions i and j differ, and the
    labels of i and k differ. -/
theorem valid_eq (x1 : (⟨S512, .i32⟩ : BufTy).Contents (Elt Ideal)) (i j k : Fin 512) :
    val_main_v36 (F := Ideal) x1 (ix3 i j k)
      = IntOp.andi
          (IntOp.andi (IntOp.cmpi .eq (x1 (ix1 i)) (x1 (ix1 j)))
            (~~~(IntOp.cmpi .eq (IntOp.addi (BitVec.ofNat 32 i.val) 0#32) (BitVec.ofNat 32 j.val))))
          (~~~(IntOp.cmpi .eq (x1 (ix1 i)) (x1 (ix1 k)))) := by
  have e34 : idx_main_v32 (idx_main_v34 (ix3 i j k)) = ix2 i j :=
    funext fun a => Fin.ext (by match a with | ⟨0, _⟩ => rfl | ⟨1, _⟩ => rfl)
  have e35 : idx_main_v33 (idx_main_v35 (ix3 i j k)) = ix2 i k :=
    funext fun a => Fin.ext (by match a with | ⟨0, _⟩ => rfl | ⟨1, _⟩ => rfl)
  rw [val_main_v36_apply, val_main_v34_apply, val_main_v32_apply, e34, val_main_v35_apply, val_main_v33_apply, e35,
    val_main_v30_apply, val_main_v31_apply, sameLabel_at, sameLabel_at, val_main_v29_apply, val_main_v28_apply,
    val_main_v27_apply, val_main_v24_apply, val_main_v25_apply, val_main_v26_apply, val_main_c_apply]

/-- Two positions below 512 are the same word exactly when they are the same position. -/
theorem ofNat_eq_iff (a b : Fin 512) : BitVec.ofNat 32 a.val = BitVec.ofNat 32 b.val ↔ a = b := by
  constructor
  · intro h
    have h' := congrArg BitVec.toNat h
    rw [BitVec.toNat_ofNat, BitVec.toNat_ofNat] at h'
    have ha := a.isLt
    have hb := b.isLt
    exact Fin.ext (by omega)
  · rintro rfl; rfl

/-- The validity bit is one exactly when the labels of i and j agree, i and j are different positions, and the labels
    of i and k differ. -/
theorem valid_iff (x1 : (⟨S512, .i32⟩ : BufTy).Contents (Elt Ideal)) (i j k : Fin 512) :
    val_main_v36 (F := Ideal) x1 (ix3 i j k) = 1#1
      ↔ x1 (ix1 i) = x1 (ix1 j) ∧ i ≠ j ∧ x1 (ix1 i) ≠ x1 (ix1 k) := by
  rw [valid_eq, IntOp.andi_eq_one, IntOp.andi_eq_one, IntOp.not_eq_one, IntOp.not_eq_one, IntOp.cmpi_eq,
    IntOp.cmpi_eq, IntOp.cmpi_eq, and_assoc]
  have h0 : IntOp.addi (BitVec.ofNat 32 i.val) 0#32 = BitVec.ofNat 32 i.val := BitVec.add_zero _
  rw [h0, ofNat_eq_iff]

/-- The row-major list of a shape's indices holds every index exactly once, so counting over it is counting over the
    index set. -/
theorem countP_rowMajor {s : Shape} (p : s.Idx → Bool) :
    ((List.finRange s.numel).map s.rowMajor.symm).countP p = (Finset.univ.filter fun i => p i = true).card := by
  have hn : ((List.finRange s.numel).map s.rowMajor.symm).Nodup :=
    (List.nodup_finRange _).map s.rowMajor.symm.injective
  have hall : ∀ i, i ∈ (List.finRange s.numel).map s.rowMajor.symm := fun i =>
    List.mem_map.2 ⟨s.rowMajor i, List.mem_finRange _, Equiv.symm_apply_apply _ _⟩
  rw [List.countP_eq_length_filter, ← List.toFinset_card_of_nodup (hn.filter _)]
  refine congrArg Finset.card ?_
  ext i
  simp only [List.mem_toFinset, List.mem_filter, hall i, true_and, Finset.mem_filter, Finset.mem_univ]

/-- The cube has 2 ^ 27 indices. -/
theorem numel_cube : S512x512x512.numel = 134217728 := by decide

/-- The reference's count: the number of valid triples, as an extended real. The 32-bit running sum of the validity
    bits over the 2 ^ 27 triples never wraps, and the conversion reads it signed. -/
theorem count_eq (x1 : (⟨S512, .i32⟩ : BufTy).Contents (Elt Ideal)) :
    val_main_v47 (F := Ideal) x1 ix0
      = (((Finset.univ.filter fun q : Fin 512 × Fin 512 × Fin 512 =>
            val_main_v36 (F := Ideal) x1 (ix3 q.1 q.2.1 q.2.2) = 1#1).card : ℝ) : EReal) := by
  -- the conversion reads the word signed
  have h47 : val_main_v47 (F := Ideal) x1 ix0 = (((val_main_v46 (F := Ideal) x1 ix0).toInt : ℝ) : EReal) := rfl
  -- the reduce is the left fold, from the zero word, over every index of the cube
  have hf : ∀ i ∈ (List.finRange S512x512x512.numel).map S512x512x512.rowMajor.symm,
      decide (reducesTo_S512x512x512_S_d0_1_2.drop i = ix0) = true := fun i _ => decide_eq_true (eq_ix0 _)
  have h46 : val_main_v46 (F := Ideal) x1 ix0
      = ((List.finRange S512x512x512.numel).map S512x512x512.rowMajor.symm).foldl
          (fun acc i => acc + (if decide (val_main_v36 (F := Ideal) x1 i = 1#1) then 1#32 else 0#32)) 0#32 := by
    unfold val_main_v46
    rw [Host.reduce_eq_foldl, List.filter_eq_self.2 hf]
    refine congrArg (fun f => List.foldl f (0#32)
      ((List.finRange S512x512x512.numel).map S512x512x512.rowMajor.symm)) ?_
    funext acc i
    rw [val_main_v45_apply, Cert.Lib.TripletSums.setWidth_one]
    by_cases h : val_main_v36 (F := Ideal) x1 i = 1#1
    · rw [if_pos h, if_pos (decide_eq_true h)]; rfl
    · rw [if_neg h, if_neg (by simpa using h)]; rfl
  have hlen : ((List.finRange S512x512x512.numel).map S512x512x512.rowMajor.symm).length < 2 ^ 31 := by
    rw [List.length_map, List.length_finRange, numel_cube]; decide
  rw [h47, h46, Cert.Lib.TripletSums.foldl_count _ _ _ hlen, countP_rowMajor, Int.cast_natCast]
  refine congrArg (fun n : ℕ => ((n : ℝ) : EReal)) ?_
  refine Finset.card_equiv idxEquiv3 fun i => ?_
  simp only [Finset.mem_filter, Finset.mem_univ, true_and, decide_eq_true_eq]
  rw [show ix3 (idxEquiv3 i).1 (idxEquiv3 i).2.1 (idxEquiv3 i).2.2 = i from (eq_ix3 i).symm]

end Cert.Proof.RefSums

end
-- ==== Proof.DistEq.lean ====
/-
  The two programs' distance matrices are equal at the ideal values.

  For a [512,128] matrix x of extended reals write n(p) = Σ_d x(p,d)², g(p,q) = Σ_d x(p,d)·x(q,d) and
  s(p,q) = max (n(p) + n(q) − 2·g(p,q)) 0. Both programs compute, at (p,q), the square root of s(p,q) where s(p,q) > 0
  (the root is taken of 1 elsewhere, and the result there is 0). The kernel gets n by a row reduction of the squared
  entries, g by a matrix product of x with its transpose into a zero accumulator (the narrowing of the operands to
  bf16 is the identity on extended reals), and spreads n along rows and columns by two shape casts and two broadcasts.
  The reference gets n by a reduce whose initial value is zero, g by a general dot with the transpose, and spreads n by
  four broadcasts. Each side is read at an index (p,q), one operation at a time, down to the same term `entry x p q`.
-/
import proofs.«146165_j50122268344327_2_alg».proof.Proof.IdealDist
import proofs.«146165_j50122268344327_2_alg».proof.Proof.RefReadP
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Proof.DistEq

open Idealize.ShloMosaic Idealize.ShloMosaic.ValueIdx
open scoped BigOperators

/-! ## Layout operations of the kernel read at an index given by coordinates -/

section Layout
variable {α : Type}

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (ha : a ≠ 1) (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    rw [if_neg ha]
  | ⟨1, _⟩ => rfl

end Layout

/-- A sum reduction over axis 1 of a `[512, 128]` matrix reads, at row `p`, the sum of that row. -/
theorem rowSum_apply (src : FVec Ideal ⟨2, ![512, 128]⟩ .f32)
    (h : (⟨2, ![512, 128]⟩ : Shape).Reduces [1] ⟨1, ![512]⟩) (hφ : FKind.Formats .f32)
    (hacc : (0x00000000#32 : BitVec 32) = FKind.add.neutral .f32 hφ) (p : Fin 512) :
    multiReduction .add [1] ⟨1, ![512]⟩ src 0x00000000#32 h hφ hacc (ix1 p) = ∑ k : Fin 128, src (ix2 p k) := by
  rw [Ideal.multiReduction_add_single src _ h hφ hacc (ix1 p)]
  refine Finset.sum_congr rfl fun k _ => congrArg src ?_
  funext c
  refine Fin.ext ?_
  match c with
  | ⟨0, _⟩ => rfl
  | ⟨1, _⟩ => rfl

/-! ## The kernel's contraction read at an index -/

section KernelDot
open Cert.KernelIdeal Cert.KernelIdeal.Gen

/-- The left operand's index at output index `i` and contraction index `q`: its row is `i`'s row, … -/
theorem klhs0 (i : S512x512.Idx) (q : dot_S512x128_S128x512_S512x512_1_0_0_1_n_n.contr.Idx) :
    (dot_S512x128_S128x512_S512x512_1_0_0_1_n_n.lhsIdx i q 0).val = (i 0).val := by
  unfold DotDims.lhsIdx
  rw [dif_neg (show ¬(0 : Fin S512x128.rank) ∈ dot_S512x128_S128x512_S512x512_1_0_0_1_n_n.lhsBatch by decide), dif_pos (show (0 : Fin S512x128.rank) ∈ dot_S512x128_S128x512_S512x512_1_0_0_1_n_n.lhsNonContracting by decide)]
  rfl
/-- … and its column is the contraction coordinate. -/
theorem klhs1 (i : S512x512.Idx) (q : dot_S512x128_S128x512_S512x512_1_0_0_1_n_n.contr.Idx) :
    (dot_S512x128_S128x512_S512x512_1_0_0_1_n_n.lhsIdx i q 1).val = (q ⟨0, by decide⟩).val :=
  dot_S512x128_S128x512_S512x512_1_0_0_1_n_n.lhsIdx_val_of_single rfl i q
/-- The right operand's index: its row is the contraction coordinate, … -/
theorem krhs0 (i : S512x512.Idx) (q : dot_S512x128_S128x512_S512x512_1_0_0_1_n_n.contr.Idx) :
    (dot_S512x128_S128x512_S512x512_1_0_0_1_n_n.rhsIdx i q 0).val = (q ⟨0, by decide⟩).val :=
  dot_S512x128_S128x512_S512x512_1_0_0_1_n_n.rhsIdx_val_of_single rfl i q
/-- … and its column is `i`'s column. -/
theorem krhs1 (i : S512x512.Idx) (q : dot_S512x128_S128x512_S512x512_1_0_0_1_n_n.contr.Idx) :
    (dot_S512x128_S128x512_S512x512_1_0_0_1_n_n.rhsIdx i q 1).val = (i 1).val := by
  unfold DotDims.rhsIdx
  rw [dif_neg (show ¬(1 : Fin S128x512.rank) ∈ dot_S512x128_S128x512_S512x512_1_0_0_1_n_n.rhsBatch by decide), dif_pos (show (1 : Fin S128x512.rank) ∈ dot_S512x128_S128x512_S512x512_1_0_0_1_n_n.rhsNonContracting by decide)]
  rfl

/-- The kernel's matrix product into the zero accumulator reads, at `(p, q)`, the sum over the contracted axis of the
    products of row `p` of the left operand and column `q` of the right one. -/
theorem kdot_apply {φ₁ φ₂ : FTy} (A : FVec Ideal S512x128 φ₁) (B : FVec Ideal S128x512 φ₂) (p q : Fin 512) :
    matmul dot_S512x128_S128x512_S512x512_1_0_0_1_n_n none A B (constant S512x512 .f32 0x00000000#32) (ix2 p q)
      = ∑ k : Fin 128, A (ix2 p k) * B (ix2 k q) := by
  simp only [matmul]
  rw [Ideal.matmul_constant_zero_apply, ← Equiv.sum_comp (contrEquiv1 dot_S512x128_S128x512_S512x512_1_0_0_1_n_n 128 rfl rfl).symm]
  refine Finset.sum_congr rfl fun k _ => ?_
  have hk := contrEquiv1_symm_val dot_S512x128_S128x512_S512x512_1_0_0_1_n_n 128 rfl rfl k
  have el : dot_S512x128_S128x512_S512x512_1_0_0_1_n_n.lhsIdx (ix2 p q) ((contrEquiv1 dot_S512x128_S128x512_S512x512_1_0_0_1_n_n 128 rfl rfl).symm k) = ix2 p k := funext fun a => Fin.ext (by
    match a with
    | ⟨0, _⟩ => exact klhs0 _ _
    | ⟨1, _⟩ => exact (klhs1 _ _).trans hk)
  have er : dot_S512x128_S128x512_S512x512_1_0_0_1_n_n.rhsIdx (ix2 p q) ((contrEquiv1 dot_S512x128_S128x512_S512x512_1_0_0_1_n_n 128 rfl rfl).symm k) = ix2 k q := funext fun a => Fin.ext (by
    match a with
    | ⟨0, _⟩ => exact (krhs0 _ _).trans hk
    | ⟨1, _⟩ => exact krhs1 _ _)
  rw [el, er]

end KernelDot

/-! ## The distance matrix as a function of the embedding matrix

For a `[512, 128]` matrix `x` of extended reals: the squared norm of a row, the inner product of two rows, the squared
distance of two rows clamped at zero, and the guarded square root of it. Both programs compute `entry x p q` at `(p, q)`. -/

/-- A `[512, 128]` matrix of extended reals. -/
abbrev Mat : Type := (⟨2, ![512, 128]⟩ : Shape).Idx → EReal

/-- The squared norm of row `p`. -/
def nrm (x : Mat) (p : Fin 512) : EReal := ∑ k : Fin 128, x (ix2 p k) * x (ix2 p k)
/-- The inner product of rows `p` and `q`. -/
def gram (x : Mat) (p q : Fin 512) : EReal := ∑ k : Fin 128, x (ix2 p k) * x (ix2 q k)
/-- The squared distance of rows `p` and `q`, clamped at zero. -/
def sqd (x : Mat) (p q : Fin 512) : EReal :=
  max (nrm x p + nrm x q - Ideal.ofBits .f32 0x40000000#32 * gram x p q) (Ideal.ofBits .f32 0x00000000#32)
/-- Whether the clamped squared distance is positive. -/
def pos (x : Mat) (p q : Fin 512) : BitVec 1 :=
  FloatOps.cmpf (F := Ideal) (φ := .f32) .ogt (sqd x p q) (Ideal.ofBits .f32 0x00000000#32)
/-- The distance of rows `p` and `q`: the square root of the clamped squared distance where that is positive (the root is
    taken of `1` elsewhere), and zero elsewhere. -/
def entry (x : Mat) (p q : Fin 512) : EReal :=
  Scalar.select (pos x p q) (Ideal.sqrt (Scalar.select (pos x p q) (sqd x p q) (Ideal.ofBits .f32 0x3F800000#32)))
    (Ideal.ofBits .f32 0x00000000#32)

/-! ## The kernel's payload at an index -/

section KernelEntry
open Cert.KernelIdeal Cert.KernelIdeal.Gen

/-- A square root at an index is the square root of the element. -/
theorem sqrt_apply {s : Shape} {φ : FTy} (a : FVec Ideal s φ) (i : s.Idx) : sqrt a i = Ideal.sqrt (a i) := rfl

/-- The kernel's row reduction of the squared entries reads, at `p`, the squared norm of row `p`. -/
theorem k_rowSum (x : Vec Ideal S512x128 .f32) (p : Fin 512) :
    multiReduction (F := Ideal) .add [1] S512 (mulf (F := Ideal) x x) 0x00000000#32 reduces_S512x128_S512 (.inl rfl) rfl (ix1 p) = nrm x p :=
  (rowSum_apply (mulf x x) reduces_S512x128_S512 _ _ p).trans rfl

/-- The kernel's transpose reads, at `(k, q)`, its operand at `(q, k)`. -/
theorem k_transpose (A : FVec Ideal S512x128 .bf16) (k : Fin 128) (q : Fin 512) :
    transpose S128x512 [1, 0] A transposes_S512x128_p1_0_S128x512 (ix2 k q) = A (ix2 q k) :=
  transpose_ix2_apply A _ k q

/-- The kernel's contraction of the matrix with its transpose reads, at `(p, q)`, the inner product of rows `p` and
    `q` (the narrowing of the operands is the identity on extended reals). -/
theorem k_gram (x : Vec Ideal S512x128 .f32) (p q : Fin 512) :
    matmul (F := Ideal) dot_S512x128_S128x512_S512x512_1_0_0_1_n_n none (truncf (F := Ideal) .bf16 x bitsLt_bf16_f32)
      (transpose S128x512 [1, 0] (truncf (F := Ideal) .bf16 x bitsLt_bf16_f32) transposes_S512x128_p1_0_S128x512)
      (constant (F := Ideal) S512x512 .f32 0x00000000#32) (ix2 p q) = gram x p q := by
  rw [kdot_apply]
  refine Finset.sum_congr rfl fun k _ => ?_
  rw [k_transpose]
  rfl

/-- The kernel's payload at `(p, q)` is the distance of rows `p` and `q`. -/
theorem kernel_entry (x : Vec Ideal S512x128 .f32) (p q : Fin 512) : k0_pay1 (F := Ideal) x (ix2 p q) = entry x p q := by
  unfold k0_pay1
  simp only [select_apply, cmpf_apply, broadcast_apply, sqrt_apply, maximumf_apply, subf_apply, addf_apply, mulf_apply,
    broadcastTo_a1_ab_apply (a := 512) (by decide), shapeCast_a_a1_apply, broadcastTo_1b_ab_apply, shapeCast_a_1a_apply]
  rw [k_rowSum x p, k_rowSum x q, k_gram x p q]
  rfl

end KernelEntry

/-! ## The reference's distance matrix at an index -/

section ReferenceEntry
open Cert.ReferenceIdeal Cert.ReferenceIdeal.Gen Cert.ReferenceIdeal.ReadP

/-- The reference's row reduction of the squared entries reads, at `p`, the squared norm of row `p`: its initial value
    is zero. -/
theorem r_rowSum (x : (⟨S512x128, .f32⟩ : BufTy).Contents (Elt Ideal)) (p : Fin 512) :
    val_main_v1 (F := Ideal) x (ix1 p) = nrm x p := by
  rw [val_main_v1_apply]
  show Ideal.ofBits .f32 0x00000000#32 + _ = _
  rw [Ideal.ofBits_zero_f32, zero_add]
  refine Finset.sum_congr rfl fun k _ => ?_
  rw [val_main_v0_apply]
  have e : idx_main_v1 (ix1 p) k = ix2 p k := funext fun a => by match a with | ⟨0, _⟩ => rfl | ⟨1, _⟩ => rfl
  rw [e]
  rfl

/-- The reference's contraction reads, at `(p, q)`, the inner product of rows `p` and `q`. -/
theorem r_gram (x : (⟨S512x128, .f32⟩ : BufTy).Contents (Elt Ideal)) (p q : Fin 512) :
    val_main_v8 (F := Ideal) x (ix2 p q) = gram x p q := by
  rw [val_main_v8_apply]
  refine Finset.sum_congr rfl fun k _ => ?_
  rw [val_main_v7_apply]
  have e1 : lidx_main_v8 (ix2 p q) k = ix2 p k := funext fun a => by match a with | ⟨0, _⟩ => rfl | ⟨1, _⟩ => rfl
  have e2 : idx_main_v7 (ridx_main_v8 (ix2 p q) k) = ix2 q k := funext fun a => by match a with | ⟨0, _⟩ => rfl | ⟨1, _⟩ => rfl
  rw [e1, e2]

/-- The reference's clamped squared distance at `(p, q)`. -/
theorem r_sqd (x : (⟨S512x128, .f32⟩ : BufTy).Contents (Elt Ideal)) (p q : Fin 512) :
    val_main_v13 (F := Ideal) x (ix2 p q) = sqd x p q := by
  have e4 : idx_main_v2 (idx_main_v4 (ix2 p q)) = ix1 p := funext fun a => by match a with | ⟨0, _⟩ => rfl
  have e5 : idx_main_v3 (idx_main_v5 (ix2 p q)) = ix1 q := funext fun a => by match a with | ⟨0, _⟩ => rfl
  rw [val_main_v13_apply, val_main_v11_apply, val_main_v6_apply, val_main_v10_apply, val_main_v4_apply, val_main_v2_apply,
    val_main_v5_apply, val_main_v3_apply, val_main_v9_apply, val_main_cst_0_apply, val_main_v12_apply, val_main_cst_1_apply,
    e4, e5, r_rowSum, r_rowSum, r_gram]
  rfl

/-- The reference's result at `(p, q)` is the distance of rows `p` and `q`. -/
theorem reference_entry (x : (⟨S512x128, .f32⟩ : BufTy).Contents (Elt Ideal)) (p q : Fin 512) :
    val_main_v18 (F := Ideal) x (ix2 p q) = entry x p q := by
  rw [val_main_v18_apply, val_main_v17_apply, val_main_v16_apply, val_main_v15_apply, r_sqd, val_main_v14_apply,
    val_main_cst_2_apply, val_main_call0_v1_apply, val_main_call0_v0_apply, val_main_cst_3_apply, val_main_call1_v1_apply,
    val_main_call1_v0_apply, val_main_cst_4_apply]
  rfl

end ReferenceEntry

/-! ## The two distance matrices are equal -/

/-- What the kernel's distance region leaves in its output buffer is the reference's distance matrix. -/
theorem dist_eq (x : Idealize.ShloMosaic.Vec Ideal Cert.KernelIdeal.S512x128 .f32) :
    Cert.KernelIdeal.Dist.dist (F := Ideal) x = Cert.ReferenceIdeal.ReadP.val_main_v18 (F := Ideal) x := by
  have h0 : (![0, 0] : Fin 2 → ℕ) = fun _ => 0 := funext fun a => by match a with | ⟨0, _⟩ => rfl | ⟨1, _⟩ => rfl
  unfold Cert.KernelIdeal.Dist.dist
  rw [View.canon_unit_zero h0, View.ld_unit_zero h0]
  funext j
  obtain ⟨p, q, rfl⟩ : ∃ (p q : Fin 512), j = ix2 p q := ⟨j 0, j 1, eq_ix2 j⟩
  rw [kernel_entry, reference_entry]

end Cert.Proof.DistEq

end
-- ==== Proof.Algebraic.lean ====
/-
  The algebraic conjunct: the idealized kernel and the idealized reference return the same extended real.

  Both end with the same mean — s / max(n, 1) if n > 0, else 0 — of a loss sum s and a count n, so it is enough that the two
  sums and the two counts agree. On the kernel's side s is zero plus the sum over all triplets (i, j, k) of
  hinge(d(i,j), d(i,k)) · p(i,j) · n(i,k) with p, n the 0/1 values of two bits, and the count is the same sum without the hinge.
  On the reference's side s is zero plus the sum of select(valid(i,j,k), hinge, 0) and the count is the number of valid
  triplets, summed in 32-bit words (512³ = 2^27 of them, so the word sum never wraps) and converted. A product by a 0/1
  value is a select, on every extended real, infinite ones included; valid(i,j,k) is the conjunction of the two bits; and the
  two distance matrices are the same function of the embeddings. No finiteness of the inputs is used.
-/
import proofs.«146165_j50122268344327_2_alg».proof.Proof.IdealTotals
import proofs.«146165_j50122268344327_2_alg».proof.Proof.IdealArrays
import proofs.«146165_j50122268344327_2_alg».proof.Proof.IdealResult
import proofs.«146165_j50122268344327_2_alg».proof.Proof.RefReadP
import proofs.«146165_j50122268344327_2_alg».proof.Proof.RefSums
import proofs.«146165_j50122268344327_2_alg».proof.Proof.DistEq
import proofs.«146165_j50122268344327_2_alg».proof.Proof.RefFrame
import proofs.«146165_j50122268344327_2_alg».proof.Proof.LibTripletSums

set_option maxRecDepth 16384

noncomputable section

namespace Cert.Proof.Alg

open Idealize.ShloMosaic Idealize.ShloMosaic.TcCoe Idealize.ShloMosaic.ValueIdx Idealize.SL.Sem
open Cert.KernelIdeal Cert.KernelIdeal.Gen Cert.KernelIdeal.Slab

/-! ## The kernel's two totals, over the arguments -/

/-- The anchor–positive bit of samples i, j with labels ℓ: same label, different positions. -/
def pB (ℓ : S512.Idx → BitVec 32) (i j : Fin 512) : BitVec 1 :=
  IntOp.andi (IntOp.cmpi .eq (ℓ (ix1 i)) (ℓ (ix1 j)))
    (IntOp.xori (IntOp.cmpi .eq (BitVec.ofNat 32 i.val) (BitVec.ofNat 32 j.val)) 1#1)
/-- The anchor–negative bit of samples i, k: different labels. -/
def nB (ℓ : S512.Idx → BitVec 32) (i k : Fin 512) : BitVec 1 := negBit (ℓ (ix1 i)) (ℓ (ix1 k))

/-- The kernel's loss total over a distance matrix D and labels ℓ. -/
def kSum (D : S512x512.Idx → EReal) (ℓ : S512.Idx → BitVec 32) : EReal :=
  Trip.zeroSum (F := Ideal) (ix2 0 0)
    + ∑ i : Fin 512, ∑ j : Fin 512, ∑ k : Fin 512, hinge (D (ix2 i j)) (D (ix2 i k)) * (bitVal (pB ℓ i j) * bitVal (nB ℓ i k))
/-- The kernel's count total over labels ℓ. -/
def kCnt (ℓ : S512.Idx → BitVec 32) : EReal :=
  Trip.zeroCnt (F := Ideal) (ix2 0 0) + ∑ i : Fin 512, ∑ j : Fin 512, ∑ k : Fin 512, bitVal (pB ℓ i j) * bitVal (nB ℓ i k)

variable (m : (ℓ : Loc nD τ sig) → Buf (Elt Ideal) ℓ)

theorem pBit_eq (c : Dev nD) (i j : Fin 512) :
    Totals.pBit (Whole.E2 m) c i j = pB (m ((c : Thread nD τ).loc main_arg1)) i j := by
  unfold Totals.pBit pB
  rw [Arrays.E2_col, Arrays.E2_row]
  dsimp only
  rw [Arrays.col_apply, Arrays.row_apply]

theorem nBit_eq (c : Dev nD) (i k : Fin 512) :
    Totals.nBit (Whole.E2 m) c i k = nB (m ((c : Thread nD τ).loc main_arg1)) i k := by
  unfold Totals.nBit nB
  rw [Arrays.E2_col, Arrays.E2_row]
  dsimp only
  rw [Arrays.col_apply, Arrays.row_apply]

/-- The loss array's one entry after the run. -/
theorem sumArr_eq (c : Dev nD) :
    Result.sumArr m c (ix2 0 0) = kSum (Cert.KernelIdeal.Dist.dist (m ((c : Thread nD τ).loc main_arg0))) (m ((c : Thread nD τ).loc main_arg1)) := by
  rw [show Result.sumArr m c (ix2 0 0) = _ from Totals.total_sum (Whole.E2 m) c (ix2 0 0)]
  unfold kSum
  refine congrArg (_ + ·) (Finset.sum_congr rfl fun i _ => Finset.sum_congr rfl fun j _ => Finset.sum_congr rfl fun k _ => ?_)
  unfold Totals.lossTerm
  rw [pBit_eq, nBit_eq, Arrays.E2_dist]

/-- The count array's one entry after the run. -/
theorem cntArr_eq (c : Dev nD) :
    Result.cntArr m c (ix2 0 0) = kCnt (m ((c : Thread nD τ).loc main_arg1)) := by
  rw [show Result.cntArr m c (ix2 0 0) = _ from Totals.total_cnt (Whole.E2 m) c (ix2 0 0)]
  unfold kCnt
  refine congrArg (_ + ·) (Finset.sum_congr rfl fun i _ => Finset.sum_congr rfl fun j _ => Finset.sum_congr rfl fun k _ => ?_)
  unfold Totals.cntTerm
  rw [pBit_eq, nBit_eq]

/-! ## The mean, at an index -/

/-- The mean of a loss sum s and a count n as extended reals: s / max(n, 1) if n > 0, else 0, with the host's division. -/
def mean (s n : EReal) : EReal :=
  Scalar.select (FloatOps.cmpf (F := Ideal) .ogt n (Ideal.ofBits .f32 0x00000000#32))
    (FloatOps.hostDivf (F := Ideal) s (max n (Ideal.ofBits .f32 0x3F800000#32)))
    (Ideal.ofBits .f32 0x00000000#32)

/-- A [1,1] array read as a scalar. -/
theorem cast_scalar {α : Type} (v : S1x1.Idx → α) (i : S_.Idx) : shapeCast S_ v shapeCasts_S1x1_S_ i = v (ix2 0 0) := by
  refine shapeCast_apply v shapeCasts_S1x1_S_ i (ix2 0 0) ?_
  have h : (S_.rowMajor i).val = 0 := Nat.lt_one_iff.mp (lt_of_lt_of_eq (S_.rowMajor i).isLt (by decide))
  rw [Shape.rowMajor_val_two, h]
  rfl

/-- The kernel's tail is the mean of the two arrays' entries. -/
theorem tail_apply (s n : Vec Ideal S1x1 .f32) (i : S_.Idx) :
    Result.tail (F := Ideal) s n i = mean (s (ix2 0 0)) (n (ix2 0 0)) := by
  unfold Result.tail mean
  simp only [select, cmpf, Host.divf, maximumf, constant, cast_scalar]
  rfl

/-! ## A product by a bit's value is a select -/

theorem bitVal_one : bitVal 1#1 = 1 := by
  show ((((1#1 : BitVec 1).setWidth 32).toInt : ℝ) : EReal) = 1
  norm_num [BitVec.toInt]
theorem bitVal_zero : bitVal 0#1 = 0 := by
  show ((((0#1 : BitVec 1).setWidth 32).toInt : ℝ) : EReal) = 0
  norm_num [BitVec.toInt]

/-- On every extended real h: h · (value of p) · (value of n) is h if both bits are set, else 0. -/
theorem mul_bits (p n : BitVec 1) (h : EReal) :
    h * (bitVal p * bitVal n) = Scalar.select (IntOp.andi p n) h 0 := by
  rcases (by decide : ∀ b : BitVec 1, b = 0#1 ∨ b = 1#1) p with rfl | rfl <;>
  rcases (by decide : ∀ b : BitVec 1, b = 0#1 ∨ b = 1#1) n with rfl | rfl
  · rw [bitVal_zero, mul_zero, mul_zero]; rfl
  · rw [bitVal_zero, zero_mul, mul_zero]; rfl
  · rw [bitVal_zero, mul_zero, mul_zero]; rfl
  · rw [bitVal_one, mul_one, mul_one]; rfl

/-! ## The two sides' sums and counts agree -/

open Cert.ReferenceIdeal.ReadP in
/-- The reference's validity bit of a triplet is the conjunction of the kernel's two bits. -/
theorem valid_bits (ℓ : S512.Idx → BitVec 32) (i j k : Fin 512) :
    val_main_v36 (F := Ideal) ℓ (ix3 i j k) = IntOp.andi (pB ℓ i j) (nB ℓ i k) := by
  rw [Cert.Proof.RefSums.valid_eq]
  unfold pB nB negBit
  have h0 : IntOp.addi (BitVec.ofNat 32 i.val) 0#32 = BitVec.ofNat 32 i.val := BitVec.add_zero _
  have hn : ∀ b : BitVec 1, ~~~b = IntOp.xori b 1#1 := by decide
  rw [h0, hn, hn]

open Cert.ReferenceIdeal.ReadP in
/-- The loss sums agree: the kernel's, over the reference's distance matrix, is the reference's total. -/
theorem sum_join (x : Vec Ideal S512x128 .f32) (ℓ : S512.Idx → BitVec 32) :
    kSum (val_main_v18 (F := Ideal) x) ℓ = val_main_v49 (F := Ideal) x ℓ ix0 := by
  rw [Cert.Proof.RefSums.total_eq]
  unfold kSum
  refine congrArg₂ (· + ·) rfl (Finset.sum_congr rfl fun i _ => Finset.sum_congr rfl fun j _ => Finset.sum_congr rfl fun k _ => ?_)
  rw [mul_bits, valid_bits, ← Ideal.ofBits_zero_f32]
  rfl

/-- A product of two bits' values is the 0/1 indicator, as a real, of their conjunction. -/
theorem bits_indicator (p n : BitVec 1) :
    bitVal p * bitVal n = (((if IntOp.andi p n = 1#1 then (1 : ℝ) else 0) : ℝ) : EReal) := by
  rcases (by decide : ∀ b : BitVec 1, b = 0#1 ∨ b = 1#1) p with rfl | rfl <;>
  rcases (by decide : ∀ b : BitVec 1, b = 0#1 ∨ b = 1#1) n with rfl | rfl
  · rw [bitVal_zero, mul_zero, if_neg (by decide)]; rfl
  · rw [bitVal_zero, zero_mul, if_neg (by decide)]; rfl
  · rw [bitVal_zero, mul_zero, if_neg (by decide)]; rfl
  · rw [bitVal_one, mul_one, if_pos (by decide)]; rfl

open Cert.ReferenceIdeal.ReadP in
/-- The counts agree: the kernel's sum of 0/1 values is the number of valid triplets, which is what the reference's
    32-bit sum converts to. -/
theorem cnt_join (ℓ : S512.Idx → BitVec 32) : kCnt ℓ = val_main_v47 (F := Ideal) ℓ ix0 := by
  rw [Cert.Proof.RefSums.count_eq]
  unfold kCnt
  have hz : Trip.zeroCnt (F := Ideal) (ix2 0 0) = 0 := Ideal.ofBits_zero_f32
  rw [hz, zero_add]
  have hterm : ∀ i j k : Fin 512, bitVal (pB ℓ i j) * bitVal (nB ℓ i k)
      = (((if val_main_v36 (F := Ideal) ℓ (ix3 i j k) = 1#1 then (1 : ℝ) else 0) : ℝ) : EReal) := fun i j k => by
    rw [bits_indicator, valid_bits]
  simp only [hterm, Cert.Lib.TripletSums.coe_sum]
  refine congrArg (fun r : ℝ => (r : EReal)) ?_
  rw [← Cert.Lib.TripletSums.sum_indicator Finset.univ (fun q : Fin 512 × Fin 512 × Fin 512 => val_main_v36 (F := Ideal) ℓ (ix3 q.1 q.2.1 q.2.2) = 1#1),
    Fintype.sum_prod_type]
  refine Finset.sum_congr rfl fun i _ => ?_
  rw [Fintype.sum_prod_type]

open Cert.ReferenceIdeal.ReadP in
/-- The reference's result at its one index is the mean of its total and its count. -/
theorem ref_apply (x : Vec Ideal S512x128 .f32) (ℓ : S512.Idx → BitVec 32) (i : S_.Idx) :
    val_main_v53 (F := Ideal) x ℓ i = mean (val_main_v49 (F := Ideal) x ℓ ix0) (val_main_v47 (F := Ideal) ℓ ix0) := by
  obtain rfl := eq_ix0 i
  rfl

/-! ## The conjunct -/

/-- From memories agreeing on the two arguments both idealized programs run to the end and return the same extended real,
    the arguments unchanged. -/
theorem algebraic : Cert.algebraic_KernelIdeal_ReferenceIdeal := by
  intro m ρ m' ρ' _ hagree
  refine ⟨fun c => Whole.W5 m c (Proc.devRef .tc main_v9), Whole.run (F := Ideal) m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v53_eq, (hagree c).1, (hagree c).2]
  show _ = Whole.W5 m c (Proc.devRef .tc main_v9)
  rw [Result.result_eq]
  funext i
  rw [tail_apply, sumArr_eq, cntArr_eq, Cert.Proof.DistEq.dist_eq, sum_join, cnt_join]
  exact (ref_apply _ _ i).symm

end Cert.Proof.Alg

end
-- ==== Proof.lean ====
/-
  The certificate of a batch-all triplet loss: a two-stage kernel (pairwise distances, then a tiled sum of hinge terms
  and a tiled count of valid triplets, then the mean) against the plain formula over all 512³ triplets.

  The three frames. Each of the two kernel programs is run as five segments — the distance region, two reshapes, the
  triplet region, the host operations of the mean — with every unscoped buffer's contents known at each boundary
  (Proof/IdealWhole.lean and Proof/BitsWhole.lean: the same proof at the two float instances); no segment writes an
  argument. The reference is a straight-line host program and its frame is its run read back (Proof/RefFrame.lean).
  The kernel's idealization rewrote no operation, so there is nothing to preserve.

  The value. The same run also reads the kernel's result buffer: the mean, s / max(n, 1) if n > 0 else 0, of the two [1,1]
  accumulators the triplet region leaves, each zero plus the sum over the 128 grid points of the point's slab sum, which is
  the sum over all 512³ triplets since the 32 × 4 tiles cover them once (Proof/IdealResult.lean, IdealSlab.lean,
  IdealTotals.lean, IdealArrays.lean). The reference's result is the same mean of its total and its count
  (Proof/RefSums.lean), the two distance matrices are one function of the embeddings (Proof/DistEq.lean), a product by a
  0/1 value is a select on every extended real, and a 32-bit sum of 2^27 bits does not wrap (Proof/Algebraic.lean). The
  finiteness of the inputs is not used.
-/
import proofs.«146165_j50122268344327_2_alg».proof.Defs
import proofs.«146165_j50122268344327_2_alg».proof.Proof.RefFrame
import proofs.«146165_j50122268344327_2_alg».proof.Proof.IdealWhole
import proofs.«146165_j50122268344327_2_alg».proof.Proof.BitsWhole
import proofs.«146165_j50122268344327_2_alg».proof.Proof.Algebraic
import proofs.«146165_j50122268344327_2_alg».proof.Proof.Gen.Kernel
import proofs.«146165_j50122268344327_2_alg».proof.Proof.Gen.KernelIdeal
import proofs.«146165_j50122268344327_2_alg».proof.Proof.Gen.ReferenceIdeal
import proofs.«146165_j50122268344327_2_alg».proof.Proof.Gen.Pre_finite_inputs
import Idealize.ShloMosaic.Adequacy
import Idealize.ShloMosaic.Init

noncomputable section

namespace Cert.Proof

open Idealize.ShloMosaic Idealize.SL.Sem

/-- The word-level kernel runs to the end without a fault and leaves both arguments as launched. -/
theorem frame_k : Cert.frame_Kernel := fun m ρ _ =>
  (θ_run Cert.Kernel.defs _ _).mono (fun _ h c => (h c).2) (Cert.Kernel.Whole.run (F := Bits) m ρ)

/-- The idealized kernel runs to the end without a fault and leaves both arguments as launched. -/
theorem frame_ki : Cert.frame_KernelIdeal := fun m ρ _ =>
  (θ_run Cert.KernelIdeal.defs _ _).mono (fun _ h c => (h c).2) (Cert.KernelIdeal.Whole.run (F := Ideal) m ρ)

/-- The ideal pass rewrote nothing: the idealized kernel is the kernel's own text read over the extended reals. -/
theorem preserves : Cert.preserves_Kernel_KernelIdeal := trivial

/-- The two idealized programs return the same extended real. -/
theorem algebraic : Cert.algebraic_KernelIdeal_ReferenceIdeal := Alg.algebraic

theorem claim : Cert.Claim :=
  ⟨Cert.Kernel.Gen.facts, Cert.KernelIdeal.Gen.facts, Cert.ReferenceIdeal.Gen.facts, Cert.Pre_finite_inputs.Gen.facts,
    frame_k, frame_ki, RefSide.frame_ri, preserves, algebraic⟩

end Cert.Proof

end
